-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v116)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v116) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v198) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S3x256x256 : Shape := ⟨3, ![3, 256, 256]⟩
abbrev S3x256 : Shape := ⟨2, ![3, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S1 .f32) (main_v63 : IVec S_ 1) (main_v67 : IVec S_ 1) : IVec S_ 1 :=
  let main_v68 : IVec S_ 1 := andi main_v63 main_v67
  let main_v69 : FVec F S1 .f32 := Host.absf main_arg16
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg13 : FVec F S256x128 .f32) (main_arg14 : FVec F S128 .f32) (main_arg15 : FVec F S128x1 .f32) (main_arg16 : FVec F S1 .f32) (main_v48 : IVec S_ 1) (main_v49 : FVec F S3x256 .f32) (main_v50 : FVec F S3x256 .f32) : IVec S_ 1 :=
  let main_v51 : IVec S3x256 1 := cmpf .olt main_v49 main_v50
  let main_c_19 : IVec S_ 1 := constantI S_ 1 1#1
  let main_v52 : IVec S_ 1 := (fun x v => Host.reduce IntOp.andi x v reducesTo_S3x256_S_d0_1 h_S_) main_v51 main_c_19
  let main_v53 : IVec S_ 1 := andi main_v48 main_v52
  let main_v54 : FVec F S256x128 .f32 := Host.absf main_arg13
  let main_cst_20 : FVec F S_ .f32 := constant S_ .f32 0x7F800000#32
  let main_v55 : FVec F S256x128 .f32 := broadcastInDim S256x128 ![] bcast_S_S256x128 main_cst_20
  let main_v56 : IVec S256x128 1 := cmpf .olt main_v54 main_v55
  let main_c_21 : IVec S_ 1 := constantI S_ 1 1#1
  let main_v57 : IVec S_ 1 := (fun x v => Host.reduce IntOp.andi x v reducesTo_S256x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x1 .f32 := Host.absf main_arg15
  let main_cst_24 : FVec F S_ .f32 := constant S_ .f32 0x7F800000#32
  let main_v65 : FVec F S128x1 .f32 := broadcastInDim S128x1 ![] bcast_S_S128x1 main_cst_24
  let main_v66 : IVec S128x1 1 := cmpf .olt main_v64 main_v65
  let main_c_25 : IVec S_ 1 := constantI S_ 1 1#1
  let main_v67 : IVec S_ 1 := (fun x v => Host.reduce IntOp.andi x v reducesTo_S128x1_S_d0_1 h_S_) main_v66 main_c_25
  fn_part4 (F := F) main_arg16 main_v63 main_v67

def fn_part2 {F : FTy → Type} [FloatOps F] (main_arg9 : FVec F S3x256x256 .f32) (main_arg10 : FVec F S3x256 .f32) (main_arg11 : FVec F S3x256 .f32) (main_arg12 : FVec F S3x256 .f32) (main_arg13 : FVec F S256x128 .f32) (main_arg14 : FVec F S128 .f32) (main_arg15 : FVec F S128x1 .f32) (main_arg16 : FVec F S1 .f32) (main_v33 : IVec S_ 1) : IVec S_ 1 :=
  let main_v34 : FVec F S3x256x256 .f32 := Host.absf main_arg9
  let main_cst_12 : FVec F S_ .f32 := constant S_ .f32 0x7F800000#32
  let main_v35 : FVec F S3x256x256 .f32 := broadcastInDim S3x256x256 ![] bcast_S_S3x256x256 main_cst_12
  let main_v36 : IVec S3x256x256 1 := cmpf .olt main_v34 main_v35
  let main_c_13 : IVec S_ 1 := constantI S_ 1 1#1
  let main_v37 : IVec S_ 1 := (fun x v => Host.reduce IntOp.andi x v reducesTo_S3x256x256_S_d0_1_2 h_S_) main_v36 main_c_13
  let main_v38 : IVec S_ 1 := andi main_v33 main_v37
  let main_v39 : FVec F S3x256 .f32 := Host.absf main_arg10
  let main_cst_14 : FVec F S_ .f32 := constant S_ .f32 0x7F800000#32
  let main_v40 : FVec F S3x256 .f32 := broadcastInDim S3x256 ![] bcast_S_S3x256 main_cst_14
  let main_v41 : IVec S3x256 1 := cmpf .olt main_v39 main_v40
  let main_c_15 : IVec S_ 1 := constantI S_ 1 1#1
  let main_v42 : IVec S_ 1 := (fun x v => Host.reduce IntOp.andi x v reducesTo_S3x256_S_d0_1 h_S_) main_v41 main_c_15
  let main_v43 : IVec S_ 1 := andi main_v38 main_v42
  let main_v44 : FVec F S3x256 .f32 := Host.absf main_arg11
  let main_cst_16 : FVec F S_ .f32 := constant S_ .f32 0x7F800000#32
  let main_v45 : FVec F S3x256 .f32 := broadcastInDim S3x256 ![] bcast_S_S3x256 main_cst_16
  let main_v46 : IVec S3x256 1 := cmpf .olt main_v44 main_v45
  let main_c_17 : IVec S_ 1 := constantI S_ 1 1#1
  let main_v47 : IVec S_ 1 := (fun x v => Host.reduce IntOp.andi x v reducesTo_S3x256_S_d0_1 h_S_) main_v46 main_c_17
  let main_v48 : IVec S_ 1 := andi main_v43 main_v47
  let main_v49 : FVec F S3x256 .f32 := Host.absf main_arg12
  let main_cst_18 : FVec F S_ .f32 := constant S_ .f32 0x7F800000#32
  let main_v50 : FVec F S3x256 .f32 := broadcastInDim S3x256 ![] bcast_S_S3x256 main_cst_18
  fn_part3 (F := F) main_arg13 main_arg14 main_arg15 main_arg16 main_v48 main_v49 main_v50

def fn_part1 {F : FTy → Type} [FloatOps F] (main_arg6 : FVec F S256 .f32) (main_arg7 : FVec F S3x256x256 .f32) (main_arg8 : FVec F S3x256 .f32) (main_arg9 : FVec F S3x256x256 .f32) (main_arg10 : FVec F S3x256 .f32) (main_arg11 : FVec F S3x256 .f32) (main_arg12 : FVec F S3x256 .f32) (main_arg13 : FVec F S256x128 .f32) (main_arg14 : FVec F S128 .f32) (main_arg15 : FVec F S128x1 .f32) (main_arg16 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S3x256x256 .f32 := Host.absf main_arg7
  let main_cst_8 : FVec F S_ .f32 := constant S_ .f32 0x7F800000#32
  let main_v25 : FVec F S3x256x256 .f32 := broadcastInDim S3x256x256 ![] bcast_S_S3x256x256 main_cst_8
  let main_v26 : IVec S3x256x256 1 := cmpf .olt main_v24 main_v25
  let main_c_9 : IVec S_ 1 := constantI S_ 1 1#1
  let main_v27 : IVec S_ 1 := (fun x v => Host.reduce IntOp.andi x v reducesTo_S3x256x256_S_d0_1_2 h_S_) main_v26 main_c_9
  let main_v28 : IVec S_ 1 := andi main_v23 main_v27
  let main_v29 : FVec F S3x256 .f32 := Host.absf main_arg8
  let main_cst_10 : FVec F S_ .f32 := constant S_ .f32 0x7F800000#32
  let main_v30 : FVec F S3x256 .f32 := broadcastInDim S3x256 ![] bcast_S_S3x256 main_cst_10
  let main_v31 : IVec S3x256 1 := cmpf .olt main_v29 main_v30
  let main_c_11 : IVec S_ 1 := constantI S_ 1 1#1
  let main_v32 : IVec S_ 1 := (fun x v => Host.reduce IntOp.andi x v reducesTo_S3x256_S_d0_1 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S50000x128 .f32) (main_arg1 : IVec S2x800000 32) (main_arg2 : IVec S50000 32) (main_arg3 : FVec F S128x256 .f32) (main_arg4 : FVec F S256 .f32) (main_arg5 : FVec F S256x256 .f32) (main_arg6 : FVec F S256 .f32) (main_arg7 : FVec F S3x256x256 .f32) (main_arg8 : FVec F S3x256 .f32) (main_arg9 : FVec F S3x256x256 .f32) (main_arg10 : FVec F S3x256 .f32) (main_arg11 : FVec F S3x256 .f32) (main_arg12 : FVec F S3x256 .f32) (main_arg13 : FVec F S256x128 .f32) (main_arg14 : FVec F S128 .f32) (main_arg15 : FVec F S128x1 .f32) (main_arg16 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S3x256x256 : Shape := ⟨3, ![3, 256, 256]⟩
abbrev S3x256 : Shape := ⟨2, ![3, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S2000 : Shape := ⟨1, ![2000]⟩
abbrev S2000x1 : Shape := ⟨2, ![2000, 1]⟩
abbrev S800000x256 : Shape := ⟨2, ![800000, 256]⟩
abbrev S1x256x256 : Shape := ⟨3, ![1, 256, 256]⟩
abbrev S50000x1 : Shape := ⟨2, ![50000, 1]⟩
abbrev S256x1 : Shape := ⟨2, ![256, 1]⟩
abbrev S1x128 : Shape := ⟨2, ![1, 128]⟩
abbrev S1x1 : Shape := ⟨2, ![1, 1]⟩

abbrev nBuf : Space → Nat
  | .hbm => 150
  | .vmem => 44
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x256, .f32⟩
  | 4 => ⟨S256, .f32⟩
  | 5 => ⟨S256x256, .f32⟩
  | 6 => ⟨S256, .f32⟩
  | 7 => ⟨S3x256x256, .f32⟩
  | 8 => ⟨S3x256, .f32⟩
  | 9 => ⟨S3x256x256, .f32⟩
  | 10 => ⟨S3x256, .f32⟩
  | 11 => ⟨S3x256, .f32⟩
  | 12 => ⟨S3x256, .f32⟩
  | 13 => ⟨S256x128, .f32⟩
  | 14 => ⟨S128, .f32⟩
  | 15 => ⟨S128x1, .f32⟩
  | 16 => ⟨S1, .f32⟩
  | 17 => ⟨S1x800000, .i32⟩
  | 18 => ⟨S800000, .i32⟩
  | 19 => ⟨S1x800000, .i32⟩
  | 20 => ⟨S800000, .i32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x128, .f32⟩
  | 30 => ⟨S_, .f32⟩
  | 31 => ⟨S50000x128, .f32⟩
  | 32 => ⟨S800000x1, .i32⟩
  | 33 => ⟨S50000x128, .f32⟩
  | 34 => ⟨S50000x128, .f32⟩
  | 35 => ⟨S1x256, .f32⟩
  | 36 => ⟨S256, .f32⟩
  | 37 => ⟨S1x256, .f32⟩
  | 38 => ⟨S256, .f32⟩
  | 39 => ⟨S1x256, .f32⟩
  | 40 => ⟨S1x256, .f32⟩
  | 41 => ⟨S1x256, .f32⟩
  | 42 => ⟨S1x256, .f32⟩
  | 43 => ⟨S50000x256, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x256, .f32⟩
  | 53 => ⟨S_, .f32⟩
  | 54 => ⟨S50000x256, .f32⟩
  | 55 => ⟨S800000x1, .i32⟩
  | 56 => ⟨S50000x256, .f32⟩
  | 57 => ⟨S50000x256, .f32⟩
  | 58 => ⟨S1x256x256, .f32⟩
  | 59 => ⟨S256x256, .f32⟩
  | 60 => ⟨S1x256, .f32⟩
  | 61 => ⟨S256, .f32⟩
  | 62 => ⟨S1x256x256, .f32⟩
  | 63 => ⟨S256x256, .f32⟩
  | 64 => ⟨S1x256, .f32⟩
  | 65 => ⟨S256, .f32⟩
  | 66 => ⟨S1x256, .f32⟩
  | 67 => ⟨S256, .f32⟩
  | 68 => ⟨S1x256, .f32⟩
  | 69 => ⟨S256, .f32⟩
  | 70 => ⟨S1x256, .f32⟩
  | 71 => ⟨S1x256, .f32⟩
  | 72 => ⟨S1x256, .f32⟩
  | 73 => ⟨S1x256, .f32⟩
  | 74 => ⟨S50000x256, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000x256, .f32⟩
  | 84 => ⟨S_, .f32⟩
  | 85 => ⟨S50000x256, .f32⟩
  | 86 => ⟨S800000x1, .i32⟩
  | 87 => ⟨S50000x256, .f32⟩
  | 88 => ⟨S50000x256, .f32⟩
  | 89 => ⟨S1x256x256, .f32⟩
  | 90 => ⟨S256x256, .f32⟩
  | 91 => ⟨S1x256, .f32⟩
  | 92 => ⟨S256, .f32⟩
  | 93 => ⟨S1x256x256, .f32⟩
  | 94 => ⟨S256x256, .f32⟩
  | 95 => ⟨S1x256, .f32⟩
  | 96 => ⟨S256, .f32⟩
  | 97 => ⟨S1x256, .f32⟩
  | 98 => ⟨S256, .f32⟩
  | 99 => ⟨S1x256, .f32⟩
  | 100 => ⟨S256, .f32⟩
  | 101 => ⟨S1x256, .f32⟩
  | 102 => ⟨S1x256, .f32⟩
  | 103 => ⟨S1x256, .f32⟩
  | 104 => ⟨S1x256, .f32⟩
  | 105 => ⟨S50000x256, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000x256, .f32⟩
  | 115 => ⟨S_, .f32⟩
  | 116 => ⟨S50000x256, .f32⟩
  | 117 => ⟨S800000x1, .i32⟩
  | 118 => ⟨S50000x256, .f32⟩
  | 119 => ⟨S50000x256, .f32⟩
  | 120 => ⟨S1x256x256, .f32⟩
  | 121 => ⟨S256x256, .f32⟩
  | 122 => ⟨S1x256, .f32⟩
  | 123 => ⟨S256, .f32⟩
  | 124 => ⟨S1x256x256, .f32⟩
  | 125 => ⟨S256x256, .f32⟩
  | 126 => ⟨S1x256, .f32⟩
  | 127 => ⟨S256, .f32⟩
  | _ => ⟨S50000x128, .f32⟩

abbrev hbmTy0_1 (i : Nat) : BufTy := match i % 128 with
  | 0 => ⟨S1x256, .f32⟩
  | 1 => ⟨S1x256, .f32⟩
  | 2 => ⟨S50000x256, .f32⟩
  | 3 => ⟨S_, .f32⟩
  | 4 => ⟨S256x256, .f32⟩
  | 5 => ⟨S50000x1, .i32⟩
  | 6 => ⟨S256x256, .f32⟩
  | 7 => ⟨S_, .f32⟩
  | 8 => ⟨S50000, .f32⟩
  | 9 => ⟨S_, .f32⟩
  | 10 => ⟨S256, .f32⟩
  | 11 => ⟨S50000x1, .i32⟩
  | 12 => ⟨S256, .f32⟩
  | 13 => ⟨S_, .f32⟩
  | 14 => ⟨S256, .f32⟩
  | 15 => ⟨S256, .f32⟩
  | 16 => ⟨S256x1, .f32⟩
  | 17 => ⟨S256x256, .f32⟩
  | 18 => ⟨S256x256, .f32⟩
  | 19 => ⟨S1x128, .f32⟩
  | 20 => ⟨S1x1, .f32⟩
  | 21 => ⟨S256x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S256x256, .f32⟩
  | .local _ .vmem, ⟨13, _⟩ => ⟨S1x256, .f32⟩
  | .local _ .vmem, ⟨14, _⟩ => ⟨S256x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x256, .f32⟩
  | .local _ .vmem, ⟨23, _⟩ => ⟨S1x256, .f32⟩
  | .local _ .vmem, ⟨24, _⟩ => ⟨S256x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S2000x256, .f32⟩
  | .local _ .vmem, ⟨29, _⟩ => ⟨S2000x256, .f32⟩
  | .local _ .vmem, ⟨30, _⟩ => ⟨S2000x256, .f32⟩
  | .local _ .vmem, ⟨31, _⟩ => ⟨S2000x256, .f32⟩
  | .local _ .vmem, ⟨32, _⟩ => ⟨S256x256, .f32⟩
  | .local _ .vmem, ⟨33, _⟩ => ⟨S1x256, .f32⟩
  | .local _ .vmem, ⟨34, _⟩ => ⟨S256x256, .f32⟩
  | .local _ .vmem, ⟨35, _⟩ => ⟨S1x256, .f32⟩
  | .local _ .vmem, ⟨36, _⟩ => ⟨S2000x256, .f32⟩
  | .local _ .vmem, ⟨37, _⟩ => ⟨S2000x256, .f32⟩
  | .local _ .vmem, ⟨38, _⟩ => ⟨S256x256, .f32⟩
  | .local _ .vmem, ⟨39, _⟩ => ⟨S256x128, .f32⟩
  | .local _ .vmem, ⟨40, _⟩ => ⟨S1x128, .f32⟩
  | .local _ .vmem, ⟨41, _⟩ => ⟨S128x1, .f32⟩
  | .local _ .vmem, ⟨42, _⟩ => ⟨S1x1, .f32⟩
  | .local _ .vmem, ⟨43, _⟩ => ⟨S256x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_1 : Ref sig .tc := ⟨.hbm, 44, rfl⟩
abbrev main_v24 : Ref sig .tc := ⟨.hbm, 45, rfl⟩
abbrev main_v25 : Ref sig .tc := ⟨.hbm, 46, rfl⟩
abbrev main_c_2 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_3 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_4 : Ref sig .tc := ⟨.hbm, 75, rfl⟩
abbrev main_v52 : Ref sig .tc := ⟨.hbm, 76, rfl⟩
abbrev main_v53 : Ref sig .tc := ⟨.hbm, 77, rfl⟩
abbrev main_c_5 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_6 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_c_7 : Ref sig .tc := ⟨.hbm, 106, rfl⟩
abbrev main_v80 : Ref sig .tc := ⟨.hbm, 107, rfl⟩
abbrev main_v81 : Ref sig .tc := ⟨.hbm, 108, rfl⟩
abbrev main_c_8 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_9 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_cst_10 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_cst_11 : Ref sig .tc := ⟨.hbm, 135, rfl⟩
abbrev main_v105 : Ref sig .tc := ⟨.hbm, 136, rfl⟩
abbrev main_cst_12 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_cst_13 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg7_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg5_1 : Ref sig .tc := ⟨.vmem, 37, rfl⟩
abbrev cc4_stg0_0 : Ref sig .tc := ⟨.vmem, 38, rfl⟩
abbrev cc4_stg1_0 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem7_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem5_1 : DmaSem sig := 37
abbrev cc4_sem0_0 : DmaSem sig := 38
abbrev cc4_sem1_0 : DmaSem sig := 39
abbrev cc4_sem2_0 : DmaSem sig := 40
abbrev cc4_sem3_0 : DmaSem sig := 41
abbrev cc4_sem4_0 : DmaSem sig := 42
abbrev cc4_sem5_0 : DmaSem sig := 43

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S256x256 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S256x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S256x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S3x256_S1x256_0_0 : S3x256.Slices ![0, 0] S1x256
  shapeCasts_S1x256_S256 : S1x256.ShapeCasts S256
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  reduces_S2000x256_S2000 : S2000x256.Reduces [1] S2000
  shapeCasts_S2000_S2000x1 : S2000.ShapeCasts S2000x1
  broadcasts_S2000x1_S2000x256 : S2000x1.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  slices_S3x256x256_S1x256x256_0_0_0 : S3x256x256.Slices ![0, 0, 0] S1x256x256
  shapeCasts_S1x256x256_S256x256 : S1x256x256.ShapeCasts S256x256
  slices_S3x256_S1x256_1_0 : S3x256.Slices ![1, 0] S1x256
  shapeCasts_S2000x256_S2000x256 : S2000x256.ShapeCasts S2000x256
  shapeCasts_S256x256_S256x256 : S256x256.ShapeCasts S256x256
  slices_S3x256x256_S1x256x256_1_0_0 : S3x256x256.Slices ![1, 0, 0] S1x256x256
  slices_S3x256_S1x256_2_0 : S3x256.Slices ![2, 0] S1x256
  slices_S3x256x256_S1x256x256_2_0_0 : S3x256x256.Slices ![2, 0, 0] S1x256x256
  bcast_S_S256x256 : S_.BroadcastsInDim S256x256 (![] : Fin 0 → Fin S256x256.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S256 : S_.BroadcastsInDim S256 (![] : Fin 0 → Fin S256.rank)
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  shapeCasts_S128_S1x128 : S128.ShapeCasts S1x128
  shapeCasts_S1_S1x1 : S1.ShapeCasts S1x1
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  inb_S256x1_S256x1_0_0 : ∀ a, (![0, 0] : Fin 2 → Nat) a + S256x1.size a ≤ S256x1.size a
  h_S256x1 : 0 < S256x1.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S256x256_S50000x1_S50000x256_1_0_0_1_wf : ScatterDims.WF S256x256 S50000x1 S50000x256 [1] [0] [0] 1
  scatter_S256_S50000x1_S50000_n_0_0_1_wf : ScatterDims.WF S256 S50000x1 S50000 [] [0] [0] 1
  dot_S256x256_S256x128_S256x128_1_0_0_1_n_n_wf : DotDims.WF S256x256 S256x128 S256x128 [1] [0] [0] [1] [] []
  dot_S256x128_S128x1_S256x1_1_0_0_1_n_n_wf : DotDims.WF S256x128 S128x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x256.size a ≤ S50000x256.size a
  hwx0_7 : ∀ i : grid0.Coords, EltTy.bits .f32 = 32 ∨ (Rect.block (s := S50000x256) S2000x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x256.size a ≤ S50000x256.size a
  hwx1_7 : ∀ i : grid1.Coords, EltTy.bits .f32 = 32 ∨ (Rect.block (s := S50000x256) S2000x256.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x256.size a ≤ S50000x256.size a
  hwx2_7 : ∀ i : grid2.Coords, EltTy.bits .f32 = 32 ∨ (Rect.block (s := S50000x256) S2000x256.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .f32 = 32 ∨ (Rect.block (s := S256x256) S256x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x256.size a ≤ S50000x256.size a
  hwx3_5 : ∀ i : grid3.Coords, EltTy.bits .f32 = 32 ∨ (Rect.block (s := S50000x256) S2000x256.size (cc3_transform_5 i) (hinb3_5 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S256x256.size a ≤ S256x256.size a
  hwx4_0 : ∀ i : grid4.Coords, EltTy.bits .f32 = 32 ∨ (Rect.block (s := S256x256) S256x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x128.size a ≤ S256x128.size a
  hwx4_1 : ∀ i : grid4.Coords, EltTy.bits .f32 = 32 ∨ (Rect.block (s := S256x128) S256x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x1.size a ≤ S128x1.size a
  hwx4_3 : ∀ i : grid4.Coords, EltTy.bits .f32 = 32 ∨ (Rect.block (s := S128x1) S128x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S256x1.size a ≤ S256x1.size a
  hwx4_5 : ∀ i : grid4.Coords, EltTy.bits .f32 = 32 ∨ (Rect.block (s := S256x1) S256x1.size (cc4_transform_5 i) (hinb4_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S256x256_S50000x1_S50000x256_1_0_0_1 : ScatterDims S256x256 S50000x1 S50000x256 where
  updateWindowDims := [1]
  insertedWindowDims := [0]
  scatterDimsToOperandDims := [0]
  indexVectorDim := 1
  wf := scatter_S256x256_S50000x1_S50000x256_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

abbrev win0_0 : Pipeline.Window sig grid0 :=
  Pipeline.Window.ofSpec (Memref.whole main_v14) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S2000x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v34) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v50) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v51) S2000x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v62) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v75) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v68) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v76) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v77) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v78) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v79) S2000x256.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v90) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v92) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v99) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v96) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v100) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v101) S2000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v113) S256x256.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg13) S256x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v114) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg15) S128x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v115) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v116) S256x1.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S3x256x256 : Shape := ⟨3, ![3, 256, 256]⟩
abbrev S3x256 : Shape := ⟨2, ![3, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x256 : Shape := ⟨2, ![50000, 256]⟩
abbrev S1x256 : Shape := ⟨2, ![1, 256]⟩
abbrev S50000x1 : Shape := ⟨2, ![50000, 1]⟩
abbrev S1x256x256 : Shape := ⟨3, ![1, 256, 256]⟩
abbrev S800000x256 : Shape := ⟨2, ![800000, 256]⟩
abbrev S256x1 : Shape := ⟨2, ![256, 1]⟩
abbrev S1x128 : Shape := ⟨2, ![1, 128]⟩
abbrev S1x1 : Shape := ⟨2, ![1, 1]⟩

abbrev nBuf : Space → Nat
  | .hbm => 328
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x256, .f32⟩
  | 4 => ⟨S256, .f32⟩
  | 5 => ⟨S256x256, .f32⟩
  | 6 => ⟨S256, .f32⟩
  | 7 => ⟨S3x256x256, .f32⟩
  | 8 => ⟨S3x256, .f32⟩
  | 9 => ⟨S3x256x256, .f32⟩
  | 10 => ⟨S3x256, .f32⟩
  | 11 => ⟨S3x256, .f32⟩
  | 12 => ⟨S3x256, .f32⟩
  | 13 => ⟨S256x128, .f32⟩
  | 14 => ⟨S128, .f32⟩
  | 15 => ⟨S128x1, .f32⟩
  | 16 => ⟨S1, .f32⟩
  | 17 => ⟨S1x800000, .i32⟩
  | 18 => ⟨S800000, .i32⟩
  | 19 => ⟨S1x800000, .i32⟩
  | 20 => ⟨S800000, .i32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x128, .f32⟩
  | 30 => ⟨S_, .f32⟩
  | 31 => ⟨S50000x128, .f32⟩
  | 32 => ⟨S800000x1, .i32⟩
  | 33 => ⟨S50000x128, .f32⟩
  | 34 => ⟨S50000x128, .f32⟩
  | 35 => ⟨S50000x256, .f32⟩
  | 36 => ⟨S1x256, .f32⟩
  | 37 => ⟨S50000x256, .f32⟩
  | 38 => ⟨S50000x256, .f32⟩
  | 39 => ⟨S_, .f32⟩
  | 40 => ⟨S50000x256, .f32⟩
  | 41 => ⟨S50000x256, .f32⟩
  | 42 => ⟨S50000x256, .f32⟩
  | 43 => ⟨S1x256, .f32⟩
  | 44 => ⟨S50000x256, .f32⟩
  | 45 => ⟨S50000x256, .f32⟩
  | 46 => ⟨S_, .f32⟩
  | 47 => ⟨S50000x256, .f32⟩
  | 48 => ⟨S50000x256, .f32⟩
  | 49 => ⟨S1x256, .f32⟩
  | 50 => ⟨S256, .f32⟩
  | 51 => ⟨S1x256, .f32⟩
  | 52 => ⟨S256, .f32⟩
  | 53 => ⟨S_, .f32⟩
  | 54 => ⟨S50000, .f32⟩
  | 55 => ⟨S50000x1, .f32⟩
  | 56 => ⟨S_, .f32⟩
  | 57 => ⟨S50000x1, .f32⟩
  | 58 => ⟨S50000x1, .f32⟩
  | 59 => ⟨S_, .i32⟩
  | 60 => ⟨S_, .f32⟩
  | 61 => ⟨S50000, .f32⟩
  | 62 => ⟨S50000x1, .f32⟩
  | 63 => ⟨S_, .f32⟩
  | 64 => ⟨S50000x1, .f32⟩
  | 65 => ⟨S50000x1, .f32⟩
  | 66 => ⟨S50000x256, .f32⟩
  | 67 => ⟨S50000x256, .f32⟩
  | 68 => ⟨S50000x256, .f32⟩
  | 69 => ⟨S_, .f32⟩
  | 70 => ⟨S_, .f32⟩
  | 71 => ⟨S_, .f32⟩
  | 72 => ⟨S_, .f32⟩
  | 73 => ⟨S50000, .f32⟩
  | 74 => ⟨S50000x1, .f32⟩
  | 75 => ⟨S50000x1, .f32⟩
  | 76 => ⟨S50000x1, .f32⟩
  | 77 => ⟨S_, .f32⟩
  | 78 => ⟨S_, .i1⟩
  | 79 => ⟨S_, .f32⟩
  | 80 => ⟨S_, .f32⟩
  | 81 => ⟨S50000x1, .f32⟩
  | 82 => ⟨S50000x1, .f32⟩
  | 83 => ⟨S50000x256, .f32⟩
  | 84 => ⟨S50000x256, .f32⟩
  | 85 => ⟨S_, .f32⟩
  | 86 => ⟨S50000x1, .f32⟩
  | 87 => ⟨S50000x1, .f32⟩
  | 88 => ⟨S50000x1, .f32⟩
  | 89 => ⟨S50000x256, .f32⟩
  | 90 => ⟨S50000x256, .f32⟩
  | 91 => ⟨S1x256, .f32⟩
  | 92 => ⟨S50000x256, .f32⟩
  | 93 => ⟨S50000x256, .f32⟩
  | 94 => ⟨S1x256, .f32⟩
  | 95 => ⟨S50000x256, .f32⟩
  | 96 => ⟨S50000x256, .f32⟩
  | 97 => ⟨S1x256x256, .f32⟩
  | 98 => ⟨S256x256, .f32⟩
  | 99 => ⟨S1x256, .f32⟩
  | 100 => ⟨S256, .f32⟩
  | 101 => ⟨S1x256x256, .f32⟩
  | 102 => ⟨S256x256, .f32⟩
  | 103 => ⟨S1x256, .f32⟩
  | 104 => ⟨S256, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000x256, .f32⟩
  | 114 => ⟨S_, .f32⟩
  | 115 => ⟨S50000x256, .f32⟩
  | 116 => ⟨S800000x1, .i32⟩
  | 117 => ⟨S50000x256, .f32⟩
  | 118 => ⟨S50000x256, .f32⟩
  | 119 => ⟨S50000x256, .f32⟩
  | 120 => ⟨S1x256, .f32⟩
  | 121 => ⟨S50000x256, .f32⟩
  | 122 => ⟨S50000x256, .f32⟩
  | 123 => ⟨S_, .f32⟩
  | 124 => ⟨S50000x256, .f32⟩
  | 125 => ⟨S50000x256, .f32⟩
  | 126 => ⟨S50000x256, .f32⟩
  | 127 => ⟨S1x256, .f32⟩
  | _ => ⟨S50000x128, .f32⟩

abbrev hbmTy0_1 (i : Nat) : BufTy := match i % 128 with
  | 0 => ⟨S50000x256, .f32⟩
  | 1 => ⟨S50000x256, .f32⟩
  | 2 => ⟨S_, .f32⟩
  | 3 => ⟨S50000x256, .f32⟩
  | 4 => ⟨S50000x256, .f32⟩
  | 5 => ⟨S1x256, .f32⟩
  | 6 => ⟨S256, .f32⟩
  | 7 => ⟨S1x256, .f32⟩
  | 8 => ⟨S256, .f32⟩
  | 9 => ⟨S_, .f32⟩
  | 10 => ⟨S50000, .f32⟩
  | 11 => ⟨S50000x1, .f32⟩
  | 12 => ⟨S_, .f32⟩
  | 13 => ⟨S50000x1, .f32⟩
  | 14 => ⟨S50000x1, .f32⟩
  | 15 => ⟨S_, .i32⟩
  | 16 => ⟨S_, .f32⟩
  | 17 => ⟨S50000, .f32⟩
  | 18 => ⟨S50000x1, .f32⟩
  | 19 => ⟨S_, .f32⟩
  | 20 => ⟨S50000x1, .f32⟩
  | 21 => ⟨S50000x1, .f32⟩
  | 22 => ⟨S50000x256, .f32⟩
  | 23 => ⟨S50000x256, .f32⟩
  | 24 => ⟨S50000x256, .f32⟩
  | 25 => ⟨S_, .f32⟩
  | 26 => ⟨S_, .f32⟩
  | 27 => ⟨S_, .f32⟩
  | 28 => ⟨S_, .f32⟩
  | 29 => ⟨S50000, .f32⟩
  | 30 => ⟨S50000x1, .f32⟩
  | 31 => ⟨S50000x1, .f32⟩
  | 32 => ⟨S50000x1, .f32⟩
  | 33 => ⟨S_, .f32⟩
  | 34 => ⟨S_, .i1⟩
  | 35 => ⟨S_, .f32⟩
  | 36 => ⟨S_, .f32⟩
  | 37 => ⟨S50000x1, .f32⟩
  | 38 => ⟨S50000x1, .f32⟩
  | 39 => ⟨S50000x256, .f32⟩
  | 40 => ⟨S50000x256, .f32⟩
  | 41 => ⟨S_, .f32⟩
  | 42 => ⟨S50000x1, .f32⟩
  | 43 => ⟨S50000x1, .f32⟩
  | 44 => ⟨S50000x1, .f32⟩
  | 45 => ⟨S50000x256, .f32⟩
  | 46 => ⟨S50000x256, .f32⟩
  | 47 => ⟨S1x256, .f32⟩
  | 48 => ⟨S50000x256, .f32⟩
  | 49 => ⟨S50000x256, .f32⟩
  | 50 => ⟨S1x256, .f32⟩
  | 51 => ⟨S50000x256, .f32⟩
  | 52 => ⟨S50000x256, .f32⟩
  | 53 => ⟨S1x256x256, .f32⟩
  | 54 => ⟨S256x256, .f32⟩
  | 55 => ⟨S1x256, .f32⟩
  | 56 => ⟨S256, .f32⟩
  | 57 => ⟨S1x256x256, .f32⟩
  | 58 => ⟨S256x256, .f32⟩
  | 59 => ⟨S1x256, .f32⟩
  | 60 => ⟨S256, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x256, .f32⟩
  | 70 => ⟨S_, .f32⟩
  | 71 => ⟨S50000x256, .f32⟩
  | 72 => ⟨S800000x1, .i32⟩
  | 73 => ⟨S50000x256, .f32⟩
  | 74 => ⟨S50000x256, .f32⟩
  | 75 => ⟨S50000x256, .f32⟩
  | 76 => ⟨S1x256, .f32⟩
  | 77 => ⟨S50000x256, .f32⟩
  | 78 => ⟨S50000x256, .f32⟩
  | 79 => ⟨S_, .f32⟩
  | 80 => ⟨S50000x256, .f32⟩
  | 81 => ⟨S50000x256, .f32⟩
  | 82 => ⟨S50000x256, .f32⟩
  | 83 => ⟨S1x256, .f32⟩
  | 84 => ⟨S50000x256, .f32⟩
  | 85 => ⟨S50000x256, .f32⟩
  | 86 => ⟨S_, .f32⟩
  | 87 => ⟨S50000x256, .f32⟩
  | 88 => ⟨S50000x256, .f32⟩
  | 89 => ⟨S1x256, .f32⟩
  | 90 => ⟨S256, .f32⟩
  | 91 => ⟨S1x256, .f32⟩
  | 92 => ⟨S256, .f32⟩
  | 93 => ⟨S_, .f32⟩
  | 94 => ⟨S50000, .f32⟩
  | 95 => ⟨S50000x1, .f32⟩
  | 96 => ⟨S_, .f32⟩
  | 97 => ⟨S50000x1, .f32⟩
  | 98 => ⟨S50000x1, .f32⟩
  | 99 => ⟨S_, .i32⟩
  | 100 => ⟨S_, .f32⟩
  | 101 => ⟨S50000, .f32⟩
  | 102 => ⟨S50000x1, .f32⟩
  | 103 => ⟨S_, .f32⟩
  | 104 => ⟨S50000x1, .f32⟩
  | 105 => ⟨S50000x1, .f32⟩
  | 106 => ⟨S50000x256, .f32⟩
  | 107 => ⟨S50000x256, .f32⟩
  | 108 => ⟨S50000x256, .f32⟩
  | 109 => ⟨S_, .f32⟩
  | 110 => ⟨S_, .f32⟩
  | 111 => ⟨S_, .f32⟩
  | 112 => ⟨S_, .f32⟩
  | 113 => ⟨S50000, .f32⟩
  | 114 => ⟨S50000x1, .f32⟩
  | 115 => ⟨S50000x1, .f32⟩
  | 116 => ⟨S50000x1, .f32⟩
  | 117 => ⟨S_, .f32⟩
  | 118 => ⟨S_, .i1⟩
  | 119 => ⟨S_, .f32⟩
  | 120 => ⟨S_, .f32⟩
  | 121 => ⟨S50000x1, .f32⟩
  | 122 => ⟨S50000x1, .f32⟩
  | 123 => ⟨S50000x256, .f32⟩
  | 124 => ⟨S50000x256, .f32⟩
  | 125 => ⟨S_, .f32⟩
  | 126 => ⟨S50000x1, .f32⟩
  | 127 => ⟨S50000x1, .f32⟩
  | _ => ⟨S50000x128, .f32⟩

abbrev hbmTy0_2 (i : Nat) : BufTy := match i % 128 with
  | 0 => ⟨S50000x1, .f32⟩
  | 1 => ⟨S50000x256, .f32⟩
  | 2 => ⟨S50000x256, .f32⟩
  | 3 => ⟨S1x256, .f32⟩
  | 4 => ⟨S50000x256, .f32⟩
  | 5 => ⟨S50000x256, .f32⟩
  | 6 => ⟨S1x256, .f32⟩
  | 7 => ⟨S50000x256, .f32⟩
  | 8 => ⟨S50000x256, .f32⟩
  | 9 => ⟨S1x256x256, .f32⟩
  | 10 => ⟨S256x256, .f32⟩
  | 11 => ⟨S1x256, .f32⟩
  | 12 => ⟨S256, .f32⟩
  | 13 => ⟨S1x256x256, .f32⟩
  | 14 => ⟨S256x256, .f32⟩
  | 15 => ⟨S1x256, .f32⟩
  | 16 => ⟨S256, .f32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x256, .f32⟩
  | 26 => ⟨S_, .f32⟩
  | 27 => ⟨S50000x256, .f32⟩
  | 28 => ⟨S800000x1, .i32⟩
  | 29 => ⟨S50000x256, .f32⟩
  | 30 => ⟨S50000x256, .f32⟩
  | 31 => ⟨S50000x256, .f32⟩
  | 32 => ⟨S1x256, .f32⟩
  | 33 => ⟨S50000x256, .f32⟩
  | 34 => ⟨S50000x256, .f32⟩
  | 35 => ⟨S_, .f32⟩
  | 36 => ⟨S50000x256, .f32⟩
  | 37 => ⟨S50000x256, .f32⟩
  | 38 => ⟨S50000x256, .f32⟩
  | 39 => ⟨S1x256, .f32⟩
  | 40 => ⟨S50000x256, .f32⟩
  | 41 => ⟨S50000x256, .f32⟩
  | 42 => ⟨S_, .f32⟩
  | 43 => ⟨S50000x256, .f32⟩
  | 44 => ⟨S50000x256, .f32⟩
  | 45 => ⟨S_, .f32⟩
  | 46 => ⟨S256x256, .f32⟩
  | 47 => ⟨S50000x1, .i32⟩
  | 48 => ⟨S256x256, .f32⟩
  | 49 => ⟨S_, .f32⟩
  | 50 => ⟨S50000, .f32⟩
  | 51 => ⟨S_, .f32⟩
  | 52 => ⟨S256, .f32⟩
  | 53 => ⟨S50000x1, .i32⟩
  | 54 => ⟨S256, .f32⟩
  | 55 => ⟨S_, .f32⟩
  | 56 => ⟨S256, .f32⟩
  | 57 => ⟨S256, .f32⟩
  | 58 => ⟨S256x1, .f32⟩
  | 59 => ⟨S256x256, .f32⟩
  | 60 => ⟨S256x256, .f32⟩
  | 61 => ⟨S256x128, .f32⟩
  | 62 => ⟨S1x128, .f32⟩
  | 63 => ⟨S256x128, .f32⟩
  | 64 => ⟨S256x128, .f32⟩
  | 65 => ⟨S_, .f32⟩
  | 66 => ⟨S256x128, .f32⟩
  | 67 => ⟨S256x128, .f32⟩
  | 68 => ⟨S256x1, .f32⟩
  | 69 => ⟨S1x1, .f32⟩
  | 70 => ⟨S256x1, .f32⟩
  | 71 => ⟨S256x1, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_call0_cst : Ref sig .tc := ⟨.hbm, 39, rfl⟩
abbrev main_call0_v0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_call1_cst : Ref sig .tc := ⟨.hbm, 46, rfl⟩
abbrev main_call1_v0 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_1 : Ref sig .tc := ⟨.hbm, 53, rfl⟩
abbrev main_v29 : Ref sig .tc := ⟨.hbm, 54, rfl⟩
abbrev main_v30 : Ref sig .tc := ⟨.hbm, 55, rfl⟩
abbrev main_cst_2 : Ref sig .tc := ⟨.hbm, 56, rfl⟩
abbrev main_v31 : Ref sig .tc := ⟨.hbm, 57, rfl⟩
abbrev main_v32 : Ref sig .tc := ⟨.hbm, 58, rfl⟩
abbrev main_c_3 : Ref sig .tc := ⟨.hbm, 59, rfl⟩
abbrev main_call2_cst : Ref sig .tc := ⟨.hbm, 60, rfl⟩
abbrev main_call2_v0 : Ref sig .tc := ⟨.hbm, 61, rfl⟩
abbrev main_call2_v1 : Ref sig .tc := ⟨.hbm, 62, rfl⟩
abbrev main_call2_cst_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_v6 : Ref sig .tc := ⟨.hbm, 68, rfl⟩
abbrev main_call2_v7 : Ref sig .tc := ⟨.hbm, 69, rfl⟩
abbrev main_call2_cst_1 : Ref sig .tc := ⟨.hbm, 70, rfl⟩
abbrev main_call2_v8 : Ref sig .tc := ⟨.hbm, 71, rfl⟩
abbrev main_call2_cst_2 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_cst_3 : Ref sig .tc := ⟨.hbm, 77, rfl⟩
abbrev main_call2_v13 : Ref sig .tc := ⟨.hbm, 78, rfl⟩
abbrev main_call2_cst_4 : Ref sig .tc := ⟨.hbm, 79, rfl⟩
abbrev main_call2_call0_v0 : Ref sig .tc := ⟨.hbm, 80, rfl⟩
abbrev main_call2_call0_v1 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_cst_4 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_c_5 : Ref sig .tc := ⟨.hbm, 105, rfl⟩
abbrev main_v55 : Ref sig .tc := ⟨.hbm, 106, rfl⟩
abbrev main_v56 : Ref sig .tc := ⟨.hbm, 107, rfl⟩
abbrev main_c_6 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_cst_7 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_call3_cst : Ref sig .tc := ⟨.hbm, 123, rfl⟩
abbrev main_call3_v0 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_call4_cst : Ref sig .tc := ⟨.hbm, 130, rfl⟩
abbrev main_call4_v0 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_cst_8 : Ref sig .tc := ⟨.hbm, 137, rfl⟩
abbrev main_v80 : Ref sig .tc := ⟨.hbm, 138, rfl⟩
abbrev main_v81 : Ref sig .tc := ⟨.hbm, 139, rfl⟩
abbrev main_cst_9 : Ref sig .tc := ⟨.hbm, 140, rfl⟩
abbrev main_v82 : Ref sig .tc := ⟨.hbm, 141, rfl⟩
abbrev main_v83 : Ref sig .tc := ⟨.hbm, 142, rfl⟩
abbrev main_c_10 : Ref sig .tc := ⟨.hbm, 143, rfl⟩
abbrev main_call5_cst : Ref sig .tc := ⟨.hbm, 144, rfl⟩
abbrev main_call5_v0 : Ref sig .tc := ⟨.hbm, 145, rfl⟩
abbrev main_call5_v1 : Ref sig .tc := ⟨.hbm, 146, rfl⟩
abbrev main_call5_cst_0 : Ref sig .tc := ⟨.hbm, 147, rfl⟩
abbrev main_call5_v2 : Ref sig .tc := ⟨.hbm, 148, rfl⟩
abbrev main_call5_v3 : Ref sig .tc := ⟨.hbm, 149, rfl⟩
abbrev main_call5_v4 : Ref sig .tc := ⟨.hbm, 150, rfl⟩
abbrev main_call5_v5 : Ref sig .tc := ⟨.hbm, 151, rfl⟩
abbrev main_call5_v6 : Ref sig .tc := ⟨.hbm, 152, rfl⟩
abbrev main_call5_v7 : Ref sig .tc := ⟨.hbm, 153, rfl⟩
abbrev main_call5_cst_1 : Ref sig .tc := ⟨.hbm, 154, rfl⟩
abbrev main_call5_v8 : Ref sig .tc := ⟨.hbm, 155, rfl⟩
abbrev main_call5_cst_2 : Ref sig .tc := ⟨.hbm, 156, rfl⟩
abbrev main_call5_v9 : Ref sig .tc := ⟨.hbm, 157, rfl⟩
abbrev main_call5_v10 : Ref sig .tc := ⟨.hbm, 158, rfl⟩
abbrev main_call5_v11 : Ref sig .tc := ⟨.hbm, 159, rfl⟩
abbrev main_call5_v12 : Ref sig .tc := ⟨.hbm, 160, rfl⟩
abbrev main_call5_cst_3 : Ref sig .tc := ⟨.hbm, 161, rfl⟩
abbrev main_call5_v13 : Ref sig .tc := ⟨.hbm, 162, rfl⟩
abbrev main_call5_cst_4 : Ref sig .tc := ⟨.hbm, 163, rfl⟩
abbrev main_call5_call0_v0 : Ref sig .tc := ⟨.hbm, 164, rfl⟩
abbrev main_call5_call0_v1 : Ref sig .tc := ⟨.hbm, 165, rfl⟩
abbrev main_v84 : Ref sig .tc := ⟨.hbm, 166, rfl⟩
abbrev main_v85 : Ref sig .tc := ⟨.hbm, 167, rfl⟩
abbrev main_v86 : Ref sig .tc := ⟨.hbm, 168, rfl⟩
abbrev main_cst_11 : Ref sig .tc := ⟨.hbm, 169, rfl⟩
abbrev main_v87 : Ref sig .tc := ⟨.hbm, 170, rfl⟩
abbrev main_v88 : Ref sig .tc := ⟨.hbm, 171, rfl⟩
abbrev main_v89 : Ref sig .tc := ⟨.hbm, 172, rfl⟩
abbrev main_v90 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_v94 : Ref sig .tc := ⟨.hbm, 177, rfl⟩
abbrev main_v95 : Ref sig .tc := ⟨.hbm, 178, rfl⟩
abbrev main_v96 : Ref sig .tc := ⟨.hbm, 179, rfl⟩
abbrev main_v97 : Ref sig .tc := ⟨.hbm, 180, rfl⟩
abbrev main_v98 : Ref sig .tc := ⟨.hbm, 181, rfl⟩
abbrev main_v99 : Ref sig .tc := ⟨.hbm, 182, rfl⟩
abbrev main_v100 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_v104 : Ref sig .tc := ⟨.hbm, 187, rfl⟩
abbrev main_v105 : Ref sig .tc := ⟨.hbm, 188, rfl⟩
abbrev main_c_12 : Ref sig .tc := ⟨.hbm, 189, rfl⟩
abbrev main_v106 : Ref sig .tc := ⟨.hbm, 190, rfl⟩
abbrev main_v107 : Ref sig .tc := ⟨.hbm, 191, rfl⟩
abbrev main_c_13 : Ref sig .tc := ⟨.hbm, 192, rfl⟩
abbrev main_v108 : Ref sig .tc := ⟨.hbm, 193, rfl⟩
abbrev main_v109 : Ref sig .tc := ⟨.hbm, 194, rfl⟩
abbrev main_v110 : Ref sig .tc := ⟨.hbm, 195, rfl⟩
abbrev main_v111 : Ref sig .tc := ⟨.hbm, 196, rfl⟩
abbrev main_v112 : Ref sig .tc := ⟨.hbm, 197, rfl⟩
abbrev main_cst_14 : Ref sig .tc := ⟨.hbm, 198, rfl⟩
abbrev main_v113 : Ref sig .tc := ⟨.hbm, 199, rfl⟩
abbrev main_v114 : Ref sig .tc := ⟨.hbm, 200, rfl⟩
abbrev main_v115 : Ref sig .tc := ⟨.hbm, 201, rfl⟩
abbrev main_v116 : Ref sig .tc := ⟨.hbm, 202, rfl⟩
abbrev main_v117 : Ref sig .tc := ⟨.hbm, 203, rfl⟩
abbrev main_v118 : Ref sig .tc := ⟨.hbm, 204, rfl⟩
abbrev main_v119 : Ref sig .tc := ⟨.hbm, 205, rfl⟩
abbrev main_v120 : Ref sig .tc := ⟨.hbm, 206, rfl⟩
abbrev main_call6_cst : Ref sig .tc := ⟨.hbm, 207, rfl⟩
abbrev main_call6_v0 : Ref sig .tc := ⟨.hbm, 208, rfl⟩
abbrev main_v121 : Ref sig .tc := ⟨.hbm, 209, rfl⟩
abbrev main_v122 : Ref sig .tc := ⟨.hbm, 210, rfl⟩
abbrev main_v123 : Ref sig .tc := ⟨.hbm, 211, rfl⟩
abbrev main_v124 : Ref sig .tc := ⟨.hbm, 212, rfl⟩
abbrev main_v125 : Ref sig .tc := ⟨.hbm, 213, rfl⟩
abbrev main_call7_cst : Ref sig .tc := ⟨.hbm, 214, rfl⟩
abbrev main_call7_v0 : Ref sig .tc := ⟨.hbm, 215, rfl⟩
abbrev main_v126 : Ref sig .tc := ⟨.hbm, 216, rfl⟩
abbrev main_v127 : Ref sig .tc := ⟨.hbm, 217, rfl⟩
abbrev main_v128 : Ref sig .tc := ⟨.hbm, 218, rfl⟩
abbrev main_v129 : Ref sig .tc := ⟨.hbm, 219, rfl⟩
abbrev main_v130 : Ref sig .tc := ⟨.hbm, 220, rfl⟩
abbrev main_cst_15 : Ref sig .tc := ⟨.hbm, 221, rfl⟩
abbrev main_v131 : Ref sig .tc := ⟨.hbm, 222, rfl⟩
abbrev main_v132 : Ref sig .tc := ⟨.hbm, 223, rfl⟩
abbrev main_cst_16 : Ref sig .tc := ⟨.hbm, 224, rfl⟩
abbrev main_v133 : Ref sig .tc := ⟨.hbm, 225, rfl⟩
abbrev main_v134 : Ref sig .tc := ⟨.hbm, 226, rfl⟩
abbrev main_c_17 : Ref sig .tc := ⟨.hbm, 227, rfl⟩
abbrev main_call8_cst : Ref sig .tc := ⟨.hbm, 228, rfl⟩
abbrev main_call8_v0 : Ref sig .tc := ⟨.hbm, 229, rfl⟩
abbrev main_call8_v1 : Ref sig .tc := ⟨.hbm, 230, rfl⟩
abbrev main_call8_cst_0 : Ref sig .tc := ⟨.hbm, 231, rfl⟩
abbrev main_call8_v2 : Ref sig .tc := ⟨.hbm, 232, rfl⟩
abbrev main_call8_v3 : Ref sig .tc := ⟨.hbm, 233, rfl⟩
abbrev main_call8_v4 : Ref sig .tc := ⟨.hbm, 234, rfl⟩
abbrev main_call8_v5 : Ref sig .tc := ⟨.hbm, 235, rfl⟩
abbrev main_call8_v6 : Ref sig .tc := ⟨.hbm, 236, rfl⟩
abbrev main_call8_v7 : Ref sig .tc := ⟨.hbm, 237, rfl⟩
abbrev main_call8_cst_1 : Ref sig .tc := ⟨.hbm, 238, rfl⟩
abbrev main_call8_v8 : Ref sig .tc := ⟨.hbm, 239, rfl⟩
abbrev main_call8_cst_2 : Ref sig .tc := ⟨.hbm, 240, rfl⟩
abbrev main_call8_v9 : Ref sig .tc := ⟨.hbm, 241, rfl⟩
abbrev main_call8_v10 : Ref sig .tc := ⟨.hbm, 242, rfl⟩
abbrev main_call8_v11 : Ref sig .tc := ⟨.hbm, 243, rfl⟩
abbrev main_call8_v12 : Ref sig .tc := ⟨.hbm, 244, rfl⟩
abbrev main_call8_cst_3 : Ref sig .tc := ⟨.hbm, 245, rfl⟩
abbrev main_call8_v13 : Ref sig .tc := ⟨.hbm, 246, rfl⟩
abbrev main_call8_cst_4 : Ref sig .tc := ⟨.hbm, 247, rfl⟩
abbrev main_call8_call0_v0 : Ref sig .tc := ⟨.hbm, 248, rfl⟩
abbrev main_call8_call0_v1 : Ref sig .tc := ⟨.hbm, 249, rfl⟩
abbrev main_v135 : Ref sig .tc := ⟨.hbm, 250, rfl⟩
abbrev main_v136 : Ref sig .tc := ⟨.hbm, 251, rfl⟩
abbrev main_v137 : Ref sig .tc := ⟨.hbm, 252, rfl⟩
abbrev main_cst_18 : Ref sig .tc := ⟨.hbm, 253, rfl⟩
abbrev main_v138 : Ref sig .tc := ⟨.hbm, 254, rfl⟩
abbrev main_v139 : Ref sig .tc := ⟨.hbm, 255, rfl⟩
abbrev main_v140 : Ref sig .tc := ⟨.hbm, 256, rfl⟩
abbrev main_v141 : Ref sig .tc := ⟨.hbm, 257, rfl⟩
abbrev main_v142 : Ref sig .tc := ⟨.hbm, 258, rfl⟩
abbrev main_v143 : Ref sig .tc := ⟨.hbm, 259, rfl⟩
abbrev main_v144 : Ref sig .tc := ⟨.hbm, 260, rfl⟩
abbrev main_v145 : Ref sig .tc := ⟨.hbm, 261, rfl⟩
abbrev main_v146 : Ref sig .tc := ⟨.hbm, 262, rfl⟩
abbrev main_v147 : Ref sig .tc := ⟨.hbm, 263, rfl⟩
abbrev main_v148 : Ref sig .tc := ⟨.hbm, 264, rfl⟩
abbrev main_v149 : Ref sig .tc := ⟨.hbm, 265, rfl⟩
abbrev main_v150 : Ref sig .tc := ⟨.hbm, 266, rfl⟩
abbrev main_v151 : Ref sig .tc := ⟨.hbm, 267, rfl⟩
abbrev main_v152 : Ref sig .tc := ⟨.hbm, 268, rfl⟩
abbrev main_v153 : Ref sig .tc := ⟨.hbm, 269, rfl⟩
abbrev main_v154 : Ref sig .tc := ⟨.hbm, 270, rfl⟩
abbrev main_v155 : Ref sig .tc := ⟨.hbm, 271, rfl⟩
abbrev main_v156 : Ref sig .tc := ⟨.hbm, 272, rfl⟩
abbrev main_c_19 : Ref sig .tc := ⟨.hbm, 273, rfl⟩
abbrev main_v157 : Ref sig .tc := ⟨.hbm, 274, rfl⟩
abbrev main_v158 : Ref sig .tc := ⟨.hbm, 275, rfl⟩
abbrev main_c_20 : Ref sig .tc := ⟨.hbm, 276, rfl⟩
abbrev main_v159 : Ref sig .tc := ⟨.hbm, 277, rfl⟩
abbrev main_v160 : Ref sig .tc := ⟨.hbm, 278, rfl⟩
abbrev main_v161 : Ref sig .tc := ⟨.hbm, 279, rfl⟩
abbrev main_v162 : Ref sig .tc := ⟨.hbm, 280, rfl⟩
abbrev main_v163 : Ref sig .tc := ⟨.hbm, 281, rfl⟩
abbrev main_cst_21 : Ref sig .tc := ⟨.hbm, 282, rfl⟩
abbrev main_v164 : Ref sig .tc := ⟨.hbm, 283, rfl⟩
abbrev main_v165 : Ref sig .tc := ⟨.hbm, 284, rfl⟩
abbrev main_v166 : Ref sig .tc := ⟨.hbm, 285, rfl⟩
abbrev main_v167 : Ref sig .tc := ⟨.hbm, 286, rfl⟩
abbrev main_v168 : Ref sig .tc := ⟨.hbm, 287, rfl⟩
abbrev main_v169 : Ref sig .tc := ⟨.hbm, 288, rfl⟩
abbrev main_v170 : Ref sig .tc := ⟨.hbm, 289, rfl⟩
abbrev main_v171 : Ref sig .tc := ⟨.hbm, 290, rfl⟩
abbrev main_call9_cst : Ref sig .tc := ⟨.hbm, 291, rfl⟩
abbrev main_call9_v0 : Ref sig .tc := ⟨.hbm, 292, rfl⟩
abbrev main_v172 : Ref sig .tc := ⟨.hbm, 293, rfl⟩
abbrev main_v173 : Ref sig .tc := ⟨.hbm, 294, rfl⟩
abbrev main_v174 : Ref sig .tc := ⟨.hbm, 295, rfl⟩
abbrev main_v175 : Ref sig .tc := ⟨.hbm, 296, rfl⟩
abbrev main_v176 : Ref sig .tc := ⟨.hbm, 297, rfl⟩
abbrev main_call10_cst : Ref sig .tc := ⟨.hbm, 298, rfl⟩
abbrev main_call10_v0 : Ref sig .tc := ⟨.hbm, 299, rfl⟩
abbrev main_v177 : Ref sig .tc := ⟨.hbm, 300, rfl⟩
abbrev main_cst_22 : Ref sig .tc := ⟨.hbm, 301, rfl⟩
abbrev main_v178 : Ref sig .tc := ⟨.hbm, 302, rfl⟩
abbrev main_v179 : Ref sig .tc := ⟨.hbm, 303, rfl⟩
abbrev main_v180 : Ref sig .tc := ⟨.hbm, 304, rfl⟩
abbrev main_cst_23 : Ref sig .tc := ⟨.hbm, 305, rfl⟩
abbrev main_v181 : Ref sig .tc := ⟨.hbm, 306, rfl⟩
abbrev main_cst_24 : Ref sig .tc := ⟨.hbm, 307, rfl⟩
abbrev main_v182 : Ref sig .tc := ⟨.hbm, 308, rfl⟩
abbrev main_v183 : Ref sig .tc := ⟨.hbm, 309, rfl⟩
abbrev main_v184 : Ref sig .tc := ⟨.hbm, 310, rfl⟩
abbrev main_cst_25 : Ref sig .tc := ⟨.hbm, 311, rfl⟩
abbrev main_v185 : Ref sig .tc := ⟨.hbm, 312, rfl⟩
abbrev main_v186 : Ref sig .tc := ⟨.hbm, 313, rfl⟩
abbrev main_v187 : Ref sig .tc := ⟨.hbm, 314, rfl⟩
abbrev main_v188 : Ref sig .tc := ⟨.hbm, 315, rfl⟩
abbrev main_v189 : Ref sig .tc := ⟨.hbm, 316, rfl⟩
abbrev main_v190 : Ref sig .tc := ⟨.hbm, 317, rfl⟩
abbrev main_v191 : Ref sig .tc := ⟨.hbm, 318, rfl⟩
abbrev main_v192 : Ref sig .tc := ⟨.hbm, 319, rfl⟩
abbrev main_v193 : Ref sig .tc := ⟨.hbm, 320, rfl⟩
abbrev main_call11_cst : Ref sig .tc := ⟨.hbm, 321, rfl⟩
abbrev main_call11_v0 : Ref sig .tc := ⟨.hbm, 322, rfl⟩
abbrev main_v194 : Ref sig .tc := ⟨.hbm, 323, rfl⟩
abbrev main_v195 : Ref sig .tc := ⟨.hbm, 324, rfl⟩
abbrev main_v196 : Ref sig .tc := ⟨.hbm, 325, rfl⟩
abbrev main_v197 : Ref sig .tc := ⟨.hbm, 326, rfl⟩
abbrev main_v198 : Ref sig .tc := ⟨.hbm, 327, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  slices_S3x256_S1x256_0_0 : S3x256.Slices ![0, 0] S1x256
  shapeCasts_S1x256_S256 : S1x256.ShapeCasts S256
  reducesTo_S50000x256_S50000_d1 : S50000x256.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  slices_S3x256x256_S1x256x256_0_0_0 : S3x256x256.Slices ![0, 0, 0] S1x256x256
  shapeCasts_S1x256x256_S256x256 : S1x256x256.ShapeCasts S256x256
  slices_S3x256_S1x256_1_0 : S3x256.Slices ![1, 0] S1x256
  slices_S3x256x256_S1x256x256_1_0_0 : S3x256x256.Slices ![1, 0, 0] S1x256x256
  slices_S3x256_S1x256_2_0 : S3x256.Slices ![2, 0] S1x256
  slices_S3x256x256_S1x256x256_2_0_0 : S3x256x256.Slices ![2, 0, 0] S1x256x256
  bcast_S_S256x256 : S_.BroadcastsInDim S256x256 (![] : Fin 0 → Fin S256x256.rank)
  bcast_S_S50000 : S_.BroadcastsInDim S50000 (![] : Fin 0 → Fin S50000.rank)
  bcast_S_S256 : S_.BroadcastsInDim S256 (![] : Fin 0 → Fin S256.rank)
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  bcast_S128_S1x128_1 : S128.BroadcastsInDim S1x128 (![1] : Fin 1 → Fin S1x128.rank)
  bcast_S1x128_S256x128_0_1 : S1x128.BroadcastsInDim S256x128 (![0, 1] : Fin 2 → Fin S256x128.rank)
  bcast_S_S256x128 : S_.BroadcastsInDim S256x128 (![] : Fin 0 → Fin S256x128.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S256x256_S50000x1_S50000x256_1_0_0_1_wf : ScatterDims.WF S256x256 S50000x1 S50000x256 [1] [0] [0] 1
  scatter_S256_S50000x1_S50000_n_0_0_1_wf : ScatterDims.WF S256 S50000x1 S50000 [] [0] [0] 1
  dot_S256x256_S256x128_S256x128_1_0_0_1_n_n_wf : DotDims.WF S256x256 S256x128 S256x128 [1] [0] [0] [1] [] []
  dot_S256x128_S128x1_S256x1_1_0_0_1_n_n_wf : DotDims.WF S256x128 S128x1 S256x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S256x256_S50000x1_S50000x256_1_0_0_1 : ScatterDims S256x256 S50000x1 S50000x256 where
  updateWindowDims := [1]
  insertedWindowDims := [0]
  scatterDimsToOperandDims := [0]
  indexVectorDim := 1
  wf := scatter_S256x256_S50000x1_S50000x256_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

class Facts : Prop extends Facts₀ where

variable [Facts]
-- ==== Proof.KRun.lean ====
import proofs.«146653_j18459769438675_1_alg».proof.Proof.Gen.KernelIdeal.Frame

/-! # The run of the kernel-side program, with the result buffer

The whole-program run of the frame, with one more fact read off the final thread state: the result buffer ends at
the last boundary's contents. The seventeen argument arrays end as launched, exactly as in the frame. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program on the TensorCores terminates without fault; in every final state the
    result buffer holds the last boundary's contents and every argument array is as launched. -/
theorem run_main : θ_run defs (onTc (τ := τ) (main (F := F))) ⟨m, fun _ => 0, ρ⟩ (fun r => ∀ c : Dev nD,
      r.2.mem ((c.tc : Thread nD τ).loc main_v116) = Gen.W10 m ρ c (Proc.devRef .tc main_v116)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v116 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c)⟩)

end Cert.KernelIdeal.Hand

end
-- ==== Proof.KHost.lean ====
/-
  The host operations around the five kernel launches, read as functions of the values they are applied to.

  Between two launches the program (i) takes the source and target index vectors out of the edge table once, (ii) for each
  layer makes a negative source index count from the end, gathers the rows of the node array at the source indices, adds
  them up at the target indices into a zero array and adds the node array itself (the aggregation), (iii) cuts the layer's
  weight matrices, bias rows and layer-norm rows out of the stacked parameters, each bias and layer-norm row re-laid as a
  one-row matrix, and (iv) after the last layer adds the node rows of each graph, divides by the graph's node count (at
  least one) and re-lays the head's two biases as one-row matrices. Each such value is named here as a function of its
  inputs, each launch's input buffers are read as these functions at the buffer contents before the stretch, and the
  buffers a stretch does not write are read back unchanged.
-/
import proofs.«146653_j18459769438675_1_alg».proof.Proof.Gen.KernelIdeal.Frame
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo

/-- The contents of a buffer of shape `s` and element type `e`. -/
abbrev Arr (F : FTy → Type) [FloatOps F] (s : Shape) (e : EltTy) := (⟨s, e⟩ : BufTy).Contents (Elt F)

variable {F : FTy → Type} [FloatOps F]

/-! ## The values -/

/-- Row 0 of the edge table: the source node of every edge. -/
def srcIdx (ei : Arr F S2x800000 .i32) : Arr F S800000 .i32 :=
  shapeCast S800000 (extractStridedSlice S1x800000 ![0, 0] ei slices_S2x800000_S1x800000_0_0) shapeCasts_S1x800000_S800000
/-- Row 1 of the edge table: the target node of every edge. -/
def dstIdx (ei : Arr F S2x800000 .i32) : Arr F S800000 .i32 :=
  shapeCast S800000 (extractStridedSlice S1x800000 ![1, 0] ei slices_S2x800000_S1x800000_1_0) shapeCasts_S1x800000_S800000
/-- The source indices with a negative one counted from the end (50000 added), as a column. -/
def wrapIdx (s : Arr F S800000 .i32) : Arr F S800000x1 .i32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)
/-- The aggregation of a [50000, 128] node array: every node's row plus the rows of the sources of its incoming edges. -/
def agg128 (x : Arr F S50000x128 .f32) (s d : Arr F S800000 .i32) : Arr F S50000x128 .f32 :=
  addf x (Host.scatterAdd scatter_S50000x128_S800000x1_S800000x128_1_0_0_1
    (broadcastInDim S50000x128 ![] bcast_S_S50000x128 (constant S_ .f32 0x00000000#32))
    (broadcastInDim S800000x1 ![0] bcast_S800000_S800000x1_0 d)
    (Host.gather gather_S50000x128_S800000x1_S800000x128_1_0_n_n_0_1_1128 x (wrapIdx s)))
/-- The same over a [50000, 256] node array. -/
def agg256 (x : Arr F S50000x256 .f32) (s d : Arr F S800000 .i32) : Arr F S50000x256 .f32 :=
  addf x (Host.scatterAdd scatter_S50000x256_S800000x1_S800000x256_1_0_0_1
    (broadcastInDim S50000x256 ![] bcast_S_S50000x256 (constant S_ .f32 0x00000000#32))
    (broadcastInDim S800000x1 ![0] bcast_S800000_S800000x1_0 d)
    (Host.gather gather_S50000x256_S800000x1_S800000x256_1_0_n_n_0_1_1256 x (wrapIdx s)))
/-- Row `k` of a stack of three 256-vectors, as a vector. -/
def vrow0 (g : Arr F S3x256 .f32) : Arr F S256 .f32 :=
  shapeCast S256 (extractStridedSlice S1x256 ![0, 0] g slices_S3x256_S1x256_0_0) shapeCasts_S1x256_S256
def vrow1 (g : Arr F S3x256 .f32) : Arr F S256 .f32 :=
  shapeCast S256 (extractStridedSlice S1x256 ![1, 0] g slices_S3x256_S1x256_1_0) shapeCasts_S1x256_S256
def vrow2 (g : Arr F S3x256 .f32) : Arr F S256 .f32 :=
  shapeCast S256 (extractStridedSlice S1x256 ![2, 0] g slices_S3x256_S1x256_2_0) shapeCasts_S1x256_S256
/-- Matrix `k` of a stack of three 256 × 256 matrices. -/
def mrow0 (w : Arr F S3x256x256 .f32) : Arr F S256x256 .f32 :=
  shapeCast S256x256 (extractStridedSlice S1x256x256 ![0, 0, 0] w slices_S3x256x256_S1x256x256_0_0_0) shapeCasts_S1x256x256_S256x256
def mrow1 (w : Arr F S3x256x256 .f32) : Arr F S256x256 .f32 :=
  shapeCast S256x256 (extractStridedSlice S1x256x256 ![1, 0, 0] w slices_S3x256x256_S1x256x256_1_0_0) shapeCasts_S1x256x256_S256x256
def mrow2 (w : Arr F S3x256x256 .f32) : Arr F S256x256 .f32 :=
  shapeCast S256x256 (extractStridedSlice S1x256x256 ![2, 0, 0] w slices_S3x256x256_S1x256x256_2_0_0) shapeCasts_S1x256x256_S256x256
/-- A 256-vector re-laid as a one-row matrix. -/
def asRow (v : Arr F S256 .f32) : Arr F S1x256 .f32 := shapeCast S1x256 v shapeCasts_S256_S1x256
/-- The mean of the node rows of every graph: the rows added up per graph, divided by the graph's node count or by one. -/
def pool (x : Arr F S50000x256 .f32) (b : Arr F S50000 .i32) : Arr F S256x256 .f32 :=
  Host.divf
    (Host.scatterAdd scatter_S256x256_S50000x1_S50000x256_1_0_0_1
      (broadcastInDim S256x256 ![] bcast_S_S256x256 (constant S_ .f32 0x00000000#32))
      (broadcastInDim S50000x1 ![0] bcast_S50000_S50000x1_0 b) x)
    (broadcastInDim S256x256 ![0, 1] bcast_S256x1_S256x256_0_1 (broadcastInDim S256x1 ![0] bcast_S256_S256x1_0
      (maximumf
        (Host.scatterAdd scatter_S256_S50000x1_S50000_n_0_0_1
          (broadcastInDim S256 ![] bcast_S_S256 (constant S_ .f32 0x00000000#32))
          (broadcastInDim S50000x1 ![0] bcast_S50000_S50000x1_0 b)
          (broadcastInDim S50000 ![] bcast_S_S50000 (constant S_ .f32 0x3F800000#32)))
        (broadcastInDim S256 ![] bcast_S_S256 (constant S_ .f32 0x3F800000#32)))))

/-! ## The stretches, read at any contents `W` before the stretch -/

/-- The fold of a stretch unrolled; each operation's result decides by computation whether the buffer read is the one it
    writes. The gathers and scatter-adds stay folded meanwhile. -/
local macro "host_read" : tactic => `(tactic| (simp only [after_cons, after_nil]; rfl))

section Stretches
attribute [local irreducible] Host.gather Host.scatterAdd
set_option maxRecDepth 8192
variable (W : Valuation τ sig (Elt F))

theorem h0_v1 : after hostOps0 W (main_v1 : DevRef τ sig) = srcIdx (W (main_arg1 : DevRef τ sig)) := by host_read
theorem h0_v3 : after hostOps0 W (main_v3 : DevRef τ sig) = dstIdx (W (main_arg1 : DevRef τ sig)) := by host_read
theorem h0_v14 : after hostOps0 W (main_v14 : DevRef τ sig) = agg128 (W (main_arg0 : DevRef τ sig)) (srcIdx (W (main_arg1 : DevRef τ sig))) (dstIdx (W (main_arg1 : DevRef τ sig))) := by host_read
theorem h0_v19 : after hostOps0 W (main_v19 : DevRef τ sig) = asRow (W (main_arg4 : DevRef τ sig)) := by host_read
theorem h0_v20 : after hostOps0 W (main_v20 : DevRef τ sig) = asRow (W (main_arg6 : DevRef τ sig)) := by host_read
theorem h0_v21 : after hostOps0 W (main_v21 : DevRef τ sig) = asRow (vrow0 (W (main_arg11 : DevRef τ sig))) := by host_read
theorem h0_v22 : after hostOps0 W (main_v22 : DevRef τ sig) = asRow (vrow0 (W (main_arg12 : DevRef τ sig))) := by host_read
theorem keep0_arg2 : after hostOps0 W (main_arg2 : DevRef τ sig) = W (main_arg2 : DevRef τ sig) := by host_read
theorem keep0_arg3 : after hostOps0 W (main_arg3 : DevRef τ sig) = W (main_arg3 : DevRef τ sig) := by host_read
theorem keep0_arg5 : after hostOps0 W (main_arg5 : DevRef τ sig) = W (main_arg5 : DevRef τ sig) := by host_read
theorem keep0_arg7 : after hostOps0 W (main_arg7 : DevRef τ sig) = W (main_arg7 : DevRef τ sig) := by host_read
theorem keep0_arg8 : after hostOps0 W (main_arg8 : DevRef τ sig) = W (main_arg8 : DevRef τ sig) := by host_read
theorem keep0_arg9 : after hostOps0 W (main_arg9 : DevRef τ sig) = W (main_arg9 : DevRef τ sig) := by host_read
theorem keep0_arg10 : after hostOps0 W (main_arg10 : DevRef τ sig) = W (main_arg10 : DevRef τ sig) := by host_read
theorem keep0_arg11 : after hostOps0 W (main_arg11 : DevRef τ sig) = W (main_arg11 : DevRef τ sig) := by host_read
theorem keep0_arg12 : after hostOps0 W (main_arg12 : DevRef τ sig) = W (main_arg12 : DevRef τ sig) := by host_read
theorem keep0_arg13 : after hostOps0 W (main_arg13 : DevRef τ sig) = W (main_arg13 : DevRef τ sig) := by host_read
theorem keep0_arg14 : after hostOps0 W (main_arg14 : DevRef τ sig) = W (main_arg14 : DevRef τ sig) := by host_read
theorem keep0_arg15 : after hostOps0 W (main_arg15 : DevRef τ sig) = W (main_arg15 : DevRef τ sig) := by host_read
theorem keep0_arg16 : after hostOps0 W (main_arg16 : DevRef τ sig) = W (main_arg16 : DevRef τ sig) := by host_read
theorem h1_v34 : after hostOps1 W (main_v34 : DevRef τ sig) = agg256 (W (main_v23 : DevRef τ sig)) (W (main_v1 : DevRef τ sig)) (W (main_v3 : DevRef τ sig)) := by host_read
theorem h1_v36 : after hostOps1 W (main_v36 : DevRef τ sig) = mrow0 (W (main_arg7 : DevRef τ sig)) := by host_read
theorem h1_v47 : after hostOps1 W (main_v47 : DevRef τ sig) = asRow (vrow0 (W (main_arg8 : DevRef τ sig))) := by host_read
theorem h1_v40 : after hostOps1 W (main_v40 : DevRef τ sig) = mrow0 (W (main_arg9 : DevRef τ sig)) := by host_read
theorem h1_v48 : after hostOps1 W (main_v48 : DevRef τ sig) = asRow (vrow0 (W (main_arg10 : DevRef τ sig))) := by host_read
theorem h1_v49 : after hostOps1 W (main_v49 : DevRef τ sig) = asRow (vrow1 (W (main_arg11 : DevRef τ sig))) := by host_read
theorem h1_v50 : after hostOps1 W (main_v50 : DevRef τ sig) = asRow (vrow1 (W (main_arg12 : DevRef τ sig))) := by host_read
theorem keep1_v1 : after hostOps1 W (main_v1 : DevRef τ sig) = W (main_v1 : DevRef τ sig) := by host_read
theorem keep1_v3 : after hostOps1 W (main_v3 : DevRef τ sig) = W (main_v3 : DevRef τ sig) := by host_read
theorem keep1_arg2 : after hostOps1 W (main_arg2 : DevRef τ sig) = W (main_arg2 : DevRef τ sig) := by host_read
theorem keep1_arg7 : after hostOps1 W (main_arg7 : DevRef τ sig) = W (main_arg7 : DevRef τ sig) := by host_read
theorem keep1_arg8 : after hostOps1 W (main_arg8 : DevRef τ sig) = W (main_arg8 : DevRef τ sig) := by host_read
theorem keep1_arg9 : after hostOps1 W (main_arg9 : DevRef τ sig) = W (main_arg9 : DevRef τ sig) := by host_read
theorem keep1_arg10 : after hostOps1 W (main_arg10 : DevRef τ sig) = W (main_arg10 : DevRef τ sig) := by host_read
theorem keep1_arg11 : after hostOps1 W (main_arg11 : DevRef τ sig) = W (main_arg11 : DevRef τ sig) := by host_read
theorem keep1_arg12 : after hostOps1 W (main_arg12 : DevRef τ sig) = W (main_arg12 : DevRef τ sig) := by host_read
theorem keep1_arg13 : after hostOps1 W (main_arg13 : DevRef τ sig) = W (main_arg13 : DevRef τ sig) := by host_read
theorem keep1_arg14 : after hostOps1 W (main_arg14 : DevRef τ sig) = W (main_arg14 : DevRef τ sig) := by host_read
theorem keep1_arg15 : after hostOps1 W (main_arg15 : DevRef τ sig) = W (main_arg15 : DevRef τ sig) := by host_read
theorem keep1_arg16 : after hostOps1 W (main_arg16 : DevRef τ sig) = W (main_arg16 : DevRef τ sig) := by host_read
theorem h2_v62 : after hostOps2 W (main_v62 : DevRef τ sig) = agg256 (W (main_v51 : DevRef τ sig)) (W (main_v1 : DevRef τ sig)) (W (main_v3 : DevRef τ sig)) := by host_read
theorem h2_v64 : after hostOps2 W (main_v64 : DevRef τ sig) = mrow1 (W (main_arg7 : DevRef τ sig)) := by host_read
theorem h2_v75 : after hostOps2 W (main_v75 : DevRef τ sig) = asRow (vrow1 (W (main_arg8 : DevRef τ sig))) := by host_read
theorem h2_v68 : after hostOps2 W (main_v68 : DevRef τ sig) = mrow1 (W (main_arg9 : DevRef τ sig)) := by host_read
theorem h2_v76 : after hostOps2 W (main_v76 : DevRef τ sig) = asRow (vrow1 (W (main_arg10 : DevRef τ sig))) := by host_read
theorem h2_v77 : after hostOps2 W (main_v77 : DevRef τ sig) = asRow (vrow2 (W (main_arg11 : DevRef τ sig))) := by host_read
theorem h2_v78 : after hostOps2 W (main_v78 : DevRef τ sig) = asRow (vrow2 (W (main_arg12 : DevRef τ sig))) := by host_read
theorem keep2_v1 : after hostOps2 W (main_v1 : DevRef τ sig) = W (main_v1 : DevRef τ sig) := by host_read
theorem keep2_v3 : after hostOps2 W (main_v3 : DevRef τ sig) = W (main_v3 : DevRef τ sig) := by host_read
theorem keep2_arg2 : after hostOps2 W (main_arg2 : DevRef τ sig) = W (main_arg2 : DevRef τ sig) := by host_read
theorem keep2_arg7 : after hostOps2 W (main_arg7 : DevRef τ sig) = W (main_arg7 : DevRef τ sig) := by host_read
theorem keep2_arg8 : after hostOps2 W (main_arg8 : DevRef τ sig) = W (main_arg8 : DevRef τ sig) := by host_read
theorem keep2_arg9 : after hostOps2 W (main_arg9 : DevRef τ sig) = W (main_arg9 : DevRef τ sig) := by host_read
theorem keep2_arg10 : after hostOps2 W (main_arg10 : DevRef τ sig) = W (main_arg10 : DevRef τ sig) := by host_read
theorem keep2_arg13 : after hostOps2 W (main_arg13 : DevRef τ sig) = W (main_arg13 : DevRef τ sig) := by host_read
theorem keep2_arg14 : after hostOps2 W (main_arg14 : DevRef τ sig) = W (main_arg14 : DevRef τ sig) := by host_read
theorem keep2_arg15 : after hostOps2 W (main_arg15 : DevRef τ sig) = W (main_arg15 : DevRef τ sig) := by host_read
theorem keep2_arg16 : after hostOps2 W (main_arg16 : DevRef τ sig) = W (main_arg16 : DevRef τ sig) := by host_read
theorem h3_v90 : after hostOps3 W (main_v90 : DevRef τ sig) = agg256 (W (main_v79 : DevRef τ sig)) (W (main_v1 : DevRef τ sig)) (W (main_v3 : DevRef τ sig)) := by host_read
theorem h3_v92 : after hostOps3 W (main_v92 : DevRef τ sig) = mrow2 (W (main_arg7 : DevRef τ sig)) := by host_read
theorem h3_v99 : after hostOps3 W (main_v99 : DevRef τ sig) = asRow (vrow2 (W (main_arg8 : DevRef τ sig))) := by host_read
theorem h3_v96 : after hostOps3 W (main_v96 : DevRef τ sig) = mrow2 (W (main_arg9 : DevRef τ sig)) := by host_read
theorem h3_v100 : after hostOps3 W (main_v100 : DevRef τ sig) = asRow (vrow2 (W (main_arg10 : DevRef τ sig))) := by host_read
theorem keep3_arg2 : after hostOps3 W (main_arg2 : DevRef τ sig) = W (main_arg2 : DevRef τ sig) := by host_read
theorem keep3_arg13 : after hostOps3 W (main_arg13 : DevRef τ sig) = W (main_arg13 : DevRef τ sig) := by host_read
theorem keep3_arg14 : after hostOps3 W (main_arg14 : DevRef τ sig) = W (main_arg14 : DevRef τ sig) := by host_read
theorem keep3_arg15 : after hostOps3 W (main_arg15 : DevRef τ sig) = W (main_arg15 : DevRef τ sig) := by host_read
theorem keep3_arg16 : after hostOps3 W (main_arg16 : DevRef τ sig) = W (main_arg16 : DevRef τ sig) := by host_read
theorem h4_v113 : after hostOps4 W (main_v113 : DevRef τ sig) = pool (W (main_v101 : DevRef τ sig)) (W (main_arg2 : DevRef τ sig)) := by host_read
theorem h4_v114 : after hostOps4 W (main_v114 : DevRef τ sig) = shapeCast S1x128 (W (main_arg14 : DevRef τ sig)) shapeCasts_S128_S1x128 := by host_read
theorem h4_v115 : after hostOps4 W (main_v115 : DevRef τ sig) = shapeCast S1x1 (W (main_arg16 : DevRef τ sig)) shapeCasts_S1_S1x1 := by host_read
theorem keep4_arg13 : after hostOps4 W (main_arg13 : DevRef τ sig) = W (main_arg13 : DevRef τ sig) := by host_read
theorem keep4_arg15 : after hostOps4 W (main_arg15 : DevRef τ sig) = W (main_arg15 : DevRef τ sig) := by host_read

end Stretches

end Cert.KernelIdeal.Hand

end
-- ==== Proof.KBlocks0.lean ====
import proofs.«146653_j18459769438675_1_alg».proof.Proof.Gen.KernelIdeal.Frame
import Idealize.ShloMosaic.Lib.Pipeline.Value
import Idealize.ShloMosaic.Lib.ValueIdx

/-! # Region 0: from the blocks to the array

The first region runs over 25 grid points. Point `t` sees rows `2000·t … 2000·t + 1999` of the node array and all of
every other operand, and writes rows `2000·t … 2000·t + 1999` of the result. So the result array is one function of the
operand arrays: row `r` is computed by the block function from the block of rows containing `r`, read at row
`r mod 2000`. -/

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]

/-- Rows `2000·k … 2000·k + 1999` of an array of 50000 rows of 128. -/
def rows0 (x : FVec F S50000x128 .f32) (k : Fin 25) : FVec F S2000x128 .f32 :=
  fun y => x (ix2 (⟨2000 * k.val + (y 0).val, by have := idx2_lt0 y; have := k.isLt; omega⟩ : Fin 50000)
    (⟨(y 1).val, idx2_lt1 y⟩ : Fin 128))

/-- The result array of region 0 as a function of its operand arrays: at row `r`, the block function of the block of
    2000 rows containing `r` and of the other operands whole, read at row `r mod 2000`. -/
def G0 (x0 : FVec F S50000x128 .f32) (x1 : FVec F S128x256 .f32) (x2 : FVec F S1x256 .f32) (x3 : FVec F S256x256 .f32) (x4 x5 x6 : FVec F S1x256 .f32) : FVec F S50000x256 .f32 :=
  fun i => Gen.out0_7 (rows0 x0 ⟨(i 0).val / 2000, by have := idx2_lt0 i; omega⟩) x1 x2 x3 x4 x5 x6
    (ix2 (⟨(i 0).val % 2000, Nat.mod_lt _ (by decide)⟩ : Fin 2000) (⟨(i 1).val, idx2_lt1 i⟩ : Fin 256))

/-- `G0` at row `r`, column `q`. -/
theorem G0_apply (x0 : FVec F S50000x128 .f32) (x1 : FVec F S128x256 .f32) (x2 : FVec F S1x256 .f32) (x3 : FVec F S256x256 .f32) (x4 x5 x6 : FVec F S1x256 .f32) (r : Fin 50000) (q : Fin 256) :
    G0 x0 x1 x2 x3 x4 x5 x6 (ix2 r q)
      = Gen.out0_7 (fun y => x0 (ix2 (⟨2000 * (r.val / 2000) + (y 0).val, by have := idx2_lt0 y; have := r.isLt; omega⟩ : Fin 50000)
          (⟨(y 1).val, idx2_lt1 y⟩ : Fin 128))) x1 x2 x3 x4 x5 x6
        (ix2 (⟨r.val % 2000, Nat.mod_lt _ (by decide)⟩ : Fin 2000) q) := rfl

/-- `G0` at an index in block `k`: the block function of block `k`, at the index inside the block. -/
theorem G0_block (x0 : FVec F S50000x128 .f32) (x1 : FVec F S128x256 .f32) (x2 : FVec F S1x256 .f32) (x3 : FVec F S256x256 .f32) (x4 x5 x6 : FVec F S1x256 .f32) (k : Fin 25) (i : S50000x256.Idx) (j : S2000x256.Idx)
    (h0 : (i 0).val = 2000 * k.val + (j 0).val) (h1 : (i 1).val = (j 1).val) :
    G0 x0 x1 x2 x3 x4 x5 x6 i = Gen.out0_7 (rows0 x0 k) x1 x2 x3 x4 x5 x6 j := by
  have hj : (j 0).val < 2000 := idx2_lt0 j
  have hk : (i 0).val / 2000 = k.val := by omega
  have hm : (i 0).val % 2000 = (j 0).val := by omega
  unfold G0
  refine congr (congrArg (fun b => Gen.out0_7 (rows0 x0 b) x1 x2 x3 x4 x5 x6) (Fin.ext hk)) ?_
  funext a
  match a with
  | ⟨0, _⟩ => exact Fin.ext hm
  | ⟨1, _⟩ => exact Fin.ext h1

section Region
variable (V : (c : Dev nD) → (b : Ref sig .tc) → Buf (Elt F) ((c : Thread nD τ).loc b))

/-- The block indices over the grid: the node array's window and the result's window are at block `(t, 0)` at point
    `t`; every other window is always at block `(0, 0)`. -/
theorem idx0 : ∀ t : Fin cfg0.N,
    win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The node array's block at point `t` is its rows `2000·t … 2000·t + 1999`. -/
theorem iblk0_0 (c : Dev nD) (t : Fin cfg0.N) :
    Gen.iblk0 V c 0 t = rows0 (V c (Pipeline.arrRef spec0 0)) ⟨t.val, Nat.lt_of_lt_of_eq t.isLt Gen.N_0⟩ := by
  funext y
  obtain ⟨e0, e1, -⟩ := idx0 t
  show V c (Pipeline.arrRef spec0 0) (((cfg0.win 0).blk t).view.emb y) = V c (Pipeline.arrRef spec0 0) (ix2 _ _)
  refine congrArg _ ?_
  funext a; apply Fin.ext
  match a with
  | ⟨0, _⟩ => show win0_0.index t (0 : Fin 2) * 2000 + 1 * (y 0).val = 2000 * t.val + (y 0).val; omega
  | ⟨1, _⟩ => show win0_0.index t (1 : Fin 2) * 128 + 1 * (y 1).val = (y 1).val; omega

/-- Operand 1's window is the whole array at every point. -/
theorem iblk0_1 (c : Dev nD) (t : Fin cfg0.N) : Gen.iblk0 V c 1 t = V c (Pipeline.arrRef spec0 1) := by
  funext y
  obtain ⟨-, -, -, -, e0, e1, -⟩ := idx0 t
  show V c (Pipeline.arrRef spec0 1) (((cfg0.win 1).blk t).view.emb y) = V c (Pipeline.arrRef spec0 1) y
  refine congrArg _ ?_
  funext a; apply Fin.ext
  match a with
  | ⟨0, _⟩ => show win0_1.index t (0 : Fin 2) * 128 + 1 * (y 0).val = (y 0).val; omega
  | ⟨1, _⟩ => show win0_1.index t (1 : Fin 2) * 256 + 1 * (y 1).val = (y 1).val; omega

/-- Operand 2's window is the whole array at every point. -/
theorem iblk0_2 (c : Dev nD) (t : Fin cfg0.N) : Gen.iblk0 V c 2 t = V c (Pipeline.arrRef spec0 2) := by
  funext y
  obtain ⟨-, -, -, -, -, -, e0, e1, -⟩ := idx0 t
  show V c (Pipeline.arrRef spec0 2) (((cfg0.win 2).blk t).view.emb y) = V c (Pipeline.arrRef spec0 2) y
  refine congrArg _ ?_
  funext a; apply Fin.ext
  match a with
  | ⟨0, _⟩ => show win0_2.index t (0 : Fin 2) * 1 + 1 * (y 0).val = (y 0).val; omega
  | ⟨1, _⟩ => show win0_2.index t (1 : Fin 2) * 256 + 1 * (y 1).val = (y 1).val; omega

/-- Operand 3's window is the whole array at every point. -/
theorem iblk0_3 (c : Dev nD) (t : Fin cfg0.N) : Gen.iblk0 V c 3 t = V c (Pipeline.arrRef spec0 3) := by
  funext y
  obtain ⟨-, -, -, -, -, -, -, -, e0, e1, -⟩ := idx0 t
  show V c (Pipeline.arrRef spec0 3) (((cfg0.win 3).blk t).view.emb y) = V c (Pipeline.arrRef spec0 3) y
  refine congrArg _ ?_
  funext a; apply Fin.ext
  match a with
  | ⟨0, _⟩ => show win0_3.index t (0 : Fin 2) * 256 + 1 * (y 0).val = (y 0).val; omega
  | ⟨1, _⟩ => show win0_3.index t (1 : Fin 2) * 256 + 1 * (y 1).val = (y 1).val; omega

/-- Operand 4's window is the whole array at every point. -/
theorem iblk0_4 (c : Dev nD) (t : Fin cfg0.N) : Gen.iblk0 V c 4 t = V c (Pipeline.arrRef spec0 4) := by
  funext y
  obtain ⟨-, -, -, -, -, -, -, -, -, -, e0, e1, -⟩ := idx0 t
  show V c (Pipeline.arrRef spec0 4) (((cfg0.win 4).blk t).view.emb y) = V c (Pipeline.arrRef spec0 4) y
  refine congrArg _ ?_
  funext a; apply Fin.ext
  match a with
  | ⟨0, _⟩ => show win0_4.index t (0 : Fin 2) * 1 + 1 * (y 0).val = (y 0).val; omega
  | ⟨1, _⟩ => show win0_4.index t (1 : Fin 2) * 256 + 1 * (y 1).val = (y 1).val; omega

/-- Operand 5's window is the whole array at every point. -/
theorem iblk0_5 (c : Dev nD) (t : Fin cfg0.N) : Gen.iblk0 V c 5 t = V c (Pipeline.arrRef spec0 5) := by
  funext y
  obtain ⟨-, -, -, -, -, -, -, -, -, -, -, -, e0, e1, -⟩ := idx0 t
  show V c (Pipeline.arrRef spec0 5) (((cfg0.win 5).blk t).view.emb y) = V c (Pipeline.arrRef spec0 5) y
  refine congrArg _ ?_
  funext a; apply Fin.ext
  match a with
  | ⟨0, _⟩ => show win0_5.index t (0 : Fin 2) * 1 + 1 * (y 0).val = (y 0).val; omega
  | ⟨1, _⟩ => show win0_5.index t (1 : Fin 2) * 256 + 1 * (y 1).val = (y 1).val; omega

/-- Operand 6's window is the whole array at every point. -/
theorem iblk0_6 (c : Dev nD) (t : Fin cfg0.N) : Gen.iblk0 V c 6 t = V c (Pipeline.arrRef spec0 6) := by
  funext y
  obtain ⟨-, -, -, -, -, -, -, -, -, -, -, -, -, -, e0, e1⟩ := idx0 t
  show V c (Pipeline.arrRef spec0 6) (((cfg0.win 6).blk t).view.emb y) = V c (Pipeline.arrRef spec0 6) y
  refine congrArg _ ?_
  funext a; apply Fin.ext
  match a with
  | ⟨0, _⟩ => show win0_6.index t (0 : Fin 2) * 1 + 1 * (y 0).val = (y 0).val; omega
  | ⟨1, _⟩ => show win0_6.index t (1 : Fin 2) * 256 + 1 * (y 1).val = (y 1).val; omega

/-- Writing back the whole staging buffer: the block is not cut. -/
theorem cut0 (t : Fin cfg0.N) (X : Vec F S2000x256 .f32) : (cfg0.win 7).cut (grid0.coords t) X = X := rfl

/-- Reading an array through point `t`'s block of the result window. -/
theorem read0 (t : Fin cfg0.N) (G : FVec F S50000x256 .f32) (j : S2000x256.Idx) :
    ((cfg0.win 7).blk t).view.read (Elt F) G j = G (((cfg0.win 7).blk t).view.emb j) := rfl

/-- What point `t` writes back is the block function of the operands' blocks at `t`: rows `2000·t …` of the node
    array, the other operands whole. -/
theorem flushed0_blocks (c : Dev nD) (t : Fin cfg0.N) :
    (Gen.dat0 V c).flushed 7 t
      = Gen.out0_7 (rows0 (V c (Pipeline.arrRef spec0 0)) ⟨t.val, Nat.lt_of_lt_of_eq t.isLt Gen.N_0⟩)
      (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) := by
  show (cfg0.win 7).cut (grid0.coords t) ((Gen.dat0 V c).after 7 t) = _
  rw [Gen.after0_7, iblk0_0, iblk0_1, iblk0_2, iblk0_3, iblk0_4, iblk0_5, iblk0_6]
  exact cut0 t _

/-- The block function of the operands' blocks at `t` is block `t` of `G0` of the operand arrays. -/
theorem blocks0_eq_read (c : Dev nD) (t : Fin cfg0.N) :
    Gen.out0_7 (rows0 (V c (Pipeline.arrRef spec0 0)) ⟨t.val, Nat.lt_of_lt_of_eq t.isLt Gen.N_0⟩)
      (V c (Pipeline.arrRef spec0 1)) (V c (Pipeline.arrRef spec0 2)) (V c (Pipeline.arrRef spec0 3)) (V c (Pipeline.arrRef spec0 4)) (V c (Pipeline.arrRef spec0 5)) (V c (Pipeline.arrRef spec0 6))
      = ((cfg0.win 7).blk t).view.read (Elt F)
        (G0 (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6))) := by
  funext j
  rw [read0 t _ j]
  obtain ⟨-, -, e0, e1, -⟩ := idx0 t
  refine (G0_block _ _ _ _ _ _ _ ⟨t.val, Nat.lt_of_lt_of_eq t.isLt Gen.N_0⟩ (((cfg0.win 7).blk t).view.emb j) j ?_ ?_).symm
  · show win0_7.index t (0 : Fin 2) * 2000 + 1 * (j 0).val = 2000 * t.val + (j 0).val; omega
  · show win0_7.index t (1 : Fin 2) * 256 + 1 * (j 1).val = (j 1).val; omega

/-- What point `t` writes back is block `t` of `G0` of the operand arrays as the region finds them. -/
theorem flushed0 (c : Dev nD) (t : Fin cfg0.N) :
    (Gen.dat0 V c).flushed 7 t = ((cfg0.win 7).blk t).view.read (Elt F)
      (G0 (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6))) :=
  (flushed0_blocks V c t).trans (blocks0_eq_read V c t)

/-- An index of the result array is in point `t`'s block iff each coordinate is in the block's range on its axis. -/
theorem mem_blk0 (t : Fin cfg0.N) (i : S50000x256.Idx) :
    i ∈ ((cfg0.win 7).blk t).view.set ↔ ∀ a : Fin 2, win0_7.index t a * S2000x256.size a ≤ (i a).val
      ∧ (i a).val < win0_7.index t a * S2000x256.size a + S2000x256.size a := by
  show i ∈ ((View.whole main_v23).slice (win0_7.rect t)).set ↔ _
  rw [View.set_slice_whole, Rect.mem_set_unit]
  exact Iff.rfl

/-- Every index of the result array is in some point's block: row `r` is in the block of point `r / 2000`. -/
theorem cover0 (i : S50000x256.Idx) :
    ∃ t : Fin cfg0.N, (cfg0.win 7).flush t = true ∧ i ∈ ((cfg0.win 7).blk t).view.set := by
  have hi0 : (i 0).val < 50000 := idx2_lt0 i
  have hi1 : (i 1).val < 256 := idx2_lt1 i
  obtain ⟨t, ht⟩ : ∃ t : Fin cfg0.N, t.val = (i 0).val / 2000 :=
    ⟨⟨(i 0).val / 2000, Nat.lt_of_lt_of_eq (by omega) Gen.N_0.symm⟩, rfl⟩
  obtain ⟨-, -, e0, e1, -⟩ := idx0 t
  refine ⟨t, Gen.flush0_7 t, ?_⟩
  rw [mem_blk0]
  intro a
  match a with
  | ⟨0, _⟩ => show win0_7.index t (0 : Fin 2) * 2000 ≤ (i 0).val ∧ (i 0).val < win0_7.index t (0 : Fin 2) * 2000 + 2000; omega
  | ⟨1, _⟩ => show win0_7.index t (1 : Fin 2) * 256 ≤ (i 1).val ∧ (i 1).val < win0_7.index t (1 : Fin 2) * 256 + 256; omega

/-- The result array after region 0 is `G0` of the operand arrays as the region finds them. -/
theorem final0 (c : Dev nD) :
    (Gen.dat0 V c).arrAt 7 cfg0.N
      = G0 (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) :=
  (Gen.dat0 V c).arrAt_eq_of_cover 7 _ (fun t _ => flushed0 V c t) cover0

end Region

variable (m : (ℓ : Loc nD τ sig) → Buf (Elt F) ℓ) (ρ : Dev nD → PrngReg)

/-- In the run: the first region's result buffer, at the region's exit, is `G0` of its operand buffers at the
    region's entry. -/
theorem W2_out (c : Dev nD) :
    Gen.W2 m ρ c (Proc.devRef .tc main_v23)
      = G0 (Gen.W1 m ρ c (Proc.devRef .tc main_v14))
        (Gen.W1 m ρ c (Proc.devRef .tc main_arg3))
        (Gen.W1 m ρ c (Proc.devRef .tc main_v19))
        (Gen.W1 m ρ c (Proc.devRef .tc main_arg5))
        (Gen.W1 m ρ c (Proc.devRef .tc main_v20))
        (Gen.W1 m ρ c (Proc.devRef .tc main_v21))
        (Gen.W1 m ρ c (Proc.devRef .tc main_v22)) :=
  (Gen.W2_arr m ρ c 7).trans (final0 (Gen.V1 m ρ) c)

end Cert.KernelIdeal.Hand

end
-- ==== Proof.KBlocks1.lean ====
import proofs.«146653_j18459769438675_1_alg».proof.Proof.Gen.KernelIdeal.Frame
import Idealize.ShloMosaic.Lib.Pipeline.Value
import Idealize.ShloMosaic.Lib.ValueIdx

/-! # Region 1: from the blocks to the array

The second region runs over 25 grid points. Point `t` sees rows `2000·t … 2000·t + 1999` of the node array and all of
every other operand, and writes rows `2000·t … 2000·t + 1999` of the result. So the result array is one function of the
operand arrays: row `r` is computed by the block function from the block of rows containing `r`, read at row
`r mod 2000`. -/

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]

/-- Rows `2000·k … 2000·k + 1999` of an array of 50000 rows of 256. -/
def rows1 (x : FVec F S50000x256 .f32) (k : Fin 25) : FVec F S2000x256 .f32 :=
  fun y => x (ix2 (⟨2000 * k.val + (y 0).val, by have := idx2_lt0 y; have := k.isLt; omega⟩ : Fin 50000)
    (⟨(y 1).val, idx2_lt1 y⟩ : Fin 256))

/-- The result array of region 1 as a function of its operand arrays: at row `r`, the block function of the block of
    2000 rows containing `r` and of the other operands whole, read at row `r mod 2000`. -/
def G1 (x0 : FVec F S50000x256 .f32) (x1 : FVec F S256x256 .f32) (x2 : FVec F S1x256 .f32) (x3 : FVec F S256x256 .f32) (x4 x5 x6 : FVec F S1x256 .f32) : FVec F S50000x256 .f32 :=
  fun i => Gen.out1_7 (rows1 x0 ⟨(i 0).val / 2000, by have := idx2_lt0 i; omega⟩) x1 x2 x3 x4 x5 x6
    (ix2 (⟨(i 0).val % 2000, Nat.mod_lt _ (by decide)⟩ : Fin 2000) (⟨(i 1).val, idx2_lt1 i⟩ : Fin 256))

/-- `G1` at row `r`, column `q`. -/
theorem G1_apply (x0 : FVec F S50000x256 .f32) (x1 : FVec F S256x256 .f32) (x2 : FVec F S1x256 .f32) (x3 : FVec F S256x256 .f32) (x4 x5 x6 : FVec F S1x256 .f32) (r : Fin 50000) (q : Fin 256) :
    G1 x0 x1 x2 x3 x4 x5 x6 (ix2 r q)
      = Gen.out1_7 (fun y => x0 (ix2 (⟨2000 * (r.val / 2000) + (y 0).val, by have := idx2_lt0 y; have := r.isLt; omega⟩ : Fin 50000)
          (⟨(y 1).val, idx2_lt1 y⟩ : Fin 256))) x1 x2 x3 x4 x5 x6
        (ix2 (⟨r.val % 2000, Nat.mod_lt _ (by decide)⟩ : Fin 2000) q) := rfl

/-- `G1` at an index in block `k`: the block function of block `k`, at the index inside the block. -/
theorem G1_block (x0 : FVec F S50000x256 .f32) (x1 : FVec F S256x256 .f32) (x2 : FVec F S1x256 .f32) (x3 : FVec F S256x256 .f32) (x4 x5 x6 : FVec F S1x256 .f32) (k : Fin 25) (i : S50000x256.Idx) (j : S2000x256.Idx)
    (h0 : (i 0).val = 2000 * k.val + (j 0).val) (h1 : (i 1).val = (j 1).val) :
    G1 x0 x1 x2 x3 x4 x5 x6 i = Gen.out1_7 (rows1 x0 k) x1 x2 x3 x4 x5 x6 j := by
  have hj : (j 0).val < 2000 := idx2_lt0 j
  have hk : (i 0).val / 2000 = k.val := by omega
  have hm : (i 0).val % 2000 = (j 0).val := by omega
  unfold G1
  refine congr (congrArg (fun b => Gen.out1_7 (rows1 x0 b) x1 x2 x3 x4 x5 x6) (Fin.ext hk)) ?_
  funext a
  match a with
  | ⟨0, _⟩ => exact Fin.ext hm
  | ⟨1, _⟩ => exact Fin.ext h1

section Region
variable (V : (c : Dev nD) → (b : Ref sig .tc) → Buf (Elt F) ((c : Thread nD τ).loc b))

/-- The block indices over the grid: the node array's window and the result's window are at block `(t, 0)` at point
    `t`; every other window is always at block `(0, 0)`. -/
theorem idx1 : ∀ t : Fin cfg1.N,
    win1_0.index t (0 : Fin 2) = t.val ∧ win1_0.index t (1 : Fin 2) = 0
    ∧ win1_7.index t (0 : Fin 2) = t.val ∧ win1_7.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- The node array's block at point `t` is its rows `2000·t … 2000·t + 1999`. -/
theorem iblk1_0 (c : Dev nD) (t : Fin cfg1.N) :
    Gen.iblk1 V c 0 t = rows1 (V c (Pipeline.arrRef spec1 0)) ⟨t.val, Nat.lt_of_lt_of_eq t.isLt Gen.N_1⟩ := by
  funext y
  obtain ⟨e0, e1, -⟩ := idx1 t
  show V c (Pipeline.arrRef spec1 0) (((cfg1.win 0).blk t).view.emb y) = V c (Pipeline.arrRef spec1 0) (ix2 _ _)
  refine congrArg _ ?_
  funext a; apply Fin.ext
  match a with
  | ⟨0, _⟩ => show win1_0.index t (0 : Fin 2) * 2000 + 1 * (y 0).val = 2000 * t.val + (y 0).val; omega
  | ⟨1, _⟩ => show win1_0.index t (1 : Fin 2) * 256 + 1 * (y 1).val = (y 1).val; omega

/-- Operand 1's window is the whole array at every point. -/
theorem iblk1_1 (c : Dev nD) (t : Fin cfg1.N) : Gen.iblk1 V c 1 t = V c (Pipeline.arrRef spec1 1) := by
  funext y
  obtain ⟨-, -, -, -, e0, e1, -⟩ := idx1 t
  show V c (Pipeline.arrRef spec1 1) (((cfg1.win 1).blk t).view.emb y) = V c (Pipeline.arrRef spec1 1) y
  refine congrArg _ ?_
  funext a; apply Fin.ext
  match a with
  | ⟨0, _⟩ => show win1_1.index t (0 : Fin 2) * 256 + 1 * (y 0).val = (y 0).val; omega
  | ⟨1, _⟩ => show win1_1.index t (1 : Fin 2) * 256 + 1 * (y 1).val = (y 1).val; omega

/-- Operand 2's window is the whole array at every point. -/
theorem iblk1_2 (c : Dev nD) (t : Fin cfg1.N) : Gen.iblk1 V c 2 t = V c (Pipeline.arrRef spec1 2) := by
  funext y
  obtain ⟨-, -, -, -, -, -, e0, e1, -⟩ := idx1 t
  show V c (Pipeline.arrRef spec1 2) (((cfg1.win 2).blk t).view.emb y) = V c (Pipeline.arrRef spec1 2) y
  refine congrArg _ ?_
  funext a; apply Fin.ext
  match a with
  | ⟨0, _⟩ => show win1_2.index t (0 : Fin 2) * 1 + 1 * (y 0).val = (y 0).val; omega
  | ⟨1, _⟩ => show win1_2.index t (1 : Fin 2) * 256 + 1 * (y 1).val = (y 1).val; omega

/-- Operand 3's window is the whole array at every point. -/
theorem iblk1_3 (c : Dev nD) (t : Fin cfg1.N) : Gen.iblk1 V c 3 t = V c (Pipeline.arrRef spec1 3) := by
  funext y
  obtain ⟨-, -, -, -, -, -, -, -, e0, e1, -⟩ := idx1 t
  show V c (Pipeline.arrRef spec1 3) (((cfg1.win 3).blk t).view.emb y) = V c (Pipeline.arrRef spec1 3) y
  refine congrArg _ ?_
  funext a; apply Fin.ext
  match a with
  | ⟨0, _⟩ => show win1_3.index t (0 : Fin 2) * 256 + 1 * (y 0).val = (y 0).val; omega
  | ⟨1, _⟩ => show win1_3.index t (1 : Fin 2) * 256 + 1 * (y 1).val = (y 1).val; omega

/-- Operand 4's window is the whole array at every point. -/
theorem iblk1_4 (c : Dev nD) (t : Fin cfg1.N) : Gen.iblk1 V c 4 t = V c (Pipeline.arrRef spec1 4) := by
  funext y
  obtain ⟨-, -, -, -, -, -, -, -, -, -, e0, e1, -⟩ := idx1 t
  show V c (Pipeline.arrRef spec1 4) (((cfg1.win 4).blk t).view.emb y) = V c (Pipeline.arrRef spec1 4) y
  refine congrArg _ ?_
  funext a; apply Fin.ext
  match a with
  | ⟨0, _⟩ => show win1_4.index t (0 : Fin 2) * 1 + 1 * (y 0).val = (y 0).val; omega
  | ⟨1, _⟩ => show win1_4.index t (1 : Fin 2) * 256 + 1 * (y 1).val = (y 1).val; omega

/-- Operand 5's window is the whole array at every point. -/
theorem iblk1_5 (c : Dev nD) (t : Fin cfg1.N) : Gen.iblk1 V c 5 t = V c (Pipeline.arrRef spec1 5) := by
  funext y
  obtain ⟨-, -, -, -, -, -, -, -, -, -, -, -, e0, e1, -⟩ := idx1 t
  show V c (Pipeline.arrRef spec1 5) (((cfg1.win 5).blk t).view.emb y) = V c (Pipeline.arrRef spec1 5) y
  refine congrArg _ ?_
  funext a; apply Fin.ext
  match a with
  | ⟨0, _⟩ => show win1_5.index t (0 : Fin 2) * 1 + 1 * (y 0).val = (y 0).val; omega
  | ⟨1, _⟩ => show win1_5.index t (1 : Fin 2) * 256 + 1 * (y 1).val = (y 1).val; omega

/-- Operand 6's window is the whole array at every point. -/
theorem iblk1_6 (c : Dev nD) (t : Fin cfg1.N) : Gen.iblk1 V c 6 t = V c (Pipeline.arrRef spec1 6) := by
  funext y
  obtain ⟨-, -, -, -, -, -, -, -, -, -, -, -, -, -, e0, e1⟩ := idx1 t
  show V c (Pipeline.arrRef spec1 6) (((cfg1.win 6).blk t).view.emb y) = V c (Pipeline.arrRef spec1 6) y
  refine congrArg _ ?_
  funext a; apply Fin.ext
  match a with
  | ⟨0, _⟩ => show win1_6.index t (0 : Fin 2) * 1 + 1 * (y 0).val = (y 0).val; omega
  | ⟨1, _⟩ => show win1_6.index t (1 : Fin 2) * 256 + 1 * (y 1).val = (y 1).val; omega

/-- Writing back the whole staging buffer: the block is not cut. -/
theorem cut1 (t : Fin cfg1.N) (X : Vec F S2000x256 .f32) : (cfg1.win 7).cut (grid1.coords t) X = X := rfl

/-- Reading an array through point `t`'s block of the result window. -/
theorem read1 (t : Fin cfg1.N) (G : FVec F S50000x256 .f32) (j : S2000x256.Idx) :
    ((cfg1.win 7).blk t).view.read (Elt F) G j = G (((cfg1.win 7).blk t).view.emb j) := rfl

/-- What point `t` writes back is the block function of the operands' blocks at `t`: rows `2000·t …` of the node
    array, the other operands whole. -/
theorem flushed1_blocks (c : Dev nD) (t : Fin cfg1.N) :
    (Gen.dat1 V c).flushed 7 t
      = Gen.out1_7 (rows1 (V c (Pipeline.arrRef spec1 0)) ⟨t.val, Nat.lt_of_lt_of_eq t.isLt Gen.N_1⟩)
      (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) := by
  show (cfg1.win 7).cut (grid1.coords t) ((Gen.dat1 V c).after 7 t) = _
  rw [Gen.after1_7, iblk1_0, iblk1_1, iblk1_2, iblk1_3, iblk1_4, iblk1_5, iblk1_6]
  exact cut1 t _

/-- The block function of the operands' blocks at `t` is block `t` of `G1` of the operand arrays. -/
theorem blocks1_eq_read (c : Dev nD) (t : Fin cfg1.N) :
    Gen.out1_7 (rows1 (V c (Pipeline.arrRef spec1 0)) ⟨t.val, Nat.lt_of_lt_of_eq t.isLt Gen.N_1⟩)
      (V c (Pipeline.arrRef spec1 1)) (V c (Pipeline.arrRef spec1 2)) (V c (Pipeline.arrRef spec1 3)) (V c (Pipeline.arrRef spec1 4)) (V c (Pipeline.arrRef spec1 5)) (V c (Pipeline.arrRef spec1 6))
      = ((cfg1.win 7).blk t).view.read (Elt F)
        (G1 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6))) := by
  funext j
  rw [read1 t _ j]
  obtain ⟨-, -, e0, e1, -⟩ := idx1 t
  refine (G1_block _ _ _ _ _ _ _ ⟨t.val, Nat.lt_of_lt_of_eq t.isLt Gen.N_1⟩ (((cfg1.win 7).blk t).view.emb j) j ?_ ?_).symm
  · show win1_7.index t (0 : Fin 2) * 2000 + 1 * (j 0).val = 2000 * t.val + (j 0).val; omega
  · show win1_7.index t (1 : Fin 2) * 256 + 1 * (j 1).val = (j 1).val; omega

/-- What point `t` writes back is block `t` of `G1` of the operand arrays as the region finds them. -/
theorem flushed1 (c : Dev nD) (t : Fin cfg1.N) :
    (Gen.dat1 V c).flushed 7 t = ((cfg1.win 7).blk t).view.read (Elt F)
      (G1 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6))) :=
  (flushed1_blocks V c t).trans (blocks1_eq_read V c t)

/-- An index of the result array is in point `t`'s block iff each coordinate is in the block's range on its axis. -/
theorem mem_blk1 (t : Fin cfg1.N) (i : S50000x256.Idx) :
    i ∈ ((cfg1.win 7).blk t).view.set ↔ ∀ a : Fin 2, win1_7.index t a * S2000x256.size a ≤ (i a).val
      ∧ (i a).val < win1_7.index t a * S2000x256.size a + S2000x256.size a := by
  show i ∈ ((View.whole main_v51).slice (win1_7.rect t)).set ↔ _
  rw [View.set_slice_whole, Rect.mem_set_unit]
  exact Iff.rfl

/-- Every index of the result array is in some point's block: row `r` is in the block of point `r / 2000`. -/
theorem cover1 (i : S50000x256.Idx) :
    ∃ t : Fin cfg1.N, (cfg1.win 7).flush t = true ∧ i ∈ ((cfg1.win 7).blk t).view.set := by
  have hi0 : (i 0).val < 50000 := idx2_lt0 i
  have hi1 : (i 1).val < 256 := idx2_lt1 i
  obtain ⟨t, ht⟩ : ∃ t : Fin cfg1.N, t.val = (i 0).val / 2000 :=
    ⟨⟨(i 0).val / 2000, Nat.lt_of_lt_of_eq (by omega) Gen.N_1.symm⟩, rfl⟩
  obtain ⟨-, -, e0, e1, -⟩ := idx1 t
  refine ⟨t, Gen.flush1_7 t, ?_⟩
  rw [mem_blk1]
  intro a
  match a with
  | ⟨0, _⟩ => show win1_7.index t (0 : Fin 2) * 2000 ≤ (i 0).val ∧ (i 0).val < win1_7.index t (0 : Fin 2) * 2000 + 2000; omega
  | ⟨1, _⟩ => show win1_7.index t (1 : Fin 2) * 256 ≤ (i 1).val ∧ (i 1).val < win1_7.index t (1 : Fin 2) * 256 + 256; omega

/-- The result array after region 1 is `G1` of the operand arrays as the region finds them. -/
theorem final1 (c : Dev nD) :
    (Gen.dat1 V c).arrAt 7 cfg1.N
      = G1 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) :=
  (Gen.dat1 V c).arrAt_eq_of_cover 7 _ (fun t _ => flushed1 V c t) cover1

end Region

variable (m : (ℓ : Loc nD τ sig) → Buf (Elt F) ℓ) (ρ : Dev nD → PrngReg)

/-- In the run: the second region's result buffer, at the region's exit, is `G1` of its operand buffers at the
    region's entry. -/
theorem W4_out (c : Dev nD) :
    Gen.W4 m ρ c (Proc.devRef .tc main_v51)
      = G1 (Gen.W3 m ρ c (Proc.devRef .tc main_v34))
        (Gen.W3 m ρ c (Proc.devRef .tc main_v36))
        (Gen.W3 m ρ c (Proc.devRef .tc main_v47))
        (Gen.W3 m ρ c (Proc.devRef .tc main_v40))
        (Gen.W3 m ρ c (Proc.devRef .tc main_v48))
        (Gen.W3 m ρ c (Proc.devRef .tc main_v49))
        (Gen.W3 m ρ c (Proc.devRef .tc main_v50)) :=
  (Gen.W4_arr m ρ c 7).trans (final1 (Gen.V3 m ρ) c)

end Cert.KernelIdeal.Hand

end
-- ==== Proof.KBlocks2.lean ====
import proofs.«146653_j18459769438675_1_alg».proof.Proof.Gen.KernelIdeal.Frame
import Idealize.ShloMosaic.Lib.Pipeline.Value
import Idealize.ShloMosaic.Lib.ValueIdx

/-! # Region 2: from the blocks to the array

The third region runs over 25 grid points. Point `t` sees rows `2000·t … 2000·t + 1999` of the node array and all of
every other operand, and writes rows `2000·t … 2000·t + 1999` of the result. So the result array is one function of the
operand arrays: row `r` is computed by the block function from the block of rows containing `r`, read at row
`r mod 2000`. -/

set_option maxRecDepth 16384
-- reading a buffer's type off the program's signature is a long evaluation for the later buffers
set_option maxHeartbeats 1000000

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]

/-- Rows `2000·k … 2000·k + 1999` of an array of 50000 rows of 256. -/
def rows2 (x : FVec F S50000x256 .f32) (k : Fin 25) : FVec F S2000x256 .f32 :=
  fun y => x (ix2 (⟨2000 * k.val + (y 0).val, by have := idx2_lt0 y; have := k.isLt; omega⟩ : Fin 50000)
    (⟨(y 1).val, idx2_lt1 y⟩ : Fin 256))

/-- The result array of region 2 as a function of its operand arrays: at row `r`, the block function of the block of
    2000 rows containing `r` and of the other operands whole, read at row `r mod 2000`. -/
def G2 (x0 : FVec F S50000x256 .f32) (x1 : FVec F S256x256 .f32) (x2 : FVec F S1x256 .f32) (x3 : FVec F S256x256 .f32) (x4 x5 x6 : FVec F S1x256 .f32) : FVec F S50000x256 .f32 :=
  fun i => Gen.out2_7 (rows2 x0 ⟨(i 0).val / 2000, by have := idx2_lt0 i; omega⟩) x1 x2 x3 x4 x5 x6
    (ix2 (⟨(i 0).val % 2000, Nat.mod_lt _ (by decide)⟩ : Fin 2000) (⟨(i 1).val, idx2_lt1 i⟩ : Fin 256))

/-- `G2` at row `r`, column `q`. -/
theorem G2_apply (x0 : FVec F S50000x256 .f32) (x1 : FVec F S256x256 .f32) (x2 : FVec F S1x256 .f32) (x3 : FVec F S256x256 .f32) (x4 x5 x6 : FVec F S1x256 .f32) (r : Fin 50000) (q : Fin 256) :
    G2 x0 x1 x2 x3 x4 x5 x6 (ix2 r q)
      = Gen.out2_7 (fun y => x0 (ix2 (⟨2000 * (r.val / 2000) + (y 0).val, by have := idx2_lt0 y; have := r.isLt; omega⟩ : Fin 50000)
          (⟨(y 1).val, idx2_lt1 y⟩ : Fin 256))) x1 x2 x3 x4 x5 x6
        (ix2 (⟨r.val % 2000, Nat.mod_lt _ (by decide)⟩ : Fin 2000) q) := rfl

/-- `G2` at an index in block `k`: the block function of block `k`, at the index inside the block. -/
theorem G2_block (x0 : FVec F S50000x256 .f32) (x1 : FVec F S256x256 .f32) (x2 : FVec F S1x256 .f32) (x3 : FVec F S256x256 .f32) (x4 x5 x6 : FVec F S1x256 .f32) (k : Fin 25) (i : S50000x256.Idx) (j : S2000x256.Idx)
    (h0 : (i 0).val = 2000 * k.val + (j 0).val) (h1 : (i 1).val = (j 1).val) :
    G2 x0 x1 x2 x3 x4 x5 x6 i = Gen.out2_7 (rows2 x0 k) x1 x2 x3 x4 x5 x6 j := by
  have hj : (j 0).val < 2000 := idx2_lt0 j
  have hk : (i 0).val / 2000 = k.val := by omega
  have hm : (i 0).val % 2000 = (j 0).val := by omega
  unfold G2
  refine congr (congrArg (fun b => Gen.out2_7 (rows2 x0 b) x1 x2 x3 x4 x5 x6) (Fin.ext hk)) ?_
  funext a
  match a with
  | ⟨0, _⟩ => exact Fin.ext hm
  | ⟨1, _⟩ => exact Fin.ext h1

section Region
variable (V : (c : Dev nD) → (b : Ref sig .tc) → Buf (Elt F) ((c : Thread nD τ).loc b))

/-- The block indices over the grid: the node array's window and the result's window are at block `(t, 0)` at point
    `t`; every other window is always at block `(0, 0)`. -/
theorem idx2 : ∀ t : Fin cfg2.N,
    win2_0.index t (0 : Fin 2) = t.val ∧ win2_0.index t (1 : Fin 2) = 0
    ∧ win2_7.index t (0 : Fin 2) = t.val ∧ win2_7.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

/-- The node array's block at point `t` is its rows `2000·t … 2000·t + 1999`. -/
theorem iblk2_0 (c : Dev nD) (t : Fin cfg2.N) :
    Gen.iblk2 V c 0 t = rows2 (V c (Pipeline.arrRef spec2 0)) ⟨t.val, Nat.lt_of_lt_of_eq t.isLt Gen.N_2⟩ := by
  funext y
  obtain ⟨e0, e1, -⟩ := idx2 t
  show V c (Pipeline.arrRef spec2 0) (((cfg2.win 0).blk t).view.emb y) = V c (Pipeline.arrRef spec2 0) (ix2 _ _)
  refine congrArg _ ?_
  funext a; apply Fin.ext
  match a with
  | ⟨0, _⟩ => show win2_0.index t (0 : Fin 2) * 2000 + 1 * (y 0).val = 2000 * t.val + (y 0).val; omega
  | ⟨1, _⟩ => show win2_0.index t (1 : Fin 2) * 256 + 1 * (y 1).val = (y 1).val; omega

/-- Operand 1's window is the whole array at every point. -/
theorem iblk2_1 (c : Dev nD) (t : Fin cfg2.N) : Gen.iblk2 V c 1 t = V c (Pipeline.arrRef spec2 1) := by
  funext y
  obtain ⟨-, -, -, -, e0, e1, -⟩ := idx2 t
  show V c (Pipeline.arrRef spec2 1) (((cfg2.win 1).blk t).view.emb y) = V c (Pipeline.arrRef spec2 1) y
  refine congrArg _ ?_
  funext a; apply Fin.ext
  match a with
  | ⟨0, _⟩ => show win2_1.index t (0 : Fin 2) * 256 + 1 * (y 0).val = (y 0).val; omega
  | ⟨1, _⟩ => show win2_1.index t (1 : Fin 2) * 256 + 1 * (y 1).val = (y 1).val; omega

/-- Operand 2's window is the whole array at every point. -/
theorem iblk2_2 (c : Dev nD) (t : Fin cfg2.N) : Gen.iblk2 V c 2 t = V c (Pipeline.arrRef spec2 2) := by
  funext y
  obtain ⟨-, -, -, -, -, -, e0, e1, -⟩ := idx2 t
  show V c (Pipeline.arrRef spec2 2) (((cfg2.win 2).blk t).view.emb y) = V c (Pipeline.arrRef spec2 2) y
  refine congrArg _ ?_
  funext a; apply Fin.ext
  match a with
  | ⟨0, _⟩ => show win2_2.index t (0 : Fin 2) * 1 + 1 * (y 0).val = (y 0).val; omega
  | ⟨1, _⟩ => show win2_2.index t (1 : Fin 2) * 256 + 1 * (y 1).val = (y 1).val; omega

/-- Operand 3's window is the whole array at every point. -/
theorem iblk2_3 (c : Dev nD) (t : Fin cfg2.N) : Gen.iblk2 V c 3 t = V c (Pipeline.arrRef spec2 3) := by
  funext y
  obtain ⟨-, -, -, -, -, -, -, -, e0, e1, -⟩ := idx2 t
  show V c (Pipeline.arrRef spec2 3) (((cfg2.win 3).blk t).view.emb y) = V c (Pipeline.arrRef spec2 3) y
  refine congrArg _ ?_
  funext a; apply Fin.ext
  match a with
  | ⟨0, _⟩ => show win2_3.index t (0 : Fin 2) * 256 + 1 * (y 0).val = (y 0).val; omega
  | ⟨1, _⟩ => show win2_3.index t (1 : Fin 2) * 256 + 1 * (y 1).val = (y 1).val; omega

/-- Operand 4's window is the whole array at every point. -/
theorem iblk2_4 (c : Dev nD) (t : Fin cfg2.N) : Gen.iblk2 V c 4 t = V c (Pipeline.arrRef spec2 4) := by
  funext y
  obtain ⟨-, -, -, -, -, -, -, -, -, -, e0, e1, -⟩ := idx2 t
  show V c (Pipeline.arrRef spec2 4) (((cfg2.win 4).blk t).view.emb y) = V c (Pipeline.arrRef spec2 4) y
  refine congrArg _ ?_
  funext a; apply Fin.ext
  match a with
  | ⟨0, _⟩ => show win2_4.index t (0 : Fin 2) * 1 + 1 * (y 0).val = (y 0).val; omega
  | ⟨1, _⟩ => show win2_4.index t (1 : Fin 2) * 256 + 1 * (y 1).val = (y 1).val; omega

/-- Operand 5's window is the whole array at every point. -/
theorem iblk2_5 (c : Dev nD) (t : Fin cfg2.N) : Gen.iblk2 V c 5 t = V c (Pipeline.arrRef spec2 5) := by
  funext y
  obtain ⟨-, -, -, -, -, -, -, -, -, -, -, -, e0, e1, -⟩ := idx2 t
  show V c (Pipeline.arrRef spec2 5) (((cfg2.win 5).blk t).view.emb y) = V c (Pipeline.arrRef spec2 5) y
  refine congrArg _ ?_
  funext a; apply Fin.ext
  match a with
  | ⟨0, _⟩ => show win2_5.index t (0 : Fin 2) * 1 + 1 * (y 0).val = (y 0).val; omega
  | ⟨1, _⟩ => show win2_5.index t (1 : Fin 2) * 256 + 1 * (y 1).val = (y 1).val; omega

/-- Operand 6's window is the whole array at every point. -/
theorem iblk2_6 (c : Dev nD) (t : Fin cfg2.N) : Gen.iblk2 V c 6 t = V c (Pipeline.arrRef spec2 6) := by
  funext y
  obtain ⟨-, -, -, -, -, -, -, -, -, -, -, -, -, -, e0, e1⟩ := idx2 t
  show V c (Pipeline.arrRef spec2 6) (((cfg2.win 6).blk t).view.emb y) = V c (Pipeline.arrRef spec2 6) y
  refine congrArg _ ?_
  funext a; apply Fin.ext
  match a with
  | ⟨0, _⟩ => show win2_6.index t (0 : Fin 2) * 1 + 1 * (y 0).val = (y 0).val; omega
  | ⟨1, _⟩ => show win2_6.index t (1 : Fin 2) * 256 + 1 * (y 1).val = (y 1).val; omega

/-- Writing back the whole staging buffer: the block is not cut. -/
theorem cut2 (t : Fin cfg2.N) (X : Vec F S2000x256 .f32) : (cfg2.win 7).cut (grid2.coords t) X = X := rfl

/-- Reading an array through point `t`'s block of the result window. -/
theorem read2 (t : Fin cfg2.N) (G : FVec F S50000x256 .f32) (j : S2000x256.Idx) :
    ((cfg2.win 7).blk t).view.read (Elt F) G j = G (((cfg2.win 7).blk t).view.emb j) := rfl

/-- What point `t` writes back is the block function of the operands' blocks at `t`: rows `2000·t …` of the node
    array, the other operands whole. -/
theorem flushed2_blocks (c : Dev nD) (t : Fin cfg2.N) :
    (Gen.dat2 V c).flushed 7 t
      = Gen.out2_7 (rows2 (V c (Pipeline.arrRef spec2 0)) ⟨t.val, Nat.lt_of_lt_of_eq t.isLt Gen.N_2⟩)
      (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) := by
  show (cfg2.win 7).cut (grid2.coords t) ((Gen.dat2 V c).after 7 t) = _
  rw [Gen.after2_7, iblk2_0, iblk2_1, iblk2_2, iblk2_3, iblk2_4, iblk2_5, iblk2_6]
  exact cut2 t _

/-- The block function of the operands' blocks at `t` is block `t` of `G2` of the operand arrays. -/
theorem blocks2_eq_read (c : Dev nD) (t : Fin cfg2.N) :
    Gen.out2_7 (rows2 (V c (Pipeline.arrRef spec2 0)) ⟨t.val, Nat.lt_of_lt_of_eq t.isLt Gen.N_2⟩)
      (V c (Pipeline.arrRef spec2 1)) (V c (Pipeline.arrRef spec2 2)) (V c (Pipeline.arrRef spec2 3)) (V c (Pipeline.arrRef spec2 4)) (V c (Pipeline.arrRef spec2 5)) (V c (Pipeline.arrRef spec2 6))
      = ((cfg2.win 7).blk t).view.read (Elt F)
        (G2 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6))) := by
  funext j
  rw [read2 t _ j]
  obtain ⟨-, -, e0, e1, -⟩ := idx2 t
  refine (G2_block _ _ _ _ _ _ _ ⟨t.val, Nat.lt_of_lt_of_eq t.isLt Gen.N_2⟩ (((cfg2.win 7).blk t).view.emb j) j ?_ ?_).symm
  · show win2_7.index t (0 : Fin 2) * 2000 + 1 * (j 0).val = 2000 * t.val + (j 0).val; omega
  · show win2_7.index t (1 : Fin 2) * 256 + 1 * (j 1).val = (j 1).val; omega

/-- What point `t` writes back is block `t` of `G2` of the operand arrays as the region finds them. -/
theorem flushed2 (c : Dev nD) (t : Fin cfg2.N) :
    (Gen.dat2 V c).flushed 7 t = ((cfg2.win 7).blk t).view.read (Elt F)
      (G2 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6))) :=
  (flushed2_blocks V c t).trans (blocks2_eq_read V c t)

/-- An index of the result array is in point `t`'s block iff each coordinate is in the block's range on its axis. -/
theorem mem_blk2 (t : Fin cfg2.N) (i : S50000x256.Idx) :
    i ∈ ((cfg2.win 7).blk t).view.set ↔ ∀ a : Fin 2, win2_7.index t a * S2000x256.size a ≤ (i a).val
      ∧ (i a).val < win2_7.index t a * S2000x256.size a + S2000x256.size a := by
  show i ∈ ((View.whole main_v79).slice (win2_7.rect t)).set ↔ _
  rw [View.set_slice_whole, Rect.mem_set_unit]
  exact Iff.rfl

/-- Every index of the result array is in some point's block: row `r` is in the block of point `r / 2000`. -/
theorem cover2 (i : S50000x256.Idx) :
    ∃ t : Fin cfg2.N, (cfg2.win 7).flush t = true ∧ i ∈ ((cfg2.win 7).blk t).view.set := by
  have hi0 : (i 0).val < 50000 := idx2_lt0 i
  have hi1 : (i 1).val < 256 := idx2_lt1 i
  obtain ⟨t, ht⟩ : ∃ t : Fin cfg2.N, t.val = (i 0).val / 2000 :=
    ⟨⟨(i 0).val / 2000, Nat.lt_of_lt_of_eq (by omega) Gen.N_2.symm⟩, rfl⟩
  obtain ⟨-, -, e0, e1, -⟩ := idx2 t
  refine ⟨t, Gen.flush2_7 t, ?_⟩
  rw [mem_blk2]
  intro a
  match a with
  | ⟨0, _⟩ => show win2_7.index t (0 : Fin 2) * 2000 ≤ (i 0).val ∧ (i 0).val < win2_7.index t (0 : Fin 2) * 2000 + 2000; omega
  | ⟨1, _⟩ => show win2_7.index t (1 : Fin 2) * 256 ≤ (i 1).val ∧ (i 1).val < win2_7.index t (1 : Fin 2) * 256 + 256; omega

/-- The result array after region 2 is `G2` of the operand arrays as the region finds them. -/
theorem final2 (c : Dev nD) :
    (Gen.dat2 V c).arrAt 7 cfg2.N
      = G2 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) :=
  (Gen.dat2 V c).arrAt_eq_of_cover 7 _ (fun t _ => flushed2 V c t) cover2

end Region

variable (m : (ℓ : Loc nD τ sig) → Buf (Elt F) ℓ) (ρ : Dev nD → PrngReg)

/-- In the run: the third region's result buffer, at the region's exit, is `G2` of its operand buffers at the
    region's entry. -/
theorem W6_out (c : Dev nD) :
    Gen.W6 m ρ c (Proc.devRef .tc main_v79)
      = G2 (Gen.W5 m ρ c (Proc.devRef .tc main_v62))
        (Gen.W5 m ρ c (Proc.devRef .tc main_v64))
        (Gen.W5 m ρ c (Proc.devRef .tc main_v75))
        (Gen.W5 m ρ c (Proc.devRef .tc main_v68))
        (Gen.W5 m ρ c (Proc.devRef .tc main_v76))
        (Gen.W5 m ρ c (Proc.devRef .tc main_v77))
        (Gen.W5 m ρ c (Proc.devRef .tc main_v78)) :=
  (Gen.W6_arr m ρ c 7).trans (final2 (Gen.V5 m ρ) c)

end Cert.KernelIdeal.Hand

end
-- ==== Proof.KBlocks3.lean ====
import proofs.«146653_j18459769438675_1_alg».proof.Proof.Gen.KernelIdeal.Frame
import Idealize.ShloMosaic.Lib.Pipeline.Value
import Idealize.ShloMosaic.Lib.ValueIdx

/-! # Region 3: from the blocks to the array

The fourth region runs over 25 grid points. Point `t` sees rows `2000·t … 2000·t + 1999` of the node array and all of
every other operand, and writes rows `2000·t … 2000·t + 1999` of the result. So the result array is one function of the
operand arrays: row `r` is computed by the block function from the block of rows containing `r`, read at row
`r mod 2000`. -/

set_option maxRecDepth 16384
-- reading a buffer's type off the program's signature is a long evaluation for the later buffers
set_option maxHeartbeats 1000000

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]

/-- Rows `2000·k … 2000·k + 1999` of an array of 50000 rows of 256. -/
def rows3 (x : FVec F S50000x256 .f32) (k : Fin 25) : FVec F S2000x256 .f32 :=
  fun y => x (ix2 (⟨2000 * k.val + (y 0).val, by have := idx2_lt0 y; have := k.isLt; omega⟩ : Fin 50000)
    (⟨(y 1).val, idx2_lt1 y⟩ : Fin 256))

/-- The result array of region 3 as a function of its operand arrays: at row `r`, the block function of the block of
    2000 rows containing `r` and of the other operands whole, read at row `r mod 2000`. -/
def G3 (x0 : FVec F S50000x256 .f32) (x1 : FVec F S256x256 .f32) (x2 : FVec F S1x256 .f32) (x3 : FVec F S256x256 .f32) (x4 : FVec F S1x256 .f32) : FVec F S50000x256 .f32 :=
  fun i => Gen.out3_5 (rows3 x0 ⟨(i 0).val / 2000, by have := idx2_lt0 i; omega⟩) x1 x2 x3 x4
    (ix2 (⟨(i 0).val % 2000, Nat.mod_lt _ (by decide)⟩ : Fin 2000) (⟨(i 1).val, idx2_lt1 i⟩ : Fin 256))

/-- `G3` at row `r`, column `q`. -/
theorem G3_apply (x0 : FVec F S50000x256 .f32) (x1 : FVec F S256x256 .f32) (x2 : FVec F S1x256 .f32) (x3 : FVec F S256x256 .f32) (x4 : FVec F S1x256 .f32) (r : Fin 50000) (q : Fin 256) :
    G3 x0 x1 x2 x3 x4 (ix2 r q)
      = Gen.out3_5 (fun y => x0 (ix2 (⟨2000 * (r.val / 2000) + (y 0).val, by have := idx2_lt0 y; have := r.isLt; omega⟩ : Fin 50000)
          (⟨(y 1).val, idx2_lt1 y⟩ : Fin 256))) x1 x2 x3 x4
        (ix2 (⟨r.val % 2000, Nat.mod_lt _ (by decide)⟩ : Fin 2000) q) := rfl

/-- `G3` at an index in block `k`: the block function of block `k`, at the index inside the block. -/
theorem G3_block (x0 : FVec F S50000x256 .f32) (x1 : FVec F S256x256 .f32) (x2 : FVec F S1x256 .f32) (x3 : FVec F S256x256 .f32) (x4 : FVec F S1x256 .f32) (k : Fin 25) (i : S50000x256.Idx) (j : S2000x256.Idx)
    (h0 : (i 0).val = 2000 * k.val + (j 0).val) (h1 : (i 1).val = (j 1).val) :
    G3 x0 x1 x2 x3 x4 i = Gen.out3_5 (rows3 x0 k) x1 x2 x3 x4 j := by
  have hj : (j 0).val < 2000 := idx2_lt0 j
  have hk : (i 0).val / 2000 = k.val := by omega
  have hm : (i 0).val % 2000 = (j 0).val := by omega
  unfold G3
  refine congr (congrArg (fun b => Gen.out3_5 (rows3 x0 b) x1 x2 x3 x4) (Fin.ext hk)) ?_
  funext a
  match a with
  | ⟨0, _⟩ => exact Fin.ext hm
  | ⟨1, _⟩ => exact Fin.ext h1

section Region
variable (V : (c : Dev nD) → (b : Ref sig .tc) → Buf (Elt F) ((c : Thread nD τ).loc b))

/-- The block indices over the grid: the node array's window and the result's window are at block `(t, 0)` at point
    `t`; every other window is always at block `(0, 0)`. -/
theorem idx3 : ∀ t : Fin cfg3.N,
    win3_0.index t (0 : Fin 2) = t.val ∧ win3_0.index t (1 : Fin 2) = 0
    ∧ win3_5.index t (0 : Fin 2) = t.val ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- The node array's block at point `t` is its rows `2000·t … 2000·t + 1999`. -/
theorem iblk3_0 (c : Dev nD) (t : Fin cfg3.N) :
    Gen.iblk3 V c 0 t = rows3 (V c (Pipeline.arrRef spec3 0)) ⟨t.val, Nat.lt_of_lt_of_eq t.isLt Gen.N_3⟩ := by
  funext y
  obtain ⟨e0, e1, -⟩ := idx3 t
  show V c (Pipeline.arrRef spec3 0) (((cfg3.win 0).blk t).view.emb y) = V c (Pipeline.arrRef spec3 0) (ix2 _ _)
  refine congrArg _ ?_
  funext a; apply Fin.ext
  match a with
  | ⟨0, _⟩ => show win3_0.index t (0 : Fin 2) * 2000 + 1 * (y 0).val = 2000 * t.val + (y 0).val; omega
  | ⟨1, _⟩ => show win3_0.index t (1 : Fin 2) * 256 + 1 * (y 1).val = (y 1).val; omega

/-- Operand 1's window is the whole array at every point. -/
theorem iblk3_1 (c : Dev nD) (t : Fin cfg3.N) : Gen.iblk3 V c 1 t = V c (Pipeline.arrRef spec3 1) := by
  funext y
  obtain ⟨-, -, -, -, e0, e1, -⟩ := idx3 t
  show V c (Pipeline.arrRef spec3 1) (((cfg3.win 1).blk t).view.emb y) = V c (Pipeline.arrRef spec3 1) y
  refine congrArg _ ?_
  funext a; apply Fin.ext
  match a with
  | ⟨0, _⟩ => show win3_1.index t (0 : Fin 2) * 256 + 1 * (y 0).val = (y 0).val; omega
  | ⟨1, _⟩ => show win3_1.index t (1 : Fin 2) * 256 + 1 * (y 1).val = (y 1).val; omega

/-- Operand 2's window is the whole array at every point. -/
theorem iblk3_2 (c : Dev nD) (t : Fin cfg3.N) : Gen.iblk3 V c 2 t = V c (Pipeline.arrRef spec3 2) := by
  funext y
  obtain ⟨-, -, -, -, -, -, e0, e1, -⟩ := idx3 t
  show V c (Pipeline.arrRef spec3 2) (((cfg3.win 2).blk t).view.emb y) = V c (Pipeline.arrRef spec3 2) y
  refine congrArg _ ?_
  funext a; apply Fin.ext
  match a with
  | ⟨0, _⟩ => show win3_2.index t (0 : Fin 2) * 1 + 1 * (y 0).val = (y 0).val; omega
  | ⟨1, _⟩ => show win3_2.index t (1 : Fin 2) * 256 + 1 * (y 1).val = (y 1).val; omega

/-- Operand 3's window is the whole array at every point. -/
theorem iblk3_3 (c : Dev nD) (t : Fin cfg3.N) : Gen.iblk3 V c 3 t = V c (Pipeline.arrRef spec3 3) := by
  funext y
  obtain ⟨-, -, -, -, -, -, -, -, e0, e1, -⟩ := idx3 t
  show V c (Pipeline.arrRef spec3 3) (((cfg3.win 3).blk t).view.emb y) = V c (Pipeline.arrRef spec3 3) y
  refine congrArg _ ?_
  funext a; apply Fin.ext
  match a with
  | ⟨0, _⟩ => show win3_3.index t (0 : Fin 2) * 256 + 1 * (y 0).val = (y 0).val; omega
  | ⟨1, _⟩ => show win3_3.index t (1 : Fin 2) * 256 + 1 * (y 1).val = (y 1).val; omega

/-- Operand 4's window is the whole array at every point. -/
theorem iblk3_4 (c : Dev nD) (t : Fin cfg3.N) : Gen.iblk3 V c 4 t = V c (Pipeline.arrRef spec3 4) := by
  funext y
  obtain ⟨-, -, -, -, -, -, -, -, -, -, e0, e1⟩ := idx3 t
  show V c (Pipeline.arrRef spec3 4) (((cfg3.win 4).blk t).view.emb y) = V c (Pipeline.arrRef spec3 4) y
  refine congrArg _ ?_
  funext a; apply Fin.ext
  match a with
  | ⟨0, _⟩ => show win3_4.index t (0 : Fin 2) * 1 + 1 * (y 0).val = (y 0).val; omega
  | ⟨1, _⟩ => show win3_4.index t (1 : Fin 2) * 256 + 1 * (y 1).val = (y 1).val; omega

/-- Writing back the whole staging buffer: the block is not cut. -/
theorem cut3 (t : Fin cfg3.N) (X : Vec F S2000x256 .f32) : (cfg3.win 5).cut (grid3.coords t) X = X := rfl

/-- Reading an array through point `t`'s block of the result window. -/
theorem read3 (t : Fin cfg3.N) (G : FVec F S50000x256 .f32) (j : S2000x256.Idx) :
    ((cfg3.win 5).blk t).view.read (Elt F) G j = G (((cfg3.win 5).blk t).view.emb j) := rfl

/-- What point `t` writes back is the block function of the operands' blocks at `t`: rows `2000·t …` of the node
    array, the other operands whole. -/
theorem flushed3_blocks (c : Dev nD) (t : Fin cfg3.N) :
    (Gen.dat3 V c).flushed 5 t
      = Gen.out3_5 (rows3 (V c (Pipeline.arrRef spec3 0)) ⟨t.val, Nat.lt_of_lt_of_eq t.isLt Gen.N_3⟩)
      (V c (Pipeline.arrRef spec3 1)) (V c (Pipeline.arrRef spec3 2)) (V c (Pipeline.arrRef spec3 3)) (V c (Pipeline.arrRef spec3 4)) := by
  show (cfg3.win 5).cut (grid3.coords t) ((Gen.dat3 V c).after 5 t) = _
  rw [Gen.after3_5, iblk3_0, iblk3_1, iblk3_2, iblk3_3, iblk3_4]
  exact cut3 t _

/-- The block function of the operands' blocks at `t` is block `t` of `G3` of the operand arrays. -/
theorem blocks3_eq_read (c : Dev nD) (t : Fin cfg3.N) :
    Gen.out3_5 (rows3 (V c (Pipeline.arrRef spec3 0)) ⟨t.val, Nat.lt_of_lt_of_eq t.isLt Gen.N_3⟩)
      (V c (Pipeline.arrRef spec3 1)) (V c (Pipeline.arrRef spec3 2)) (V c (Pipeline.arrRef spec3 3)) (V c (Pipeline.arrRef spec3 4))
      = ((cfg3.win 5).blk t).view.read (Elt F)
        (G3 (V c (Pipeline.arrRef spec3 0)) (V c (Pipeline.arrRef spec3 1)) (V c (Pipeline.arrRef spec3 2)) (V c (Pipeline.arrRef spec3 3)) (V c (Pipeline.arrRef spec3 4))) := by
  funext j
  rw [read3 t _ j]
  obtain ⟨-, -, e0, e1, -⟩ := idx3 t
  refine (G3_block _ _ _ _ _ ⟨t.val, Nat.lt_of_lt_of_eq t.isLt Gen.N_3⟩ (((cfg3.win 5).blk t).view.emb j) j ?_ ?_).symm
  · show win3_5.index t (0 : Fin 2) * 2000 + 1 * (j 0).val = 2000 * t.val + (j 0).val; omega
  · show win3_5.index t (1 : Fin 2) * 256 + 1 * (j 1).val = (j 1).val; omega

/-- What point `t` writes back is block `t` of `G3` of the operand arrays as the region finds them. -/
theorem flushed3 (c : Dev nD) (t : Fin cfg3.N) :
    (Gen.dat3 V c).flushed 5 t = ((cfg3.win 5).blk t).view.read (Elt F)
      (G3 (V c (Pipeline.arrRef spec3 0)) (V c (Pipeline.arrRef spec3 1)) (V c (Pipeline.arrRef spec3 2)) (V c (Pipeline.arrRef spec3 3)) (V c (Pipeline.arrRef spec3 4))) :=
  (flushed3_blocks V c t).trans (blocks3_eq_read V c t)

/-- An index of the result array is in point `t`'s block iff each coordinate is in the block's range on its axis. -/
theorem mem_blk3 (t : Fin cfg3.N) (i : S50000x256.Idx) :
    i ∈ ((cfg3.win 5).blk t).view.set ↔ ∀ a : Fin 2, win3_5.index t a * S2000x256.size a ≤ (i a).val
      ∧ (i a).val < win3_5.index t a * S2000x256.size a + S2000x256.size a := by
  show i ∈ ((View.whole main_v101).slice (win3_5.rect t)).set ↔ _
  rw [View.set_slice_whole, Rect.mem_set_unit]
  exact Iff.rfl

/-- Every index of the result array is in some point's block: row `r` is in the block of point `r / 2000`. -/
theorem cover3 (i : S50000x256.Idx) :
    ∃ t : Fin cfg3.N, (cfg3.win 5).flush t = true ∧ i ∈ ((cfg3.win 5).blk t).view.set := by
  have hi0 : (i 0).val < 50000 := idx2_lt0 i
  have hi1 : (i 1).val < 256 := idx2_lt1 i
  obtain ⟨t, ht⟩ : ∃ t : Fin cfg3.N, t.val = (i 0).val / 2000 :=
    ⟨⟨(i 0).val / 2000, Nat.lt_of_lt_of_eq (by omega) Gen.N_3.symm⟩, rfl⟩
  obtain ⟨-, -, e0, e1, -⟩ := idx3 t
  refine ⟨t, Gen.flush3_5 t, ?_⟩
  rw [mem_blk3]
  intro a
  match a with
  | ⟨0, _⟩ => show win3_5.index t (0 : Fin 2) * 2000 ≤ (i 0).val ∧ (i 0).val < win3_5.index t (0 : Fin 2) * 2000 + 2000; omega
  | ⟨1, _⟩ => show win3_5.index t (1 : Fin 2) * 256 ≤ (i 1).val ∧ (i 1).val < win3_5.index t (1 : Fin 2) * 256 + 256; omega

/-- The result array after region 3 is `G3` of the operand arrays as the region finds them. -/
theorem final3 (c : Dev nD) :
    (Gen.dat3 V c).arrAt 5 cfg3.N
      = G3 (V c (Pipeline.arrRef spec3 0)) (V c (Pipeline.arrRef spec3 1)) (V c (Pipeline.arrRef spec3 2)) (V c (Pipeline.arrRef spec3 3)) (V c (Pipeline.arrRef spec3 4)) :=
  (Gen.dat3 V c).arrAt_eq_of_cover 5 _ (fun t _ => flushed3 V c t) cover3

end Region

variable (m : (ℓ : Loc nD τ sig) → Buf (Elt F) ℓ) (ρ : Dev nD → PrngReg)

/-- In the run: the fourth region's result buffer, at the region's exit, is `G3` of its operand buffers at the
    region's entry. -/
theorem W8_out (c : Dev nD) :
    Gen.W8 m ρ c (Proc.devRef .tc main_v101)
      = G3 (Gen.W7 m ρ c (Proc.devRef .tc main_v90))
        (Gen.W7 m ρ c (Proc.devRef .tc main_v92))
        (Gen.W7 m ρ c (Proc.devRef .tc main_v99))
        (Gen.W7 m ρ c (Proc.devRef .tc main_v96))
        (Gen.W7 m ρ c (Proc.devRef .tc main_v100)) :=
  (Gen.W8_arr m ρ c 5).trans (final3 (Gen.V7 m ρ) c)

end Cert.KernelIdeal.Hand

end
-- ==== Proof.KBlocks4.lean ====
import proofs.«146653_j18459769438675_1_alg».proof.Proof.Gen.KernelIdeal.Frame
import Idealize.ShloMosaic.Lib.Pipeline.Value
import Idealize.ShloMosaic.Lib.ValueIdx

/-! # Region 4: from the block to the array

The last region has a single grid point, which sees every operand whole and writes the whole result. So the result
array is the block function of the operand arrays. -/

set_option maxRecDepth 16384
-- reading a buffer's type off the program's signature is a long evaluation for the later buffers
set_option maxHeartbeats 1000000

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]

/-- The result array of region 4 as a function of its operand arrays: the block function of the operands whole. -/
def G4 (x0 : FVec F S256x256 .f32) (x1 : FVec F S256x128 .f32) (x2 : FVec F S1x128 .f32) (x3 : FVec F S128x1 .f32) (x4 : FVec F S1x1 .f32) : FVec F S256x1 .f32 :=
  Gen.out4_5 x0 x1 x2 x3 x4

theorem G4_eq (x0 : FVec F S256x256 .f32) (x1 : FVec F S256x128 .f32) (x2 : FVec F S1x128 .f32) (x3 : FVec F S128x1 .f32) (x4 : FVec F S1x1 .f32) : G4 x0 x1 x2 x3 x4 = Gen.out4_5 x0 x1 x2 x3 x4 := rfl

section Region
variable (V : (c : Dev nD) → (b : Ref sig .tc) → Buf (Elt F) ((c : Thread nD τ).loc b))

/-- The block indices at the grid's one point: every window is at block `(0, 0)`. -/
theorem idx4 : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

/-- Operand 0's window is the whole array. -/
theorem iblk4_0 (c : Dev nD) (t : Fin cfg4.N) : Gen.iblk4 V c 0 t = V c (Pipeline.arrRef spec4 0) := by
  funext y
  obtain ⟨e0, e1, -⟩ := idx4 t
  show V c (Pipeline.arrRef spec4 0) (((cfg4.win 0).blk t).view.emb y) = V c (Pipeline.arrRef spec4 0) y
  refine congrArg _ ?_
  funext a; apply Fin.ext
  match a with
  | ⟨0, _⟩ => show win4_0.index t (0 : Fin 2) * 256 + 1 * (y 0).val = (y 0).val; omega
  | ⟨1, _⟩ => show win4_0.index t (1 : Fin 2) * 256 + 1 * (y 1).val = (y 1).val; omega

/-- Operand 1's window is the whole array. -/
theorem iblk4_1 (c : Dev nD) (t : Fin cfg4.N) : Gen.iblk4 V c 1 t = V c (Pipeline.arrRef spec4 1) := by
  funext y
  obtain ⟨-, -, e0, e1, -⟩ := idx4 t
  show V c (Pipeline.arrRef spec4 1) (((cfg4.win 1).blk t).view.emb y) = V c (Pipeline.arrRef spec4 1) y
  refine congrArg _ ?_
  funext a; apply Fin.ext
  match a with
  | ⟨0, _⟩ => show win4_1.index t (0 : Fin 2) * 256 + 1 * (y 0).val = (y 0).val; omega
  | ⟨1, _⟩ => show win4_1.index t (1 : Fin 2) * 128 + 1 * (y 1).val = (y 1).val; omega

/-- Operand 2's window is the whole array. -/
theorem iblk4_2 (c : Dev nD) (t : Fin cfg4.N) : Gen.iblk4 V c 2 t = V c (Pipeline.arrRef spec4 2) := by
  funext y
  obtain ⟨-, -, -, -, e0, e1, -⟩ := idx4 t
  show V c (Pipeline.arrRef spec4 2) (((cfg4.win 2).blk t).view.emb y) = V c (Pipeline.arrRef spec4 2) y
  refine congrArg _ ?_
  funext a; apply Fin.ext
  match a with
  | ⟨0, _⟩ => show win4_2.index t (0 : Fin 2) * 1 + 1 * (y 0).val = (y 0).val; omega
  | ⟨1, _⟩ => show win4_2.index t (1 : Fin 2) * 128 + 1 * (y 1).val = (y 1).val; omega

/-- Operand 3's window is the whole array. -/
theorem iblk4_3 (c : Dev nD) (t : Fin cfg4.N) : Gen.iblk4 V c 3 t = V c (Pipeline.arrRef spec4 3) := by
  funext y
  obtain ⟨-, -, -, -, -, -, e0, e1, -⟩ := idx4 t
  show V c (Pipeline.arrRef spec4 3) (((cfg4.win 3).blk t).view.emb y) = V c (Pipeline.arrRef spec4 3) y
  refine congrArg _ ?_
  funext a; apply Fin.ext
  match a with
  | ⟨0, _⟩ => show win4_3.index t (0 : Fin 2) * 128 + 1 * (y 0).val = (y 0).val; omega
  | ⟨1, _⟩ => show win4_3.index t (1 : Fin 2) * 1 + 1 * (y 1).val = (y 1).val; omega

/-- Operand 4's window is the whole array. -/
theorem iblk4_4 (c : Dev nD) (t : Fin cfg4.N) : Gen.iblk4 V c 4 t = V c (Pipeline.arrRef spec4 4) := by
  funext y
  obtain ⟨-, -, -, -, -, -, -, -, e0, e1, -⟩ := idx4 t
  show V c (Pipeline.arrRef spec4 4) (((cfg4.win 4).blk t).view.emb y) = V c (Pipeline.arrRef spec4 4) y
  refine congrArg _ ?_
  funext a; apply Fin.ext
  match a with
  | ⟨0, _⟩ => show win4_4.index t (0 : Fin 2) * 1 + 1 * (y 0).val = (y 0).val; omega
  | ⟨1, _⟩ => show win4_4.index t (1 : Fin 2) * 1 + 1 * (y 1).val = (y 1).val; omega

/-- Writing back the whole staging buffer: the block is not cut. -/
theorem cut4 (t : Fin cfg4.N) (X : Vec F S256x1 .f32) : (cfg4.win 5).cut (grid4.coords t) X = X := rfl

/-- Reading an array through the point's block of the result window. -/
theorem read4 (t : Fin cfg4.N) (G : FVec F S256x1 .f32) (j : S256x1.Idx) :
    ((cfg4.win 5).blk t).view.read (Elt F) G j = G (((cfg4.win 5).blk t).view.emb j) := rfl

/-- What the point writes back is the block function of the operand arrays. -/
theorem flushed4_blocks (c : Dev nD) (t : Fin cfg4.N) :
    (Gen.dat4 V c).flushed 5 t = Gen.out4_5 (V c (Pipeline.arrRef spec4 0)) (V c (Pipeline.arrRef spec4 1)) (V c (Pipeline.arrRef spec4 2)) (V c (Pipeline.arrRef spec4 3)) (V c (Pipeline.arrRef spec4 4)) := by
  show (cfg4.win 5).cut (grid4.coords t) ((Gen.dat4 V c).after 5 t) = _
  rw [Gen.after4_5, iblk4_0, iblk4_1, iblk4_2, iblk4_3, iblk4_4]
  exact cut4 t _

/-- The result window's block at the point is the whole array. -/
theorem blocks4_eq_read (t : Fin cfg4.N) (G : FVec F S256x1 .f32) :
    G = ((cfg4.win 5).blk t).view.read (Elt F) G := by
  funext j
  rw [read4 t _ j]
  obtain ⟨-, -, -, -, -, -, -, -, -, -, e0, e1⟩ := idx4 t
  refine congrArg G ?_
  funext a; apply Fin.ext
  match a with
  | ⟨0, _⟩ => show (j 0).val = win4_5.index t (0 : Fin 2) * 256 + 1 * (j 0).val; omega
  | ⟨1, _⟩ => show (j 1).val = win4_5.index t (1 : Fin 2) * 1 + 1 * (j 1).val; omega

/-- What the point writes back is its block of `G4` of the operand arrays as the region finds them. -/
theorem flushed4 (c : Dev nD) (t : Fin cfg4.N) :
    (Gen.dat4 V c).flushed 5 t = ((cfg4.win 5).blk t).view.read (Elt F)
      (G4 (V c (Pipeline.arrRef spec4 0)) (V c (Pipeline.arrRef spec4 1)) (V c (Pipeline.arrRef spec4 2)) (V c (Pipeline.arrRef spec4 3)) (V c (Pipeline.arrRef spec4 4))) :=
  (flushed4_blocks V c t).trans (blocks4_eq_read t _)

/-- An index of the result array is in the point's block iff each coordinate is in the block's range on its axis. -/
theorem mem_blk4 (t : Fin cfg4.N) (i : S256x1.Idx) :
    i ∈ ((cfg4.win 5).blk t).view.set ↔ ∀ a : Fin 2, win4_5.index t a * S256x1.size a ≤ (i a).val
      ∧ (i a).val < win4_5.index t a * S256x1.size a + S256x1.size a := by
  show i ∈ ((View.whole main_v116).slice (win4_5.rect t)).set ↔ _
  rw [View.set_slice_whole, Rect.mem_set_unit]
  exact Iff.rfl

/-- Every index of the result array is in the one point's block. -/
theorem cover4 (i : S256x1.Idx) :
    ∃ t : Fin cfg4.N, (cfg4.win 5).flush t = true ∧ i ∈ ((cfg4.win 5).blk t).view.set := by
  have hi0 : (i 0).val < 256 := idx2_lt0 i
  have hi1 : (i 1).val < 1 := idx2_lt1 i
  obtain ⟨-, -, -, -, -, -, -, -, -, -, e0, e1⟩ := idx4 Gen.t4_0
  refine ⟨Gen.t4_0, Gen.flush4_5 _, ?_⟩
  rw [mem_blk4]
  intro a
  match a with
  | ⟨0, _⟩ => show win4_5.index Gen.t4_0 (0 : Fin 2) * 256 ≤ (i 0).val ∧ (i 0).val < win4_5.index Gen.t4_0 (0 : Fin 2) * 256 + 256; omega
  | ⟨1, _⟩ => show win4_5.index Gen.t4_0 (1 : Fin 2) * 1 ≤ (i 1).val ∧ (i 1).val < win4_5.index Gen.t4_0 (1 : Fin 2) * 1 + 1; omega

/-- The result array after region 4 is `G4` of the operand arrays as the region finds them. -/
theorem final4 (c : Dev nD) :
    (Gen.dat4 V c).arrAt 5 cfg4.N
      = G4 (V c (Pipeline.arrRef spec4 0)) (V c (Pipeline.arrRef spec4 1)) (V c (Pipeline.arrRef spec4 2)) (V c (Pipeline.arrRef spec4 3)) (V c (Pipeline.arrRef spec4 4)) :=
  (Gen.dat4 V c).arrAt_eq_of_cover 5 _ (fun t _ => flushed4 V c t) cover4

end Region

variable (m : (ℓ : Loc nD τ sig) → Buf (Elt F) ℓ) (ρ : Dev nD → PrngReg)

/-- In the run: the last region's result buffer, at the region's exit, is `G4` of its operand buffers at the region's
    entry. -/
theorem W10_out (c : Dev nD) :
    Gen.W10 m ρ c (Proc.devRef .tc main_v116)
      = G4 (Gen.W9 m ρ c (Proc.devRef .tc main_v113))
        (Gen.W9 m ρ c (Proc.devRef .tc main_arg13))
        (Gen.W9 m ρ c (Proc.devRef .tc main_v114))
        (Gen.W9 m ρ c (Proc.devRef .tc main_arg15))
        (Gen.W9 m ρ c (Proc.devRef .tc main_v115)) :=
  (Gen.W10_arr m ρ c 5).trans (final4 (Gen.V9 m ρ) c)

end Cert.KernelIdeal.Hand

end
-- ==== Proof.KChain.lean ====
/-
  The kernel program's result as one term of its seventeen arguments.

  The buffer contents at the boundaries between host stretches and launches are a fold from the launch memory. Reading
  that fold backwards from the result: the head's launch leaves its function of the pooled array and the head's
  parameters; the pooled array is the pooling of the fourth layer's output; each layer's launch leaves its function of
  the aggregation of the previous layer's output and of that layer's slices of the stacked parameters. The two index
  vectors are computed once, before the first launch, and the stacked parameters are never written: both are carried
  unchanged across every later stretch (which does not write them) and every launch (whose windows are other buffers).
-/
import proofs.«146653_j18459769438675_1_alg».proof.Proof.KHost
import proofs.«146653_j18459769438675_1_alg».proof.Proof.KBlocks0
import proofs.«146653_j18459769438675_1_alg».proof.Proof.KBlocks1
import proofs.«146653_j18459769438675_1_alg».proof.Proof.KBlocks2
import proofs.«146653_j18459769438675_1_alg».proof.Proof.KBlocks3
import proofs.«146653_j18459769438675_1_alg».proof.Proof.KBlocks4

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-! ## What is carried across the stretches and the launches -/

theorem W2_v1 : W2 m ρ c (main_v1 : DevRef τ sig) = srcIdx (m ((c.tc : Thread nD τ).loc main_arg1)) :=
  (W2_of_ne m ρ c main_v1 (by decide)).trans (h0_v1 (W0 m ρ c))
theorem W4_v1 : W4 m ρ c (main_v1 : DevRef τ sig) = srcIdx (m ((c.tc : Thread nD τ).loc main_arg1)) :=
  (W4_of_ne m ρ c main_v1 (by decide)).trans ((keep1_v1 (W2 m ρ c)).trans (W2_v1 m ρ c))
theorem W6_v1 : W6 m ρ c (main_v1 : DevRef τ sig) = srcIdx (m ((c.tc : Thread nD τ).loc main_arg1)) :=
  (W6_of_ne m ρ c main_v1 (by decide)).trans ((keep2_v1 (W4 m ρ c)).trans (W4_v1 m ρ c))
theorem W2_v3 : W2 m ρ c (main_v3 : DevRef τ sig) = dstIdx (m ((c.tc : Thread nD τ).loc main_arg1)) :=
  (W2_of_ne m ρ c main_v3 (by decide)).trans (h0_v3 (W0 m ρ c))
theorem W4_v3 : W4 m ρ c (main_v3 : DevRef τ sig) = dstIdx (m ((c.tc : Thread nD τ).loc main_arg1)) :=
  (W4_of_ne m ρ c main_v3 (by decide)).trans ((keep1_v3 (W2 m ρ c)).trans (W2_v3 m ρ c))
theorem W6_v3 : W6 m ρ c (main_v3 : DevRef τ sig) = dstIdx (m ((c.tc : Thread nD τ).loc main_arg1)) :=
  (W6_of_ne m ρ c main_v3 (by decide)).trans ((keep2_v3 (W4 m ρ c)).trans (W4_v3 m ρ c))
theorem W2_arg7 : W2 m ρ c (main_arg7 : DevRef τ sig) = (m ((c.tc : Thread nD τ).loc main_arg7)) :=
  (W2_of_ne m ρ c main_arg7 (by decide)).trans (keep0_arg7 (W0 m ρ c))
theorem W4_arg7 : W4 m ρ c (main_arg7 : DevRef τ sig) = (m ((c.tc : Thread nD τ).loc main_arg7)) :=
  (W4_of_ne m ρ c main_arg7 (by decide)).trans ((keep1_arg7 (W2 m ρ c)).trans (W2_arg7 m ρ c))
theorem W6_arg7 : W6 m ρ c (main_arg7 : DevRef τ sig) = (m ((c.tc : Thread nD τ).loc main_arg7)) :=
  (W6_of_ne m ρ c main_arg7 (by decide)).trans ((keep2_arg7 (W4 m ρ c)).trans (W4_arg7 m ρ c))
theorem W2_arg8 : W2 m ρ c (main_arg8 : DevRef τ sig) = (m ((c.tc : Thread nD τ).loc main_arg8)) :=
  (W2_of_ne m ρ c main_arg8 (by decide)).trans (keep0_arg8 (W0 m ρ c))
theorem W4_arg8 : W4 m ρ c (main_arg8 : DevRef τ sig) = (m ((c.tc : Thread nD τ).loc main_arg8)) :=
  (W4_of_ne m ρ c main_arg8 (by decide)).trans ((keep1_arg8 (W2 m ρ c)).trans (W2_arg8 m ρ c))
theorem W6_arg8 : W6 m ρ c (main_arg8 : DevRef τ sig) = (m ((c.tc : Thread nD τ).loc main_arg8)) :=
  (W6_of_ne m ρ c main_arg8 (by decide)).trans ((keep2_arg8 (W4 m ρ c)).trans (W4_arg8 m ρ c))
theorem W2_arg9 : W2 m ρ c (main_arg9 : DevRef τ sig) = (m ((c.tc : Thread nD τ).loc main_arg9)) :=
  (W2_of_ne m ρ c main_arg9 (by decide)).trans (keep0_arg9 (W0 m ρ c))
theorem W4_arg9 : W4 m ρ c (main_arg9 : DevRef τ sig) = (m ((c.tc : Thread nD τ).loc main_arg9)) :=
  (W4_of_ne m ρ c main_arg9 (by decide)).trans ((keep1_arg9 (W2 m ρ c)).trans (W2_arg9 m ρ c))
theorem W6_arg9 : W6 m ρ c (main_arg9 : DevRef τ sig) = (m ((c.tc : Thread nD τ).loc main_arg9)) :=
  (W6_of_ne m ρ c main_arg9 (by decide)).trans ((keep2_arg9 (W4 m ρ c)).trans (W4_arg9 m ρ c))
theorem W2_arg10 : W2 m ρ c (main_arg10 : DevRef τ sig) = (m ((c.tc : Thread nD τ).loc main_arg10)) :=
  (W2_of_ne m ρ c main_arg10 (by decide)).trans (keep0_arg10 (W0 m ρ c))
theorem W4_arg10 : W4 m ρ c (main_arg10 : DevRef τ sig) = (m ((c.tc : Thread nD τ).loc main_arg10)) :=
  (W4_of_ne m ρ c main_arg10 (by decide)).trans ((keep1_arg10 (W2 m ρ c)).trans (W2_arg10 m ρ c))
theorem W6_arg10 : W6 m ρ c (main_arg10 : DevRef τ sig) = (m ((c.tc : Thread nD τ).loc main_arg10)) :=
  (W6_of_ne m ρ c main_arg10 (by decide)).trans ((keep2_arg10 (W4 m ρ c)).trans (W4_arg10 m ρ c))
theorem W2_arg11 : W2 m ρ c (main_arg11 : DevRef τ sig) = (m ((c.tc : Thread nD τ).loc main_arg11)) :=
  (W2_of_ne m ρ c main_arg11 (by decide)).trans (keep0_arg11 (W0 m ρ c))
theorem W4_arg11 : W4 m ρ c (main_arg11 : DevRef τ sig) = (m ((c.tc : Thread nD τ).loc main_arg11)) :=
  (W4_of_ne m ρ c main_arg11 (by decide)).trans ((keep1_arg11 (W2 m ρ c)).trans (W2_arg11 m ρ c))
theorem W2_arg12 : W2 m ρ c (main_arg12 : DevRef τ sig) = (m ((c.tc : Thread nD τ).loc main_arg12)) :=
  (W2_of_ne m ρ c main_arg12 (by decide)).trans (keep0_arg12 (W0 m ρ c))
theorem W4_arg12 : W4 m ρ c (main_arg12 : DevRef τ sig) = (m ((c.tc : Thread nD τ).loc main_arg12)) :=
  (W4_of_ne m ρ c main_arg12 (by decide)).trans ((keep1_arg12 (W2 m ρ c)).trans (W2_arg12 m ρ c))
theorem W2_arg2 : W2 m ρ c (main_arg2 : DevRef τ sig) = (m ((c.tc : Thread nD τ).loc main_arg2)) :=
  (W2_of_ne m ρ c main_arg2 (by decide)).trans (keep0_arg2 (W0 m ρ c))
theorem W4_arg2 : W4 m ρ c (main_arg2 : DevRef τ sig) = (m ((c.tc : Thread nD τ).loc main_arg2)) :=
  (W4_of_ne m ρ c main_arg2 (by decide)).trans ((keep1_arg2 (W2 m ρ c)).trans (W2_arg2 m ρ c))
theorem W6_arg2 : W6 m ρ c (main_arg2 : DevRef τ sig) = (m ((c.tc : Thread nD τ).loc main_arg2)) :=
  (W6_of_ne m ρ c main_arg2 (by decide)).trans ((keep2_arg2 (W4 m ρ c)).trans (W4_arg2 m ρ c))
theorem W8_arg2 : W8 m ρ c (main_arg2 : DevRef τ sig) = (m ((c.tc : Thread nD τ).loc main_arg2)) :=
  (W8_of_ne m ρ c main_arg2 (by decide)).trans ((keep3_arg2 (W6 m ρ c)).trans (W6_arg2 m ρ c))
theorem W2_arg13 : W2 m ρ c (main_arg13 : DevRef τ sig) = (m ((c.tc : Thread nD τ).loc main_arg13)) :=
  (W2_of_ne m ρ c main_arg13 (by decide)).trans (keep0_arg13 (W0 m ρ c))
theorem W4_arg13 : W4 m ρ c (main_arg13 : DevRef τ sig) = (m ((c.tc : Thread nD τ).loc main_arg13)) :=
  (W4_of_ne m ρ c main_arg13 (by decide)).trans ((keep1_arg13 (W2 m ρ c)).trans (W2_arg13 m ρ c))
theorem W6_arg13 : W6 m ρ c (main_arg13 : DevRef τ sig) = (m ((c.tc : Thread nD τ).loc main_arg13)) :=
  (W6_of_ne m ρ c main_arg13 (by decide)).trans ((keep2_arg13 (W4 m ρ c)).trans (W4_arg13 m ρ c))
theorem W8_arg13 : W8 m ρ c (main_arg13 : DevRef τ sig) = (m ((c.tc : Thread nD τ).loc main_arg13)) :=
  (W8_of_ne m ρ c main_arg13 (by decide)).trans ((keep3_arg13 (W6 m ρ c)).trans (W6_arg13 m ρ c))
theorem W2_arg14 : W2 m ρ c (main_arg14 : DevRef τ sig) = (m ((c.tc : Thread nD τ).loc main_arg14)) :=
  (W2_of_ne m ρ c main_arg14 (by decide)).trans (keep0_arg14 (W0 m ρ c))
theorem W4_arg14 : W4 m ρ c (main_arg14 : DevRef τ sig) = (m ((c.tc : Thread nD τ).loc main_arg14)) :=
  (W4_of_ne m ρ c main_arg14 (by decide)).trans ((keep1_arg14 (W2 m ρ c)).trans (W2_arg14 m ρ c))
theorem W6_arg14 : W6 m ρ c (main_arg14 : DevRef τ sig) = (m ((c.tc : Thread nD τ).loc main_arg14)) :=
  (W6_of_ne m ρ c main_arg14 (by decide)).trans ((keep2_arg14 (W4 m ρ c)).trans (W4_arg14 m ρ c))
theorem W8_arg14 : W8 m ρ c (main_arg14 : DevRef τ sig) = (m ((c.tc : Thread nD τ).loc main_arg14)) :=
  (W8_of_ne m ρ c main_arg14 (by decide)).trans ((keep3_arg14 (W6 m ρ c)).trans (W6_arg14 m ρ c))
theorem W2_arg15 : W2 m ρ c (main_arg15 : DevRef τ sig) = (m ((c.tc : Thread nD τ).loc main_arg15)) :=
  (W2_of_ne m ρ c main_arg15 (by decide)).trans (keep0_arg15 (W0 m ρ c))
theorem W4_arg15 : W4 m ρ c (main_arg15 : DevRef τ sig) = (m ((c.tc : Thread nD τ).loc main_arg15)) :=
  (W4_of_ne m ρ c main_arg15 (by decide)).trans ((keep1_arg15 (W2 m ρ c)).trans (W2_arg15 m ρ c))
theorem W6_arg15 : W6 m ρ c (main_arg15 : DevRef τ sig) = (m ((c.tc : Thread nD τ).loc main_arg15)) :=
  (W6_of_ne m ρ c main_arg15 (by decide)).trans ((keep2_arg15 (W4 m ρ c)).trans (W4_arg15 m ρ c))
theorem W8_arg15 : W8 m ρ c (main_arg15 : DevRef τ sig) = (m ((c.tc : Thread nD τ).loc main_arg15)) :=
  (W8_of_ne m ρ c main_arg15 (by decide)).trans ((keep3_arg15 (W6 m ρ c)).trans (W6_arg15 m ρ c))
theorem W2_arg16 : W2 m ρ c (main_arg16 : DevRef τ sig) = (m ((c.tc : Thread nD τ).loc main_arg16)) :=
  (W2_of_ne m ρ c main_arg16 (by decide)).trans (keep0_arg16 (W0 m ρ c))
theorem W4_arg16 : W4 m ρ c (main_arg16 : DevRef τ sig) = (m ((c.tc : Thread nD τ).loc main_arg16)) :=
  (W4_of_ne m ρ c main_arg16 (by decide)).trans ((keep1_arg16 (W2 m ρ c)).trans (W2_arg16 m ρ c))
theorem W6_arg16 : W6 m ρ c (main_arg16 : DevRef τ sig) = (m ((c.tc : Thread nD τ).loc main_arg16)) :=
  (W6_of_ne m ρ c main_arg16 (by decide)).trans ((keep2_arg16 (W4 m ρ c)).trans (W4_arg16 m ρ c))
theorem W8_arg16 : W8 m ρ c (main_arg16 : DevRef τ sig) = (m ((c.tc : Thread nD τ).loc main_arg16)) :=
  (W8_of_ne m ρ c main_arg16 (by decide)).trans ((keep3_arg16 (W6 m ρ c)).trans (W6_arg16 m ρ c))

/-! ## The layers' outputs and the result -/

/-- The first layer's output: the launch's function of the aggregated input features and the first layer's parameters. -/
def out1 (a0 : Arr F S50000x128 .f32) (a1 : Arr F S2x800000 .i32) (a3 : Arr F S128x256 .f32) (a4 : Arr F S256 .f32) (a5 : Arr F S256x256 .f32)
    (a6 : Arr F S256 .f32) (a11 a12 : Arr F S3x256 .f32) : Arr F S50000x256 .f32 :=
  G0 (agg128 a0 (srcIdx a1) (dstIdx a1)) a3 (asRow a4) a5 (asRow a6) (asRow (vrow0 a11)) (asRow (vrow0 a12))
/-- A middle layer's output from the previous layer's, with the weights and biases at row 0 and the layer norm at row 1. -/
def out2 (x : Arr F S50000x256 .f32) (a1 : Arr F S2x800000 .i32) (a7 : Arr F S3x256x256 .f32) (a8 : Arr F S3x256 .f32) (a9 : Arr F S3x256x256 .f32)
    (a10 a11 a12 : Arr F S3x256 .f32) : Arr F S50000x256 .f32 :=
  G1 (agg256 x (srcIdx a1) (dstIdx a1)) (mrow0 a7) (asRow (vrow0 a8)) (mrow0 a9) (asRow (vrow0 a10)) (asRow (vrow1 a11)) (asRow (vrow1 a12))
/-- The next one: the weights and biases at row 1, the layer norm at row 2. -/
def out3 (x : Arr F S50000x256 .f32) (a1 : Arr F S2x800000 .i32) (a7 : Arr F S3x256x256 .f32) (a8 : Arr F S3x256 .f32) (a9 : Arr F S3x256x256 .f32)
    (a10 a11 a12 : Arr F S3x256 .f32) : Arr F S50000x256 .f32 :=
  G2 (agg256 x (srcIdx a1) (dstIdx a1)) (mrow1 a7) (asRow (vrow1 a8)) (mrow1 a9) (asRow (vrow1 a10)) (asRow (vrow2 a11)) (asRow (vrow2 a12))
/-- The last layer: the weights and biases at row 2, no layer norm. -/
def out4 (x : Arr F S50000x256 .f32) (a1 : Arr F S2x800000 .i32) (a7 : Arr F S3x256x256 .f32) (a8 : Arr F S3x256 .f32) (a9 : Arr F S3x256x256 .f32)
    (a10 : Arr F S3x256 .f32) : Arr F S50000x256 .f32 :=
  G3 (agg256 x (srcIdx a1) (dstIdx a1)) (mrow2 a7) (asRow (vrow2 a8)) (mrow2 a9) (asRow (vrow2 a10))
/-- The kernel program's result as one term of its arguments. -/
def kresult (a0 : Arr F S50000x128 .f32) (a1 : Arr F S2x800000 .i32) (a2 : Arr F S50000 .i32) (a3 : Arr F S128x256 .f32) (a4 : Arr F S256 .f32)
    (a5 : Arr F S256x256 .f32) (a6 : Arr F S256 .f32) (a7 : Arr F S3x256x256 .f32) (a8 : Arr F S3x256 .f32) (a9 : Arr F S3x256x256 .f32)
    (a10 a11 a12 : Arr F S3x256 .f32) (a13 : Arr F S256x128 .f32) (a14 : Arr F S128 .f32) (a15 : Arr F S128x1 .f32) (a16 : Arr F S1 .f32) : Arr F S256x1 .f32 :=
  G4 (pool (out4 (out3 (out2 (out1 a0 a1 a3 a4 a5 a6 a11 a12) a1 a7 a8 a9 a10 a11 a12) a1 a7 a8 a9 a10 a11 a12) a1 a7 a8 a9 a10) a2)
    a13 (shapeCast S1x128 a14 shapeCasts_S128_S1x128) a15 (shapeCast S1x1 a16 shapeCasts_S1_S1x1)

theorem W2_v23 : W2 m ρ c (main_v23 : DevRef τ sig)
    = out1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg11)) (m ((c.tc : Thread nD τ).loc main_arg12)) := by
  rw [W2_out]
  show G0 (after hostOps0 (W0 m ρ c) (main_v14 : DevRef τ sig)) (after hostOps0 (W0 m ρ c) (main_arg3 : DevRef τ sig)) (after hostOps0 (W0 m ρ c) (main_v19 : DevRef τ sig))
    (after hostOps0 (W0 m ρ c) (main_arg5 : DevRef τ sig)) (after hostOps0 (W0 m ρ c) (main_v20 : DevRef τ sig)) (after hostOps0 (W0 m ρ c) (main_v21 : DevRef τ sig))
    (after hostOps0 (W0 m ρ c) (main_v22 : DevRef τ sig)) = _
  rw [h0_v14, keep0_arg3, h0_v19, keep0_arg5, h0_v20, h0_v21, h0_v22]
  rfl

theorem W4_v51 : W4 m ρ c (main_v51 : DevRef τ sig)
    = out2 (W2 m ρ c (main_v23 : DevRef τ sig)) (m ((c.tc : Thread nD τ).loc main_arg1)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  rw [W4_out]
  show G1 (after hostOps1 (W2 m ρ c) (main_v34 : DevRef τ sig)) (after hostOps1 (W2 m ρ c) (main_v36 : DevRef τ sig)) (after hostOps1 (W2 m ρ c) (main_v47 : DevRef τ sig))
    (after hostOps1 (W2 m ρ c) (main_v40 : DevRef τ sig)) (after hostOps1 (W2 m ρ c) (main_v48 : DevRef τ sig)) (after hostOps1 (W2 m ρ c) (main_v49 : DevRef τ sig))
    (after hostOps1 (W2 m ρ c) (main_v50 : DevRef τ sig)) = _
  rw [h1_v34, h1_v36, h1_v47, h1_v40, h1_v48, h1_v49, h1_v50, W2_v1, W2_v3, W2_arg7, W2_arg8, W2_arg9, W2_arg10, W2_arg11, W2_arg12]
  rfl

theorem W6_v79 : W6 m ρ c (main_v79 : DevRef τ sig)
    = out3 (W4 m ρ c (main_v51 : DevRef τ sig)) (m ((c.tc : Thread nD τ).loc main_arg1)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  rw [W6_out]
  show G2 (after hostOps2 (W4 m ρ c) (main_v62 : DevRef τ sig)) (after hostOps2 (W4 m ρ c) (main_v64 : DevRef τ sig)) (after hostOps2 (W4 m ρ c) (main_v75 : DevRef τ sig))
    (after hostOps2 (W4 m ρ c) (main_v68 : DevRef τ sig)) (after hostOps2 (W4 m ρ c) (main_v76 : DevRef τ sig)) (after hostOps2 (W4 m ρ c) (main_v77 : DevRef τ sig))
    (after hostOps2 (W4 m ρ c) (main_v78 : DevRef τ sig)) = _
  rw [h2_v62, h2_v64, h2_v75, h2_v68, h2_v76, h2_v77, h2_v78, W4_v1, W4_v3, W4_arg7, W4_arg8, W4_arg9, W4_arg10, W4_arg11, W4_arg12]
  rfl

theorem W8_v101 : W8 m ρ c (main_v101 : DevRef τ sig)
    = out4 (W6 m ρ c (main_v79 : DevRef τ sig)) (m ((c.tc : Thread nD τ).loc main_arg1)) (m ((c.tc : Thread nD τ).loc main_arg7)) (m ((c.tc : Thread nD τ).loc main_arg8)) (m ((c.tc : Thread nD τ).loc main_arg9)) (m ((c.tc : Thread nD τ).loc main_arg10)) := by
  rw [W8_out]
  show G3 (after hostOps3 (W6 m ρ c) (main_v90 : DevRef τ sig)) (after hostOps3 (W6 m ρ c) (main_v92 : DevRef τ sig)) (after hostOps3 (W6 m ρ c) (main_v99 : DevRef τ sig))
    (after hostOps3 (W6 m ρ c) (main_v96 : DevRef τ sig)) (after hostOps3 (W6 m ρ c) (main_v100 : DevRef τ sig)) = _
  rw [h3_v90, h3_v92, h3_v99, h3_v96, h3_v100, W6_v1, W6_v3, W6_arg7, W6_arg8, W6_arg9, W6_arg10]
  rfl

/-- The result buffer after the run is the kernel program's term of the launch contents of the arguments. -/
theorem W10_v116 : W10 m ρ c (main_v116 : DevRef τ sig)
    = kresult (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  rw [W10_out]
  show G4 (after hostOps4 (W8 m ρ c) (main_v113 : DevRef τ sig)) (after hostOps4 (W8 m ρ c) (main_arg13 : DevRef τ sig)) (after hostOps4 (W8 m ρ c) (main_v114 : DevRef τ sig))
    (after hostOps4 (W8 m ρ c) (main_arg15 : DevRef τ sig)) (after hostOps4 (W8 m ρ c) (main_v115 : DevRef τ sig)) = _
  rw [h4_v113, keep4_arg13, h4_v114, keep4_arg15, h4_v115, W8_arg2, W8_arg13, W8_arg14, W8_arg15, W8_arg16,
    W8_v101, W6_v79, W4_v51, W2_v23]
  rfl

end Cert.KernelIdeal.Hand

end
-- ==== Proof.RefOps.lean ====
import proofs.«146653_j18459769438675_1_alg».proof.Proof.Gen.ReferenceIdeal
import Idealize.ShloMosaic.Lib.StableHlo.Run

/-!
# The reference program as a list of operations, and as one term

The reference's `@main` is a straight line of host operations; twelve of its lines call a
module-local function (the rectifier, at two shapes; the variance, which itself calls the
selection `_where`). Here the line is written out as a list, every call's body in place of the call, cut at
the layer boundaries; and each layer's result is written as a plain term of the layer's inputs:
the same pure functions, applied in the same order, with the intermediate buffers forgotten.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The stage terms -/

/-- Row 0 of the edge table: the source node of every edge. -/
def srcIdx (ei : (⟨S2x800000, .i32⟩ : BufTy).Contents (Elt F)) : (⟨S800000, .i32⟩ : BufTy).Contents (Elt F) :=
  fun i => shapeCast S800000 (extractStridedSlice S1x800000 ![0, 0] ei slices_S2x800000_S1x800000_0_0) shapeCasts_S1x800000_S800000 i

/-- Row 1 of the edge table: the target node of every edge. -/
def dstIdx (ei : (⟨S2x800000, .i32⟩ : BufTy).Contents (Elt F)) : (⟨S800000, .i32⟩ : BufTy).Contents (Elt F) :=
  fun i => shapeCast S800000 (extractStridedSlice S1x800000 ![1, 0] ei slices_S2x800000_S1x800000_1_0) shapeCasts_S1x800000_S800000 i

/-- The gather's index column: a negative node index is shifted up by the node count (an index
    counted from the end), any other is kept; then one column of indices. -/
def normIdx (s : (⟨S800000, .i32⟩ : BufTy).Contents (Elt F)) : (⟨S800000x1, .i32⟩ : BufTy).Contents (Elt F) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- Sum aggregation over the edges at width 128: each node's row plus the rows of the sources of
    the edges that end at it (gather the source rows, scatter-add them at the targets into zeros,
    add the node's own row). -/
def agg128 (x : (⟨S50000x128, .f32⟩ : BufTy).Contents (Elt F)) (s d : (⟨S800000, .i32⟩ : BufTy).Contents (Elt F)) : (⟨S50000x128, .f32⟩ : BufTy).Contents (Elt F) :=
  addf x
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 d)
      (Host.gather gather_S50000x128_S800000x1_S800000x128_1_0_n_n_0_1_1128 x (normIdx s)))

/-- The same aggregation at width 256. -/
def agg256 (x : (⟨S50000x256, .f32⟩ : BufTy).Contents (Elt F)) (s d : (⟨S800000, .i32⟩ : BufTy).Contents (Elt F)) : (⟨S50000x256, .f32⟩ : BufTy).Contents (Elt F) :=
  addf x
    (Host.scatterAdd scatter_S50000x256_S800000x1_S800000x256_1_0_0_1
      (broadcastInDim S50000x256 ![] bcast_S_S50000x256 (constant S_ .f32 0x00000000#32))
      (broadcastInDim S800000x1 ![0] bcast_S800000_S800000x1_0 d)
      (Host.gather gather_S50000x256_S800000x1_S800000x256_1_0_n_n_0_1_1256 x (normIdx s)))

/-- A bias vector as a full array: one row, then every row. -/
def biasRows (b : (⟨S256, .f32⟩ : BufTy).Contents (Elt F)) : (⟨S50000x256, .f32⟩ : BufTy).Contents (Elt F) :=
  broadcastInDim S50000x256 ![0, 1] bcast_S1x256_S50000x256_0_1 (broadcastInDim S1x256 ![1] bcast_S256_S1x256_1 b)

/-- The dense layer from width 128: the product with the weights plus the bias on every row. -/
def dense128 (a : (⟨S50000x128, .f32⟩ : BufTy).Contents (Elt F)) (w : (⟨S128x256, .f32⟩ : BufTy).Contents (Elt F)) (b : (⟨S256, .f32⟩ : BufTy).Contents (Elt F)) : (⟨S50000x256, .f32⟩ : BufTy).Contents (Elt F) :=
  addf (Host.dotGeneral dot_S50000x128_S128x256_S50000x256_1_0_0_1_n_n none a w) (biasRows b)

/-- The dense layer at width 256. -/
def dense256 (a : (⟨S50000x256, .f32⟩ : BufTy).Contents (Elt F)) (w : (⟨S256x256, .f32⟩ : BufTy).Contents (Elt F)) (b : (⟨S256, .f32⟩ : BufTy).Contents (Elt F)) : (⟨S50000x256, .f32⟩ : BufTy).Contents (Elt F) :=
  addf (Host.dotGeneral dot_S50000x256_S256x256_S50000x256_1_0_0_1_n_n none a w) (biasRows b)

/-- The rectifier: the maximum with zero, entry by entry. -/
def relu (x : (⟨S50000x256, .f32⟩ : BufTy).Contents (Elt F)) : (⟨S50000x256, .f32⟩ : BufTy).Contents (Elt F) :=
  maximumf x (broadcastInDim S50000x256 ![] bcast_S_S50000x256 (constant S_ .f32 0x00000000#32))

/-- The mean of each row, as a column: the row's sum over 256. -/
def rowMean (x : (⟨S50000x256, .f32⟩ : BufTy).Contents (Elt F)) : (⟨S50000x1, .f32⟩ : BufTy).Contents (Elt F) :=
  Host.divf
    (broadcastInDim S50000x1 ![0] bcast_S50000_S50000x1_0
      (Host.reduceAdd x (constant S_ .f32 0x00000000#32) reducesTo_S50000x256_S50000_d1 h_S_))
    (broadcastInDim S50000x1 ![] bcast_S_S50000x1 (constant S_ .f32 0x43800000#32))

/-- Each entry's deviation from its row's mean. -/
def centered (x : (⟨S50000x256, .f32⟩ : BufTy).Contents (Elt F)) : (⟨S50000x256, .f32⟩ : BufTy).Contents (Elt F) :=
  subf x (broadcastInDim S50000x256 ![0, 1] bcast_S50000x1_S50000x256_0_1 (rowMean x))

/-- The variance's divisor: `256 - ddof`, as a float. -/
def dofs (ddof : (⟨S_, .i32⟩ : BufTy).Contents (Elt F)) : (⟨S_, .f32⟩ : BufTy).Contents (Elt F) :=
  subf (constant S_ .f32 0x43800000#32) (sitofp .f32 ddof)

/-- The variance of each row, as a column, with `ddof` degrees of freedom removed: the sum of
    the squared deviations from the row's mean over `256 - ddof`, and a not-a-number where that
    divisor is not positive. -/
def rowVar (x : (⟨S50000x256, .f32⟩ : BufTy).Contents (Elt F)) (ddof : (⟨S_, .i32⟩ : BufTy).Contents (Elt F)) : (⟨S50000x1, .f32⟩ : BufTy).Contents (Elt F) :=
  select
    (broadcastInDim S50000x1 ![] bcast_S_S50000x1
      (cmpf .ogt (dofs ddof) (constant S_ .f32 0x00000000#32 : (⟨S_, .f32⟩ : BufTy).Contents (Elt F))))
    (Host.divf
      (broadcastInDim S50000x1 ![0] bcast_S50000_S50000x1_0
        (Host.reduceAdd (mulf (centered x) (centered x))
          (constant S_ .f32 0x00000000#32) reducesTo_S50000x256_S50000_d1 h_S_))
      (broadcastInDim S50000x1 ![] bcast_S_S50000x1 (dofs ddof)))
    (broadcastInDim S50000x1 ![] bcast_S_S50000x1 (id (constant S_ .f32 0x7FC00000#32)))

/-- Layer normalisation of each row with scale `g` and shift `be`: the deviation from the row's
    mean times the reciprocal square root of the row's variance plus `1e-5`, times `g`, plus `be`. -/
def layerNorm (x : (⟨S50000x256, .f32⟩ : BufTy).Contents (Elt F)) (g be : (⟨S256, .f32⟩ : BufTy).Contents (Elt F)) : (⟨S50000x256, .f32⟩ : BufTy).Contents (Elt F) :=
  addf
    (mulf
      (mulf (centered x)
        (broadcastInDim S50000x256 ![0, 1] bcast_S50000x1_S50000x256_0_1
          (Host.rsqrt (addf (rowVar x (constantI S_ 32 0#32))
            (broadcastInDim S50000x1 ![] bcast_S_S50000x1 (constant S_ .f32 0x3727C5AC#32))))))
      (biasRows g))
    (biasRows be)

/-- Row `0`, `1`, `2` of a three-row table of vectors. -/
def vecRow0 (m : (⟨S3x256, .f32⟩ : BufTy).Contents (Elt F)) : (⟨S256, .f32⟩ : BufTy).Contents (Elt F) :=
  fun i => shapeCast S256 (extractStridedSlice S1x256 ![0, 0] m slices_S3x256_S1x256_0_0) shapeCasts_S1x256_S256 i
@[inherit_doc vecRow0]
def vecRow1 (m : (⟨S3x256, .f32⟩ : BufTy).Contents (Elt F)) : (⟨S256, .f32⟩ : BufTy).Contents (Elt F) :=
  fun i => shapeCast S256 (extractStridedSlice S1x256 ![1, 0] m slices_S3x256_S1x256_1_0) shapeCasts_S1x256_S256 i
@[inherit_doc vecRow0]
def vecRow2 (m : (⟨S3x256, .f32⟩ : BufTy).Contents (Elt F)) : (⟨S256, .f32⟩ : BufTy).Contents (Elt F) :=
  fun i => shapeCast S256 (extractStridedSlice S1x256 ![2, 0] m slices_S3x256_S1x256_2_0) shapeCasts_S1x256_S256 i

/-- Matrix `0`, `1`, `2` of a stack of three. -/
def matRow0 (m : (⟨S3x256x256, .f32⟩ : BufTy).Contents (Elt F)) : (⟨S256x256, .f32⟩ : BufTy).Contents (Elt F) :=
  fun i => shapeCast S256x256 (extractStridedSlice S1x256x256 ![0, 0, 0] m slices_S3x256x256_S1x256x256_0_0_0) shapeCasts_S1x256x256_S256x256 i
@[inherit_doc matRow0]
def matRow1 (m : (⟨S3x256x256, .f32⟩ : BufTy).Contents (Elt F)) : (⟨S256x256, .f32⟩ : BufTy).Contents (Elt F) :=
  fun i => shapeCast S256x256 (extractStridedSlice S1x256x256 ![1, 0, 0] m slices_S3x256x256_S1x256x256_1_0_0) shapeCasts_S1x256x256_S256x256 i
@[inherit_doc matRow0]
def matRow2 (m : (⟨S3x256x256, .f32⟩ : BufTy).Contents (Elt F)) : (⟨S256x256, .f32⟩ : BufTy).Contents (Elt F) :=
  fun i => shapeCast S256x256 (extractStridedSlice S1x256x256 ![2, 0, 0] m slices_S3x256x256_S1x256x256_2_0_0) shapeCasts_S1x256x256_S256x256 i

/-- Layer 0 on the aggregated input: two dense layers, each rectified, then the layer norm with
    row 0 of the scales and shifts. -/
def layerLN128 (a : (⟨S50000x128, .f32⟩ : BufTy).Contents (Elt F)) (w1 : (⟨S128x256, .f32⟩ : BufTy).Contents (Elt F)) (b1 : (⟨S256, .f32⟩ : BufTy).Contents (Elt F))
    (w2 : (⟨S256x256, .f32⟩ : BufTy).Contents (Elt F)) (b2 : (⟨S256, .f32⟩ : BufTy).Contents (Elt F)) (g3 be3 : (⟨S3x256, .f32⟩ : BufTy).Contents (Elt F)) : (⟨S50000x256, .f32⟩ : BufTy).Contents (Elt F) :=
  layerNorm (relu (dense256 (relu (dense128 a w1 b1)) w2 b2)) (vecRow0 g3) (vecRow0 be3)

/-- Layer 1: weights and biases at row 0 of their stacks, layer norm at row 1. -/
def layerLN256_1 (a : (⟨S50000x256, .f32⟩ : BufTy).Contents (Elt F)) (w1r : (⟨S3x256x256, .f32⟩ : BufTy).Contents (Elt F)) (b1r : (⟨S3x256, .f32⟩ : BufTy).Contents (Elt F))
    (w2r : (⟨S3x256x256, .f32⟩ : BufTy).Contents (Elt F)) (b2r : (⟨S3x256, .f32⟩ : BufTy).Contents (Elt F)) (g3 be3 : (⟨S3x256, .f32⟩ : BufTy).Contents (Elt F)) : (⟨S50000x256, .f32⟩ : BufTy).Contents (Elt F) :=
  layerNorm (relu (dense256 (relu (dense256 a (matRow0 w1r) (vecRow0 b1r))) (matRow0 w2r) (vecRow0 b2r))) (vecRow1 g3) (vecRow1 be3)

/-- Layer 2: weights and biases at row 1, layer norm at row 2. -/
def layerLN256_2 (a : (⟨S50000x256, .f32⟩ : BufTy).Contents (Elt F)) (w1r : (⟨S3x256x256, .f32⟩ : BufTy).Contents (Elt F)) (b1r : (⟨S3x256, .f32⟩ : BufTy).Contents (Elt F))
    (w2r : (⟨S3x256x256, .f32⟩ : BufTy).Contents (Elt F)) (b2r : (⟨S3x256, .f32⟩ : BufTy).Contents (Elt F)) (g3 be3 : (⟨S3x256, .f32⟩ : BufTy).Contents (Elt F)) : (⟨S50000x256, .f32⟩ : BufTy).Contents (Elt F) :=
  layerNorm (relu (dense256 (relu (dense256 a (matRow1 w1r) (vecRow1 b1r))) (matRow1 w2r) (vecRow1 b2r))) (vecRow2 g3) (vecRow2 be3)

/-- Layer 3: weights and biases at row 2, no layer norm. -/
def layerPlain256 (a : (⟨S50000x256, .f32⟩ : BufTy).Contents (Elt F)) (w1r : (⟨S3x256x256, .f32⟩ : BufTy).Contents (Elt F)) (b1r : (⟨S3x256, .f32⟩ : BufTy).Contents (Elt F))
    (w2r : (⟨S3x256x256, .f32⟩ : BufTy).Contents (Elt F)) (b2r : (⟨S3x256, .f32⟩ : BufTy).Contents (Elt F)) : (⟨S50000x256, .f32⟩ : BufTy).Contents (Elt F) :=
  relu (dense256 (relu (dense256 a (matRow2 w1r) (vecRow2 b1r))) (matRow2 w2r) (vecRow2 b2r))

/-- Mean pooling per graph: the rows of each graph's nodes summed (scatter-add at the graph index
    into zeros) over the graph's node count, the count at least one. -/
def pool (x : (⟨S50000x256, .f32⟩ : BufTy).Contents (Elt F)) (batch : (⟨S50000, .i32⟩ : BufTy).Contents (Elt F)) : (⟨S256x256, .f32⟩ : BufTy).Contents (Elt F) :=
  Host.divf
    (Host.scatterAdd scatter_S256x256_S50000x1_S50000x256_1_0_0_1
      (broadcastInDim S256x256 ![] bcast_S_S256x256 (constant S_ .f32 0x00000000#32))
      (broadcastInDim S50000x1 ![0] bcast_S50000_S50000x1_0 batch) x)
    (broadcastInDim S256x256 ![0, 1] bcast_S256x1_S256x256_0_1
      (broadcastInDim S256x1 ![0] bcast_S256_S256x1_0
        (maximumf
          (Host.scatterAdd scatter_S256_S50000x1_S50000_n_0_0_1
            (broadcastInDim S256 ![] bcast_S_S256 (constant S_ .f32 0x00000000#32))
            (broadcastInDim S50000x1 ![0] bcast_S50000_S50000x1_0 batch)
            (broadcastInDim S50000 ![] bcast_S_S50000 (constant S_ .f32 0x3F800000#32)))
          (broadcastInDim S256 ![] bcast_S_S256 (constant S_ .f32 0x3F800000#32)))))

/-- The head on the pooled rows: a dense layer to width 128, rectified, then a dense layer to one
    column. -/
def head (p : (⟨S256x256, .f32⟩ : BufTy).Contents (Elt F)) (wp1 : (⟨S256x128, .f32⟩ : BufTy).Contents (Elt F)) (bp1 : (⟨S128, .f32⟩ : BufTy).Contents (Elt F))
    (wp2 : (⟨S128x1, .f32⟩ : BufTy).Contents (Elt F)) (bp2 : (⟨S1, .f32⟩ : BufTy).Contents (Elt F)) : (⟨S256x1, .f32⟩ : BufTy).Contents (Elt F) :=
  addf
    (Host.dotGeneral dot_S256x128_S128x1_S256x1_1_0_0_1_n_n none
      (maximumf
        (addf (Host.dotGeneral dot_S256x256_S256x128_S256x128_1_0_0_1_n_n none p wp1)
          (broadcastInDim S256x128 ![0, 1] bcast_S1x128_S256x128_0_1 (broadcastInDim S1x128 ![1] bcast_S128_S1x128_1 bp1)))
        (broadcastInDim S256x128 ![] bcast_S_S256x128 (constant S_ .f32 0x00000000#32)))
      wp2)
    (broadcastInDim S256x1 ![0, 1] bcast_S1x1_S256x1_0_1 (broadcastInDim S1x1 ![1] bcast_S1_S1x1_1 bp2))

/-- The whole reference as one term of its seventeen arguments. -/
def result (a0 : (⟨S50000x128, .f32⟩ : BufTy).Contents (Elt F)) (a1 : (⟨S2x800000, .i32⟩ : BufTy).Contents (Elt F)) (a2 : (⟨S50000, .i32⟩ : BufTy).Contents (Elt F))
    (a3 : (⟨S128x256, .f32⟩ : BufTy).Contents (Elt F)) (a4 : (⟨S256, .f32⟩ : BufTy).Contents (Elt F)) (a5 : (⟨S256x256, .f32⟩ : BufTy).Contents (Elt F)) (a6 : (⟨S256, .f32⟩ : BufTy).Contents (Elt F))
    (a7 : (⟨S3x256x256, .f32⟩ : BufTy).Contents (Elt F)) (a8 : (⟨S3x256, .f32⟩ : BufTy).Contents (Elt F)) (a9 : (⟨S3x256x256, .f32⟩ : BufTy).Contents (Elt F)) (a10 : (⟨S3x256, .f32⟩ : BufTy).Contents (Elt F))
    (a11 : (⟨S3x256, .f32⟩ : BufTy).Contents (Elt F)) (a12 : (⟨S3x256, .f32⟩ : BufTy).Contents (Elt F)) (a13 : (⟨S256x128, .f32⟩ : BufTy).Contents (Elt F)) (a14 : (⟨S128, .f32⟩ : BufTy).Contents (Elt F))
    (a15 : (⟨S128x1, .f32⟩ : BufTy).Contents (Elt F)) (a16 : (⟨S1, .f32⟩ : BufTy).Contents (Elt F)) : (⟨S256x1, .f32⟩ : BufTy).Contents (Elt F) :=
  head
    (pool
      (layerPlain256
        (agg256
          (layerLN256_2
            (agg256
              (layerLN256_1
                (agg256
                  (layerLN128 (agg128 a0 (srcIdx a1) (dstIdx a1)) a3 a4 a5 a6 a11 a12)
                  (srcIdx a1) (dstIdx a1))
                a7 a8 a9 a10 a11 a12)
              (srcIdx a1) (dstIdx a1))
            a7 a8 a9 a10 a11 a12)
          (srcIdx a1) (dstIdx a1))
        a7 a8 a9 a10)
      a2)
    a13 a14 a15 a16

/-! ## The operations, in order, cut at the layer boundaries -/

/-- Statements `%0` … `%46`: the two rows of the edge table as index vectors (`%1`, `%3`), the sum
    aggregation of the input features over the edges (`%4` … `%14`), then layer 0 — two dense layers,
    each rectified (the rectifier's three operations in place of its call), and the layer norm (the
    variance's twenty operations and the selection's three in place of their calls). Result `main_v46`. -/
abbrev ops0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_arg0 main_v13 main_v14 (addf : (⟨S50000x128, .f32⟩ : BufTy).Contents (Elt F) → (⟨S50000x128, .f32⟩ : BufTy).Contents (Elt F) → (⟨S50000x128, .f32⟩ : BufTy).Contents (Elt F)),
    binary main_v14 main_arg3 main_v15 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg4 main_v16 (broadcastInDim S1x256 ![1] bcast_S256_S1x256_1 : (⟨S256, .f32⟩ : BufTy).Contents (Elt F) → (⟨S1x256, .f32⟩ : BufTy).Contents (Elt F)),
    unary main_v16 main_v17 (broadcastInDim S50000x256 ![0, 1] bcast_S1x256_S50000x256_0_1 : (⟨S1x256, .f32⟩ : BufTy).Contents (Elt F) → (⟨S50000x256, .f32⟩ : BufTy).Contents (Elt F)),
    binary main_v15 main_v17 main_v18 (addf : (⟨S50000x256, .f32⟩ : BufTy).Contents (Elt F) → (⟨S50000x256, .f32⟩ : BufTy).Contents (Elt F) → (⟨S50000x256, .f32⟩ : BufTy).Contents (Elt F)),
    TRef.nullary main_call0.cst (constant S_ .f32 0x00000000#32),
    TRef.unary main_call0.cst main_call0.v0 (broadcastInDim S50000x256 ![] bcast_S_S50000x256),
    TRef.binary (.of main_v18 : TRef sig ⟨S50000x256, .f32⟩) main_call0.v0 main_call0.v1 maximumf,
    binary main_v19 main_arg5 main_v20 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg6 main_v21 (broadcastInDim S1x256 ![1] bcast_S256_S1x256_1 : (⟨S256, .f32⟩ : BufTy).Contents (Elt F) → (⟨S1x256, .f32⟩ : BufTy).Contents (Elt F)),
    unary main_v21 main_v22 (broadcastInDim S50000x256 ![0, 1] bcast_S1x256_S50000x256_0_1 : (⟨S1x256, .f32⟩ : BufTy).Contents (Elt F) → (⟨S50000x256, .f32⟩ : BufTy).Contents (Elt F)),
    binary main_v20 main_v22 main_v23 (addf : (⟨S50000x256, .f32⟩ : BufTy).Contents (Elt F) → (⟨S50000x256, .f32⟩ : BufTy).Contents (Elt F) → (⟨S50000x256, .f32⟩ : BufTy).Contents (Elt F)),
    TRef.nullary main_call1.cst (constant S_ .f32 0x00000000#32),
    TRef.unary main_call1.cst main_call1.v0 (broadcastInDim S50000x256 ![] bcast_S_S50000x256),
    TRef.binary (.of main_v23 : TRef sig ⟨S50000x256, .f32⟩) main_call1.v0 main_call1.v1 maximumf,
    unary main_arg11 main_v25 ((extractStridedSlice S1x256 ![0, 0] · slices_S3x256_S1x256_0_0) : (⟨S3x256, .f32⟩ : BufTy).Contents (Elt F) → (⟨S1x256, .f32⟩ : BufTy).Contents (Elt F)),
    reshape main_v25 main_v26 rfl shapeCasts_S1x256_S256,
    unary main_arg12 main_v27 ((extractStridedSlice S1x256 ![0, 0] · slices_S3x256_S1x256_0_0) : (⟨S3x256, .f32⟩ : BufTy).Contents (Elt F) → (⟨S1x256, .f32⟩ : BufTy).Contents (Elt F)),
    reshape main_v27 main_v28 rfl shapeCasts_S1x256_S256,
    nullary main_cst_1 (constant S_ .f32 0x00000000#32),
    binary main_v24 main_cst_1 main_v29 ((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)),
    unary main_v29 main_v30 (broadcastInDim S50000x1 ![0] bcast_S50000_S50000x1_0 : (⟨S50000, .f32⟩ : BufTy).Contents (Elt F) → (⟨S50000x1, .f32⟩ : BufTy).Contents (Elt F)),
    nullary main_cst_2 (constant S_ .f32 0x43800000#32),
    unary main_cst_2 main_v31 (broadcastInDim S50000x1 ![] bcast_S_S50000x1 : (⟨S_, .f32⟩ : BufTy).Contents (Elt F) → (⟨S50000x1, .f32⟩ : BufTy).Contents (Elt F)),
    binary main_v30 main_v31 main_v32 (Host.divf : (⟨S50000x1, .f32⟩ : BufTy).Contents (Elt F) → (⟨S50000x1, .f32⟩ : BufTy).Contents (Elt F) → (⟨S50000x1, .f32⟩ : BufTy).Contents (Elt F)),
    nullary main_c_3 (constantI S_ 32 0#32),
    TRef.nullary main_call2.cst (constant S_ .f32 0x00000000#32),
    TRef.binary (.of main_v24 : TRef sig ⟨S50000x256, .f32⟩) main_call2.cst main_call2.v0 (fun x v => Host.reduceAdd x v reducesTo_S50000x256_S50000_d1 h_S_),
    TRef.unary main_call2.v0 main_call2.v1 (broadcastInDim S50000x1 ![0] bcast_S50000_S50000x1_0),
    TRef.nullary main_call2.cst_0 (constant S_ .f32 0x43800000#32),
    TRef.unary main_call2.cst_0 main_call2.v2 (broadcastInDim S50000x1 ![] bcast_S_S50000x1),
    TRef.binary main_call2.v1 main_call2.v2 main_call2.v3 Host.divf,
    TRef.unary main_call2.v3 main_call2.v4 (broadcastInDim S50000x256 ![0, 1] bcast_S50000x1_S50000x256_0_1),
    TRef.binary (.of main_v24 : TRef sig ⟨S50000x256, .f32⟩) main_call2.v4 main_call2.v5 subf,
    TRef.binary main_call2.v5 main_call2.v5 main_call2.v6 mulf,
    TRef.unary (.of main_c_3 : TRef sig ⟨S_, .i32⟩) main_call2.v7 (sitofp .f32),
    TRef.nullary main_call2.cst_1 (constant S_ .f32 0x43800000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S50000x256_S50000_d1 h_S_),
    TRef.unary main_call2.v9 main_call2.v10 (broadcastInDim S50000x1 ![0] bcast_S50000_S50000x1_0),
    TRef.unary main_call2.v8 main_call2.v11 (broadcastInDim S50000x1 ![] bcast_S_S50000x1),
    TRef.binary main_call2.v10 main_call2.v11 main_call2.v12 Host.divf,
    TRef.nullary main_call2.cst_3 (constant S_ .f32 0x00000000#32),
    TRef.binary main_call2.v8 main_call2.cst_3 main_call2.v13 (cmpf .ogt),
    TRef.nullary main_call2.cst_4 (constant S_ .f32 0x7FC00000#32),
    TRef.unary main_call2.cst_4 main_call2.call0.v0 id,
    TRef.unary main_call2.call0.v0 main_call2.call0.v1 (broadcastInDim S50000x1 ![] bcast_S_S50000x1),
    TRef.ternary main_call2.v13 main_call2.v12 main_call2.call0.v1 main_call2.call0.v2 (fun p a b => select (broadcastInDim S50000x1 ![] bcast_S_S50000x1 p) a b),
    unary main_v32 main_v34 (broadcastInDim S50000x256 ![0, 1] bcast_S50000x1_S50000x256_0_1 : (⟨S50000x1, .f32⟩ : BufTy).Contents (Elt F) → (⟨S50000x256, .f32⟩ : BufTy).Contents (Elt F)),
    binary main_v24 main_v34 main_v35 (subf : (⟨S50000x256, .f32⟩ : BufTy).Contents (Elt F) → (⟨S50000x256, .f32⟩ : BufTy).Contents (Elt F) → (⟨S50000x256, .f32⟩ : BufTy).Contents (Elt F)),
    nullary main_cst_4 (constant S_ .f32 0x3727C5AC#32),
    unary main_cst_4 main_v36 (broadcastInDim S50000x1 ![] bcast_S_S50000x1 : (⟨S_, .f32⟩ : BufTy).Contents (Elt F) → (⟨S50000x1, .f32⟩ : BufTy).Contents (Elt F)),
    binary main_v33 main_v36 main_v37 (addf : (⟨S50000x1, .f32⟩ : BufTy).Contents (Elt F) → (⟨S50000x1, .f32⟩ : BufTy).Contents (Elt F) → (⟨S50000x1, .f32⟩ : BufTy).Contents (Elt F)),
    unary main_v37 main_v38 (Host.rsqrt : (⟨S50000x1, .f32⟩ : BufTy).Contents (Elt F) → (⟨S50000x1, .f32⟩ : BufTy).Contents (Elt F)),
    unary main_v38 main_v39 (broadcastInDim S50000x256 ![0, 1] bcast_S50000x1_S50000x256_0_1 : (⟨S50000x1, .f32⟩ : BufTy).Contents (Elt F) → (⟨S50000x256, .f32⟩ : BufTy).Contents (Elt F)),
    binary main_v35 main_v39 main_v40 (mulf : (⟨S50000x256, .f32⟩ : BufTy).Contents (Elt F) → (⟨S50000x256, .f32⟩ : BufTy).Contents (Elt F) → (⟨S50000x256, .f32⟩ : BufTy).Contents (Elt F)),
    unary main_v26 main_v41 (broadcastInDim S1x256 ![1] bcast_S256_S1x256_1 : (⟨S256, .f32⟩ : BufTy).Contents (Elt F) → (⟨S1x256, .f32⟩ : BufTy).Contents (Elt F)),
    unary main_v41 main_v42 (broadcastInDim S50000x256 ![0, 1] bcast_S1x256_S50000x256_0_1 : (⟨S1x256, .f32⟩ : BufTy).Contents (Elt F) → (⟨S50000x256, .f32⟩ : BufTy).Contents (Elt F)),
    binary main_v40 main_v42 main_v43 (mulf : (⟨S50000x256, .f32⟩ : BufTy).Contents (Elt F) → (⟨S50000x256, .f32⟩ : BufTy).Contents (Elt F) → (⟨S50000x256, .f32⟩ : BufTy).Contents (Elt F)),
    unary main_v28 main_v44 (broadcastInDim S1x256 ![1] bcast_S256_S1x256_1 : (⟨S256, .f32⟩ : BufTy).Contents (Elt F) → (⟨S1x256, .f32⟩ : BufTy).Contents (Elt F)),
    unary main_v44 main_v45 (broadcastInDim S50000x256 ![0, 1] bcast_S1x256_S50000x256_0_1 : (⟨S1x256, .f32⟩ : BufTy).Contents (Elt F) → (⟨S50000x256, .f32⟩ : BufTy).Contents (Elt F)),
    binary main_v43 main_v45 main_v46 (addf : (⟨S50000x256, .f32⟩ : BufTy).Contents (Elt F) → (⟨S50000x256, .f32⟩ : BufTy).Contents (Elt F) → (⟨S50000x256, .f32⟩ : BufTy).Contents (Elt F)) ]

/-- Statements `%47` … `%97`: row 0 of the stacked weights and biases, the aggregation of `main_v46`,
    layer 1 with the layer norm at row 1 of the scales and shifts. Result `main_v97`. -/
abbrev ops1 : List (HloOp τ sig (Elt F)) :=
  [ unary main_arg7 main_v47 ((extractStridedSlice S1x256x256 ![0, 0, 0] · slices_S3x256x256_S1x256x256_0_0_0) : (⟨S3x256x256, .f32⟩ : BufTy).Contents (Elt F) → (⟨S1x256x256, .f32⟩ : BufTy).Contents (Elt F)),
    reshape main_v47 main_v48 rfl shapeCasts_S1x256x256_S256x256,
    unary main_arg8 main_v49 ((extractStridedSlice S1x256 ![0, 0] · slices_S3x256_S1x256_0_0) : (⟨S3x256, .f32⟩ : BufTy).Contents (Elt F) → (⟨S1x256, .f32⟩ : BufTy).Contents (Elt F)),
    reshape main_v49 main_v50 rfl shapeCasts_S1x256_S256,
    unary main_arg9 main_v51 ((extractStridedSlice S1x256x256 ![0, 0, 0] · slices_S3x256x256_S1x256x256_0_0_0) : (⟨S3x256x256, .f32⟩ : BufTy).Contents (Elt F) → (⟨S1x256x256, .f32⟩ : BufTy).Contents (Elt F)),
    reshape main_v51 main_v52 rfl shapeCasts_S1x256x256_S256x256,
    unary main_arg10 main_v53 ((extractStridedSlice S1x256 ![0, 0] · slices_S3x256_S1x256_0_0) : (⟨S3x256, .f32⟩ : BufTy).Contents (Elt F) → (⟨S1x256, .f32⟩ : BufTy).Contents (Elt F)),
    reshape main_v53 main_v54 rfl shapeCasts_S1x256_S256,
    nullary main_c_5 (constantI S_ 32 0#32),
    unary main_c_5 main_v55 (broadcastInDim S800000 ![] bcast_S_S800000 : (⟨S_, .i32⟩ : BufTy).Contents (Elt F) → (⟨S800000, .i32⟩ : BufTy).Contents (Elt F)),
    binary main_v1 main_v55 main_v56 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v57 (broadcastInDim S800000 ![] bcast_S_S800000 : (⟨S_, .i32⟩ : BufTy).Contents (Elt F) → (⟨S800000, .i32⟩ : BufTy).Contents (Elt F)),
    binary main_v1 main_v57 main_v58 (addi : (⟨S800000, .i32⟩ : BufTy).Contents (Elt F) → (⟨S800000, .i32⟩ : BufTy).Contents (Elt F) → (⟨S800000, .i32⟩ : BufTy).Contents (Elt F)),
    ternary main_v56 main_v58 main_v1 main_v59 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v59 main_v60 (broadcastInDim S800000x1 ![0] bcast_S800000_S800000x1_0 : (⟨S800000, .i32⟩ : BufTy).Contents (Elt F) → (⟨S800000x1, .i32⟩ : BufTy).Contents (Elt F)),
    binary main_v46 main_v60 main_v61 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_7 (constant S_ .f32 0x00000000#32),
    unary main_cst_7 main_v62 (broadcastInDim S50000x256 ![] bcast_S_S50000x256 : (⟨S_, .f32⟩ : BufTy).Contents (Elt F) → (⟨S50000x256, .f32⟩ : BufTy).Contents (Elt F)),
    unary main_v3 main_v63 (broadcastInDim S800000x1 ![0] bcast_S800000_S800000x1_0 : (⟨S800000, .i32⟩ : BufTy).Contents (Elt F) → (⟨S800000x1, .i32⟩ : BufTy).Contents (Elt F)),
    ternary main_v62 main_v63 main_v61 main_v64 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    binary main_v46 main_v64 main_v65 (addf : (⟨S50000x256, .f32⟩ : BufTy).Contents (Elt F) → (⟨S50000x256, .f32⟩ : BufTy).Contents (Elt F) → (⟨S50000x256, .f32⟩ : BufTy).Contents (Elt F)),
    binary main_v65 main_v48 main_v66 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_v50 main_v67 (broadcastInDim S1x256 ![1] bcast_S256_S1x256_1 : (⟨S256, .f32⟩ : BufTy).Contents (Elt F) → (⟨S1x256, .f32⟩ : BufTy).Contents (Elt F)),
    unary main_v67 main_v68 (broadcastInDim S50000x256 ![0, 1] bcast_S1x256_S50000x256_0_1 : (⟨S1x256, .f32⟩ : BufTy).Contents (Elt F) → (⟨S50000x256, .f32⟩ : BufTy).Contents (Elt F)),
    binary main_v66 main_v68 main_v69 (addf : (⟨S50000x256, .f32⟩ : BufTy).Contents (Elt F) → (⟨S50000x256, .f32⟩ : BufTy).Contents (Elt F) → (⟨S50000x256, .f32⟩ : BufTy).Contents (Elt F)),
    TRef.nullary main_call3.cst (constant S_ .f32 0x00000000#32),
    TRef.unary main_call3.cst main_call3.v0 (broadcastInDim S50000x256 ![] bcast_S_S50000x256),
    TRef.binary (.of main_v69 : TRef sig ⟨S50000x256, .f32⟩) main_call3.v0 main_call3.v1 maximumf,
    binary main_v70 main_v52 main_v71 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_v54 main_v72 (broadcastInDim S1x256 ![1] bcast_S256_S1x256_1 : (⟨S256, .f32⟩ : BufTy).Contents (Elt F) → (⟨S1x256, .f32⟩ : BufTy).Contents (Elt F)),
    unary main_v72 main_v73 (broadcastInDim S50000x256 ![0, 1] bcast_S1x256_S50000x256_0_1 : (⟨S1x256, .f32⟩ : BufTy).Contents (Elt F) → (⟨S50000x256, .f32⟩ : BufTy).Contents (Elt F)),
    binary main_v71 main_v73 main_v74 (addf : (⟨S50000x256, .f32⟩ : BufTy).Contents (Elt F) → (⟨S50000x256, .f32⟩ : BufTy).Contents (Elt F) → (⟨S50000x256, .f32⟩ : BufTy).Contents (Elt F)),
    TRef.nullary main_call4.cst (constant S_ .f32 0x00000000#32),
    TRef.unary main_call4.cst main_call4.v0 (broadcastInDim S50000x256 ![] bcast_S_S50000x256),
    TRef.binary (.of main_v74 : TRef sig ⟨S50000x256, .f32⟩) main_call4.v0 main_call4.v1 maximumf,
    unary main_arg11 main_v76 ((extractStridedSlice S1x256 ![1, 0] · slices_S3x256_S1x256_1_0) : (⟨S3x256, .f32⟩ : BufTy).Contents (Elt F) → (⟨S1x256, .f32⟩ : BufTy).Contents (Elt F)),
    reshape main_v76 main_v77 rfl shapeCasts_S1x256_S256,
    unary main_arg12 main_v78 ((extractStridedSlice S1x256 ![1, 0] · slices_S3x256_S1x256_1_0) : (⟨S3x256, .f32⟩ : BufTy).Contents (Elt F) → (⟨S1x256, .f32⟩ : BufTy).Contents (Elt F)),
    reshape main_v78 main_v79 rfl shapeCasts_S1x256_S256,
    nullary main_cst_8 (constant S_ .f32 0x00000000#32),
    binary main_v75 main_cst_8 main_v80 ((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)),
    unary main_v80 main_v81 (broadcastInDim S50000x1 ![0] bcast_S50000_S50000x1_0 : (⟨S50000, .f32⟩ : BufTy).Contents (Elt F) → (⟨S50000x1, .f32⟩ : BufTy).Contents (Elt F)),
    nullary main_cst_9 (constant S_ .f32 0x43800000#32),
    unary main_cst_9 main_v82 (broadcastInDim S50000x1 ![] bcast_S_S50000x1 : (⟨S_, .f32⟩ : BufTy).Contents (Elt F) → (⟨S50000x1, .f32⟩ : BufTy).Contents (Elt F)),
    binary main_v81 main_v82 main_v83 (Host.divf : (⟨S50000x1, .f32⟩ : BufTy).Contents (Elt F) → (⟨S50000x1, .f32⟩ : BufTy).Contents (Elt F) → (⟨S50000x1, .f32⟩ : BufTy).Contents (Elt F)),
    nullary main_c_10 (constantI S_ 32 0#32),
    TRef.nullary main_call5.cst (constant S_ .f32 0x00000000#32),
    TRef.binary (.of main_v75 : TRef sig ⟨S50000x256, .f32⟩) main_call5.cst main_call5.v0 (fun x v => Host.reduceAdd x v reducesTo_S50000x256_S50000_d1 h_S_),
    TRef.unary main_call5.v0 main_call5.v1 (broadcastInDim S50000x1 ![0] bcast_S50000_S50000x1_0),
    TRef.nullary main_call5.cst_0 (constant S_ .f32 0x43800000#32),
    TRef.unary main_call5.cst_0 main_call5.v2 (broadcastInDim S50000x1 ![] bcast_S_S50000x1),
    TRef.binary main_call5.v1 main_call5.v2 main_call5.v3 Host.divf,
    TRef.unary main_call5.v3 main_call5.v4 (broadcastInDim S50000x256 ![0, 1] bcast_S50000x1_S50000x256_0_1),
    TRef.binary (.of main_v75 : TRef sig ⟨S50000x256, .f32⟩) main_call5.v4 main_call5.v5 subf,
    TRef.binary main_call5.v5 main_call5.v5 main_call5.v6 mulf,
    TRef.unary (.of main_c_10 : TRef sig ⟨S_, .i32⟩) main_call5.v7 (sitofp .f32),
    TRef.nullary main_call5.cst_1 (constant S_ .f32 0x43800000#32),
    TRef.binary main_call5.cst_1 main_call5.v7 main_call5.v8 subf,
    TRef.nullary main_call5.cst_2 (constant S_ .f32 0x00000000#32),
    TRef.binary main_call5.v6 main_call5.cst_2 main_call5.v9 (fun x v => Host.reduceAdd x v reducesTo_S50000x256_S50000_d1 h_S_),
    TRef.unary main_call5.v9 main_call5.v10 (broadcastInDim S50000x1 ![0] bcast_S50000_S50000x1_0),
    TRef.unary main_call5.v8 main_call5.v11 (broadcastInDim S50000x1 ![] bcast_S_S50000x1),
    TRef.binary main_call5.v10 main_call5.v11 main_call5.v12 Host.divf,
    TRef.nullary main_call5.cst_3 (constant S_ .f32 0x00000000#32),
    TRef.binary main_call5.v8 main_call5.cst_3 main_call5.v13 (cmpf .ogt),
    TRef.nullary main_call5.cst_4 (constant S_ .f32 0x7FC00000#32),
    TRef.unary main_call5.cst_4 main_call5.call0.v0 id,
    TRef.unary main_call5.call0.v0 main_call5.call0.v1 (broadcastInDim S50000x1 ![] bcast_S_S50000x1),
    TRef.ternary main_call5.v13 main_call5.v12 main_call5.call0.v1 main_call5.call0.v2 (fun p a b => select (broadcastInDim S50000x1 ![] bcast_S_S50000x1 p) a b),
    unary main_v83 main_v85 (broadcastInDim S50000x256 ![0, 1] bcast_S50000x1_S50000x256_0_1 : (⟨S50000x1, .f32⟩ : BufTy).Contents (Elt F) → (⟨S50000x256, .f32⟩ : BufTy).Contents (Elt F)),
    binary main_v75 main_v85 main_v86 (subf : (⟨S50000x256, .f32⟩ : BufTy).Contents (Elt F) → (⟨S50000x256, .f32⟩ : BufTy).Contents (Elt F) → (⟨S50000x256, .f32⟩ : BufTy).Contents (Elt F)),
    nullary main_cst_11 (constant S_ .f32 0x3727C5AC#32),
    unary main_cst_11 main_v87 (broadcastInDim S50000x1 ![] bcast_S_S50000x1 : (⟨S_, .f32⟩ : BufTy).Contents (Elt F) → (⟨S50000x1, .f32⟩ : BufTy).Contents (Elt F)),
    binary main_v84 main_v87 main_v88 (addf : (⟨S50000x1, .f32⟩ : BufTy).Contents (Elt F) → (⟨S50000x1, .f32⟩ : BufTy).Contents (Elt F) → (⟨S50000x1, .f32⟩ : BufTy).Contents (Elt F)),
    unary main_v88 main_v89 (Host.rsqrt : (⟨S50000x1, .f32⟩ : BufTy).Contents (Elt F) → (⟨S50000x1, .f32⟩ : BufTy).Contents (Elt F)),
    unary main_v89 main_v90 (broadcastInDim S50000x256 ![0, 1] bcast_S50000x1_S50000x256_0_1 : (⟨S50000x1, .f32⟩ : BufTy).Contents (Elt F) → (⟨S50000x256, .f32⟩ : BufTy).Contents (Elt F)),
    binary main_v86 main_v90 main_v91 (mulf : (⟨S50000x256, .f32⟩ : BufTy).Contents (Elt F) → (⟨S50000x256, .f32⟩ : BufTy).Contents (Elt F) → (⟨S50000x256, .f32⟩ : BufTy).Contents (Elt F)),
    unary main_v77 main_v92 (broadcastInDim S1x256 ![1] bcast_S256_S1x256_1 : (⟨S256, .f32⟩ : BufTy).Contents (Elt F) → (⟨S1x256, .f32⟩ : BufTy).Contents (Elt F)),
    unary main_v92 main_v93 (broadcastInDim S50000x256 ![0, 1] bcast_S1x256_S50000x256_0_1 : (⟨S1x256, .f32⟩ : BufTy).Contents (Elt F) → (⟨S50000x256, .f32⟩ : BufTy).Contents (Elt F)),
    binary main_v91 main_v93 main_v94 (mulf : (⟨S50000x256, .f32⟩ : BufTy).Contents (Elt F) → (⟨S50000x256, .f32⟩ : BufTy).Contents (Elt F) → (⟨S50000x256, .f32⟩ : BufTy).Contents (Elt F)),
    unary main_v79 main_v95 (broadcastInDim S1x256 ![1] bcast_S256_S1x256_1 : (⟨S256, .f32⟩ : BufTy).Contents (Elt F) → (⟨S1x256, .f32⟩ : BufTy).Contents (Elt F)),
    unary main_v95 main_v96 (broadcastInDim S50000x256 ![0, 1] bcast_S1x256_S50000x256_0_1 : (⟨S1x256, .f32⟩ : BufTy).Contents (Elt F) → (⟨S50000x256, .f32⟩ : BufTy).Contents (Elt F)),
    binary main_v94 main_v96 main_v97 (addf : (⟨S50000x256, .f32⟩ : BufTy).Contents (Elt F) → (⟨S50000x256, .f32⟩ : BufTy).Contents (Elt F) → (⟨S50000x256, .f32⟩ : BufTy).Contents (Elt F)) ]

/-- Statements `%98` … `%148`: row 1 of the stacked weights and biases, the aggregation of `main_v97`,
    layer 2 with the layer norm at row 2. Result `main_v148`. -/
abbrev ops2 : List (HloOp τ sig (Elt F)) :=
  [ unary main_arg7 main_v98 ((extractStridedSlice S1x256x256 ![1, 0, 0] · slices_S3x256x256_S1x256x256_1_0_0) : (⟨S3x256x256, .f32⟩ : BufTy).Contents (Elt F) → (⟨S1x256x256, .f32⟩ : BufTy).Contents (Elt F)),
    reshape main_v98 main_v99 rfl shapeCasts_S1x256x256_S256x256,
    unary main_arg8 main_v100 ((extractStridedSlice S1x256 ![1, 0] · slices_S3x256_S1x256_1_0) : (⟨S3x256, .f32⟩ : BufTy).Contents (Elt F) → (⟨S1x256, .f32⟩ : BufTy).Contents (Elt F)),
    reshape main_v100 main_v101 rfl shapeCasts_S1x256_S256,
    unary main_arg9 main_v102 ((extractStridedSlice S1x256x256 ![1, 0, 0] · slices_S3x256x256_S1x256x256_1_0_0) : (⟨S3x256x256, .f32⟩ : BufTy).Contents (Elt F) → (⟨S1x256x256, .f32⟩ : BufTy).Contents (Elt F)),
    reshape main_v102 main_v103 rfl shapeCasts_S1x256x256_S256x256,
    unary main_arg10 main_v104 ((extractStridedSlice S1x256 ![1, 0] · slices_S3x256_S1x256_1_0) : (⟨S3x256, .f32⟩ : BufTy).Contents (Elt F) → (⟨S1x256, .f32⟩ : BufTy).Contents (Elt F)),
    reshape main_v104 main_v105 rfl shapeCasts_S1x256_S256,
    nullary main_c_12 (constantI S_ 32 0#32),
    unary main_c_12 main_v106 (broadcastInDim S800000 ![] bcast_S_S800000 : (⟨S_, .i32⟩ : BufTy).Contents (Elt F) → (⟨S800000, .i32⟩ : BufTy).Contents (Elt F)),
    binary main_v1 main_v106 main_v107 (cmpi .slt : (⟨S800000, .i32⟩ : BufTy).Contents (Elt F) → (⟨S800000, .i32⟩ : BufTy).Contents (Elt F) → (⟨S800000, .i1⟩ : BufTy).Contents (Elt F)),
    nullary main_c_13 (constantI S_ 32 50000#32),
    unary main_c_13 main_v108 (broadcastInDim S800000 ![] bcast_S_S800000 : (⟨S_, .i32⟩ : BufTy).Contents (Elt F) → (⟨S800000, .i32⟩ : BufTy).Contents (Elt F)),
    binary main_v1 main_v108 main_v109 (addi : (⟨S800000, .i32⟩ : BufTy).Contents (Elt F) → (⟨S800000, .i32⟩ : BufTy).Contents (Elt F) → (⟨S800000, .i32⟩ : BufTy).Contents (Elt F)),
    ternary main_v107 main_v109 main_v1 main_v110 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v110 main_v111 (broadcastInDim S800000x1 ![0] bcast_S800000_S800000x1_0 : (⟨S800000, .i32⟩ : BufTy).Contents (Elt F) → (⟨S800000x1, .i32⟩ : BufTy).Contents (Elt F)),
    binary main_v97 main_v111 main_v112 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_14 (constant S_ .f32 0x00000000#32),
    unary main_cst_14 main_v113 (broadcastInDim S50000x256 ![] bcast_S_S50000x256 : (⟨S_, .f32⟩ : BufTy).Contents (Elt F) → (⟨S50000x256, .f32⟩ : BufTy).Contents (Elt F)),
    unary main_v3 main_v114 (broadcastInDim S800000x1 ![0] bcast_S800000_S800000x1_0 : (⟨S800000, .i32⟩ : BufTy).Contents (Elt F) → (⟨S800000x1, .i32⟩ : BufTy).Contents (Elt F)),
    ternary main_v113 main_v114 main_v112 main_v115 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    binary main_v97 main_v115 main_v116 (addf : (⟨S50000x256, .f32⟩ : BufTy).Contents (Elt F) → (⟨S50000x256, .f32⟩ : BufTy).Contents (Elt F) → (⟨S50000x256, .f32⟩ : BufTy).Contents (Elt F)),
    binary main_v116 main_v99 main_v117 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_v101 main_v118 (broadcastInDim S1x256 ![1] bcast_S256_S1x256_1 : (⟨S256, .f32⟩ : BufTy).Contents (Elt F) → (⟨S1x256, .f32⟩ : BufTy).Contents (Elt F)),
    unary main_v118 main_v119 (broadcastInDim S50000x256 ![0, 1] bcast_S1x256_S50000x256_0_1 : (⟨S1x256, .f32⟩ : BufTy).Contents (Elt F) → (⟨S50000x256, .f32⟩ : BufTy).Contents (Elt F)),
    binary main_v117 main_v119 main_v120 (addf : (⟨S50000x256, .f32⟩ : BufTy).Contents (Elt F) → (⟨S50000x256, .f32⟩ : BufTy).Contents (Elt F) → (⟨S50000x256, .f32⟩ : BufTy).Contents (Elt F)),
    TRef.nullary main_call6.cst (constant S_ .f32 0x00000000#32),
    TRef.unary main_call6.cst main_call6.v0 (broadcastInDim S50000x256 ![] bcast_S_S50000x256),
    TRef.binary (.of main_v120 : TRef sig ⟨S50000x256, .f32⟩) main_call6.v0 main_call6.v1 maximumf,
    binary main_v121 main_v103 main_v122 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_v105 main_v123 (broadcastInDim S1x256 ![1] bcast_S256_S1x256_1 : (⟨S256, .f32⟩ : BufTy).Contents (Elt F) → (⟨S1x256, .f32⟩ : BufTy).Contents (Elt F)),
    unary main_v123 main_v124 (broadcastInDim S50000x256 ![0, 1] bcast_S1x256_S50000x256_0_1 : (⟨S1x256, .f32⟩ : BufTy).Contents (Elt F) → (⟨S50000x256, .f32⟩ : BufTy).Contents (Elt F)),
    binary main_v122 main_v124 main_v125 (addf : (⟨S50000x256, .f32⟩ : BufTy).Contents (Elt F) → (⟨S50000x256, .f32⟩ : BufTy).Contents (Elt F) → (⟨S50000x256, .f32⟩ : BufTy).Contents (Elt F)),
    TRef.nullary main_call7.cst (constant S_ .f32 0x00000000#32),
    TRef.unary main_call7.cst main_call7.v0 (broadcastInDim S50000x256 ![] bcast_S_S50000x256),
    TRef.binary (.of main_v125 : TRef sig ⟨S50000x256, .f32⟩) main_call7.v0 main_call7.v1 maximumf,
    unary main_arg11 main_v127 ((extractStridedSlice S1x256 ![2, 0] · slices_S3x256_S1x256_2_0) : (⟨S3x256, .f32⟩ : BufTy).Contents (Elt F) → (⟨S1x256, .f32⟩ : BufTy).Contents (Elt F)),
    reshape main_v127 main_v128 rfl shapeCasts_S1x256_S256,
    unary main_arg12 main_v129 ((extractStridedSlice S1x256 ![2, 0] · slices_S3x256_S1x256_2_0) : (⟨S3x256, .f32⟩ : BufTy).Contents (Elt F) → (⟨S1x256, .f32⟩ : BufTy).Contents (Elt F)),
    reshape main_v129 main_v130 rfl shapeCasts_S1x256_S256,
    nullary main_cst_15 (constant S_ .f32 0x00000000#32),
    binary main_v126 main_cst_15 main_v131 ((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)),
    unary main_v131 main_v132 (broadcastInDim S50000x1 ![0] bcast_S50000_S50000x1_0 : (⟨S50000, .f32⟩ : BufTy).Contents (Elt F) → (⟨S50000x1, .f32⟩ : BufTy).Contents (Elt F)),
    nullary main_cst_16 (constant S_ .f32 0x43800000#32),
    unary main_cst_16 main_v133 (broadcastInDim S50000x1 ![] bcast_S_S50000x1 : (⟨S_, .f32⟩ : BufTy).Contents (Elt F) → (⟨S50000x1, .f32⟩ : BufTy).Contents (Elt F)),
    binary main_v132 main_v133 main_v134 (Host.divf : (⟨S50000x1, .f32⟩ : BufTy).Contents (Elt F) → (⟨S50000x1, .f32⟩ : BufTy).Contents (Elt F) → (⟨S50000x1, .f32⟩ : BufTy).Contents (Elt F)),
    nullary main_c_17 (constantI S_ 32 0#32),
    TRef.nullary main_call8.cst (constant S_ .f32 0x00000000#32),
    TRef.binary (.of main_v126 : TRef sig ⟨S50000x256, .f32⟩) main_call8.cst main_call8.v0 (fun x v => Host.reduceAdd x v reducesTo_S50000x256_S50000_d1 h_S_),
    TRef.unary main_call8.v0 main_call8.v1 (broadcastInDim S50000x1 ![0] bcast_S50000_S50000x1_0),
    TRef.nullary main_call8.cst_0 (constant S_ .f32 0x43800000#32),
    TRef.unary main_call8.cst_0 main_call8.v2 (broadcastInDim S50000x1 ![] bcast_S_S50000x1),
    TRef.binary main_call8.v1 main_call8.v2 main_call8.v3 Host.divf,
    TRef.unary main_call8.v3 main_call8.v4 (broadcastInDim S50000x256 ![0, 1] bcast_S50000x1_S50000x256_0_1),
    TRef.binary (.of main_v126 : TRef sig ⟨S50000x256, .f32⟩) main_call8.v4 main_call8.v5 subf,
    TRef.binary main_call8.v5 main_call8.v5 main_call8.v6 mulf,
    TRef.unary (.of main_c_17 : TRef sig ⟨S_, .i32⟩) main_call8.v7 (sitofp .f32),
    TRef.nullary main_call8.cst_1 (constant S_ .f32 0x43800000#32),
    TRef.binary main_call8.cst_1 main_call8.v7 main_call8.v8 subf,
    TRef.nullary main_call8.cst_2 (constant S_ .f32 0x00000000#32),
    TRef.binary main_call8.v6 main_call8.cst_2 main_call8.v9 (fun x v => Host.reduceAdd x v reducesTo_S50000x256_S50000_d1 h_S_),
    TRef.unary main_call8.v9 main_call8.v10 (broadcastInDim S50000x1 ![0] bcast_S50000_S50000x1_0),
    TRef.unary main_call8.v8 main_call8.v11 (broadcastInDim S50000x1 ![] bcast_S_S50000x1),
    TRef.binary main_call8.v10 main_call8.v11 main_call8.v12 Host.divf,
    TRef.nullary main_call8.cst_3 (constant S_ .f32 0x00000000#32),
    TRef.binary main_call8.v8 main_call8.cst_3 main_call8.v13 (cmpf .ogt),
    TRef.nullary main_call8.cst_4 (constant S_ .f32 0x7FC00000#32),
    TRef.unary main_call8.cst_4 main_call8.call0.v0 id,
    TRef.unary main_call8.call0.v0 main_call8.call0.v1 (broadcastInDim S50000x1 ![] bcast_S_S50000x1),
    TRef.ternary main_call8.v13 main_call8.v12 main_call8.call0.v1 main_call8.call0.v2 (fun p a b => select (broadcastInDim S50000x1 ![] bcast_S_S50000x1 p) a b),
    unary main_v134 main_v136 (broadcastInDim S50000x256 ![0, 1] bcast_S50000x1_S50000x256_0_1 : (⟨S50000x1, .f32⟩ : BufTy).Contents (Elt F) → (⟨S50000x256, .f32⟩ : BufTy).Contents (Elt F)),
    binary main_v126 main_v136 main_v137 (subf : (⟨S50000x256, .f32⟩ : BufTy).Contents (Elt F) → (⟨S50000x256, .f32⟩ : BufTy).Contents (Elt F) → (⟨S50000x256, .f32⟩ : BufTy).Contents (Elt F)),
    nullary main_cst_18 (constant S_ .f32 0x3727C5AC#32),
    unary main_cst_18 main_v138 (broadcastInDim S50000x1 ![] bcast_S_S50000x1 : (⟨S_, .f32⟩ : BufTy).Contents (Elt F) → (⟨S50000x1, .f32⟩ : BufTy).Contents (Elt F)),
    binary main_v135 main_v138 main_v139 (addf : (⟨S50000x1, .f32⟩ : BufTy).Contents (Elt F) → (⟨S50000x1, .f32⟩ : BufTy).Contents (Elt F) → (⟨S50000x1, .f32⟩ : BufTy).Contents (Elt F)),
    unary main_v139 main_v140 (Host.rsqrt : (⟨S50000x1, .f32⟩ : BufTy).Contents (Elt F) → (⟨S50000x1, .f32⟩ : BufTy).Contents (Elt F)),
    unary main_v140 main_v141 (broadcastInDim S50000x256 ![0, 1] bcast_S50000x1_S50000x256_0_1 : (⟨S50000x1, .f32⟩ : BufTy).Contents (Elt F) → (⟨S50000x256, .f32⟩ : BufTy).Contents (Elt F)),
    binary main_v137 main_v141 main_v142 (mulf : (⟨S50000x256, .f32⟩ : BufTy).Contents (Elt F) → (⟨S50000x256, .f32⟩ : BufTy).Contents (Elt F) → (⟨S50000x256, .f32⟩ : BufTy).Contents (Elt F)),
    unary main_v128 main_v143 (broadcastInDim S1x256 ![1] bcast_S256_S1x256_1 : (⟨S256, .f32⟩ : BufTy).Contents (Elt F) → (⟨S1x256, .f32⟩ : BufTy).Contents (Elt F)),
    unary main_v143 main_v144 (broadcastInDim S50000x256 ![0, 1] bcast_S1x256_S50000x256_0_1 : (⟨S1x256, .f32⟩ : BufTy).Contents (Elt F) → (⟨S50000x256, .f32⟩ : BufTy).Contents (Elt F)),
    binary main_v142 main_v144 main_v145 (mulf : (⟨S50000x256, .f32⟩ : BufTy).Contents (Elt F) → (⟨S50000x256, .f32⟩ : BufTy).Contents (Elt F) → (⟨S50000x256, .f32⟩ : BufTy).Contents (Elt F)),
    unary main_v130 main_v146 (broadcastInDim S1x256 ![1] bcast_S256_S1x256_1 : (⟨S256, .f32⟩ : BufTy).Contents (Elt F) → (⟨S1x256, .f32⟩ : BufTy).Contents (Elt F)),
    unary main_v146 main_v147 (broadcastInDim S50000x256 ![0, 1] bcast_S1x256_S50000x256_0_1 : (⟨S1x256, .f32⟩ : BufTy).Contents (Elt F) → (⟨S50000x256, .f32⟩ : BufTy).Contents (Elt F)),
    binary main_v145 main_v147 main_v148 (addf : (⟨S50000x256, .f32⟩ : BufTy).Contents (Elt F) → (⟨S50000x256, .f32⟩ : BufTy).Contents (Elt F) → (⟨S50000x256, .f32⟩ : BufTy).Contents (Elt F)) ]

/-- Statements `%149` … `%177`: row 2 of the stacked weights and biases, the aggregation of `main_v148`,
    layer 3, which has no layer norm. Result `main_v177`. -/
abbrev ops3 : List (HloOp τ sig (Elt F)) :=
  [ unary main_arg7 main_v149 ((extractStridedSlice S1x256x256 ![2, 0, 0] · slices_S3x256x256_S1x256x256_2_0_0) : (⟨S3x256x256, .f32⟩ : BufTy).Contents (Elt F) → (⟨S1x256x256, .f32⟩ : BufTy).Contents (Elt F)),
    reshape main_v149 main_v150 rfl shapeCasts_S1x256x256_S256x256,
    unary main_arg8 main_v151 ((extractStridedSlice S1x256 ![2, 0] · slices_S3x256_S1x256_2_0) : (⟨S3x256, .f32⟩ : BufTy).Contents (Elt F) → (⟨S1x256, .f32⟩ : BufTy).Contents (Elt F)),
    reshape main_v151 main_v152 rfl shapeCasts_S1x256_S256,
    unary main_arg9 main_v153 ((extractStridedSlice S1x256x256 ![2, 0, 0] · slices_S3x256x256_S1x256x256_2_0_0) : (⟨S3x256x256, .f32⟩ : BufTy).Contents (Elt F) → (⟨S1x256x256, .f32⟩ : BufTy).Contents (Elt F)),
    reshape main_v153 main_v154 rfl shapeCasts_S1x256x256_S256x256,
    unary main_arg10 main_v155 ((extractStridedSlice S1x256 ![2, 0] · slices_S3x256_S1x256_2_0) : (⟨S3x256, .f32⟩ : BufTy).Contents (Elt F) → (⟨S1x256, .f32⟩ : BufTy).Contents (Elt F)),
    reshape main_v155 main_v156 rfl shapeCasts_S1x256_S256,
    nullary main_c_19 (constantI S_ 32 0#32),
    unary main_c_19 main_v157 (broadcastInDim S800000 ![] bcast_S_S800000 : (⟨S_, .i32⟩ : BufTy).Contents (Elt F) → (⟨S800000, .i32⟩ : BufTy).Contents (Elt F)),
    binary main_v1 main_v157 main_v158 (cmpi .slt : (⟨S800000, .i32⟩ : BufTy).Contents (Elt F) → (⟨S800000, .i32⟩ : BufTy).Contents (Elt F) → (⟨S800000, .i1⟩ : BufTy).Contents (Elt F)),
    nullary main_c_20 (constantI S_ 32 50000#32),
    unary main_c_20 main_v159 (broadcastInDim S800000 ![] bcast_S_S800000 : (⟨S_, .i32⟩ : BufTy).Contents (Elt F) → (⟨S800000, .i32⟩ : BufTy).Contents (Elt F)),
    binary main_v1 main_v159 main_v160 (addi : (⟨S800000, .i32⟩ : BufTy).Contents (Elt F) → (⟨S800000, .i32⟩ : BufTy).Contents (Elt F) → (⟨S800000, .i32⟩ : BufTy).Contents (Elt F)),
    ternary main_v158 main_v160 main_v1 main_v161 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v161 main_v162 (broadcastInDim S800000x1 ![0] bcast_S800000_S800000x1_0 : (⟨S800000, .i32⟩ : BufTy).Contents (Elt F) → (⟨S800000x1, .i32⟩ : BufTy).Contents (Elt F)),
    binary main_v148 main_v162 main_v163 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_21 (constant S_ .f32 0x00000000#32),
    unary main_cst_21 main_v164 (broadcastInDim S50000x256 ![] bcast_S_S50000x256 : (⟨S_, .f32⟩ : BufTy).Contents (Elt F) → (⟨S50000x256, .f32⟩ : BufTy).Contents (Elt F)),
    unary main_v3 main_v165 (broadcastInDim S800000x1 ![0] bcast_S800000_S800000x1_0 : (⟨S800000, .i32⟩ : BufTy).Contents (Elt F) → (⟨S800000x1, .i32⟩ : BufTy).Contents (Elt F)),
    ternary main_v164 main_v165 main_v163 main_v166 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    binary main_v148 main_v166 main_v167 (addf : (⟨S50000x256, .f32⟩ : BufTy).Contents (Elt F) → (⟨S50000x256, .f32⟩ : BufTy).Contents (Elt F) → (⟨S50000x256, .f32⟩ : BufTy).Contents (Elt F)),
    binary main_v167 main_v150 main_v168 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_v152 main_v169 (broadcastInDim S1x256 ![1] bcast_S256_S1x256_1 : (⟨S256, .f32⟩ : BufTy).Contents (Elt F) → (⟨S1x256, .f32⟩ : BufTy).Contents (Elt F)),
    unary main_v169 main_v170 (broadcastInDim S50000x256 ![0, 1] bcast_S1x256_S50000x256_0_1 : (⟨S1x256, .f32⟩ : BufTy).Contents (Elt F) → (⟨S50000x256, .f32⟩ : BufTy).Contents (Elt F)),
    binary main_v168 main_v170 main_v171 (addf : (⟨S50000x256, .f32⟩ : BufTy).Contents (Elt F) → (⟨S50000x256, .f32⟩ : BufTy).Contents (Elt F) → (⟨S50000x256, .f32⟩ : BufTy).Contents (Elt F)),
    TRef.nullary main_call9.cst (constant S_ .f32 0x00000000#32),
    TRef.unary main_call9.cst main_call9.v0 (broadcastInDim S50000x256 ![] bcast_S_S50000x256),
    TRef.binary (.of main_v171 : TRef sig ⟨S50000x256, .f32⟩) main_call9.v0 main_call9.v1 maximumf,
    binary main_v172 main_v154 main_v173 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_v156 main_v174 (broadcastInDim S1x256 ![1] bcast_S256_S1x256_1 : (⟨S256, .f32⟩ : BufTy).Contents (Elt F) → (⟨S1x256, .f32⟩ : BufTy).Contents (Elt F)),
    unary main_v174 main_v175 (broadcastInDim S50000x256 ![0, 1] bcast_S1x256_S50000x256_0_1 : (⟨S1x256, .f32⟩ : BufTy).Contents (Elt F) → (⟨S50000x256, .f32⟩ : BufTy).Contents (Elt F)),
    binary main_v173 main_v175 main_v176 (addf : (⟨S50000x256, .f32⟩ : BufTy).Contents (Elt F) → (⟨S50000x256, .f32⟩ : BufTy).Contents (Elt F) → (⟨S50000x256, .f32⟩ : BufTy).Contents (Elt F)),
    TRef.nullary main_call10.cst (constant S_ .f32 0x00000000#32),
    TRef.unary main_call10.cst main_call10.v0 (broadcastInDim S50000x256 ![] bcast_S_S50000x256),
    TRef.binary (.of main_v176 : TRef sig ⟨S50000x256, .f32⟩) main_call10.v0 main_call10.v1 maximumf ]

/-- Statements `%178` … `%198`: the mean over each graph's nodes, then the head (a dense layer,
    rectified, and a dense layer to one column). Result `main_v198`. -/
abbrev ops4 : List (HloOp τ sig (Elt F)) :=
  [ nullary main_cst_22 (constant S_ .f32 0x00000000#32),
    unary main_cst_22 main_v178 (broadcastInDim S256x256 ![] bcast_S_S256x256 : (⟨S_, .f32⟩ : BufTy).Contents (Elt F) → (⟨S256x256, .f32⟩ : BufTy).Contents (Elt F)),
    unary main_arg2 main_v179 (broadcastInDim S50000x1 ![0] bcast_S50000_S50000x1_0 : (⟨S50000, .i32⟩ : BufTy).Contents (Elt F) → (⟨S50000x1, .i32⟩ : BufTy).Contents (Elt F)),
    ternary main_v178 main_v179 main_v177 main_v180 ((fun x i u => Host.scatterAdd scatter_S256x256_S50000x1_S50000x256_1_0_0_1 x i u) : (⟨S256x256, .f32⟩ : BufTy).Contents (Elt F) → (⟨S50000x1, .i32⟩ : BufTy).Contents (Elt F) → (⟨S50000x256, .f32⟩ : BufTy).Contents (Elt F) → (⟨S256x256, .f32⟩ : BufTy).Contents (Elt F)),
    nullary main_cst_23 (constant S_ .f32 0x3F800000#32),
    unary main_cst_23 main_v181 (broadcastInDim S50000 ![] bcast_S_S50000 : (⟨S_, .f32⟩ : BufTy).Contents (Elt F) → (⟨S50000, .f32⟩ : BufTy).Contents (Elt F)),
    nullary main_cst_24 (constant S_ .f32 0x00000000#32),
    unary main_cst_24 main_v182 (broadcastInDim S256 ![] bcast_S_S256 : (⟨S_, .f32⟩ : BufTy).Contents (Elt F) → (⟨S256, .f32⟩ : BufTy).Contents (Elt F)),
    unary main_arg2 main_v183 (broadcastInDim S50000x1 ![0] bcast_S50000_S50000x1_0 : (⟨S50000, .i32⟩ : BufTy).Contents (Elt F) → (⟨S50000x1, .i32⟩ : BufTy).Contents (Elt F)),
    ternary main_v182 main_v183 main_v181 main_v184 ((fun x i u => Host.scatterAdd scatter_S256_S50000x1_S50000_n_0_0_1 x i u) : (⟨S256, .f32⟩ : BufTy).Contents (Elt F) → (⟨S50000x1, .i32⟩ : BufTy).Contents (Elt F) → (⟨S50000, .f32⟩ : BufTy).Contents (Elt F) → (⟨S256, .f32⟩ : BufTy).Contents (Elt F)),
    nullary main_cst_25 (constant S_ .f32 0x3F800000#32),
    unary main_cst_25 main_v185 (broadcastInDim S256 ![] bcast_S_S256 : (⟨S_, .f32⟩ : BufTy).Contents (Elt F) → (⟨S256, .f32⟩ : BufTy).Contents (Elt F)),
    binary main_v184 main_v185 main_v186 (maximumf : (⟨S256, .f32⟩ : BufTy).Contents (Elt F) → (⟨S256, .f32⟩ : BufTy).Contents (Elt F) → (⟨S256, .f32⟩ : BufTy).Contents (Elt F)),
    unary main_v186 main_v187 (broadcastInDim S256x1 ![0] bcast_S256_S256x1_0 : (⟨S256, .f32⟩ : BufTy).Contents (Elt F) → (⟨S256x1, .f32⟩ : BufTy).Contents (Elt F)),
    unary main_v187 main_v188 (broadcastInDim S256x256 ![0, 1] bcast_S256x1_S256x256_0_1 : (⟨S256x1, .f32⟩ : BufTy).Contents (Elt F) → (⟨S256x256, .f32⟩ : BufTy).Contents (Elt F)),
    binary main_v180 main_v188 main_v189 (Host.divf : (⟨S256x256, .f32⟩ : BufTy).Contents (Elt F) → (⟨S256x256, .f32⟩ : BufTy).Contents (Elt F) → (⟨S256x256, .f32⟩ : BufTy).Contents (Elt F)),
    binary main_v189 main_arg13 main_v190 ((fun l r => Host.dotGeneral dot_S256x256_S256x128_S256x128_1_0_0_1_n_n none l r) : (⟨S256x256, .f32⟩ : BufTy).Contents (Elt F) → (⟨S256x128, .f32⟩ : BufTy).Contents (Elt F) → (⟨S256x128, .f32⟩ : BufTy).Contents (Elt F)),
    unary main_arg14 main_v191 (broadcastInDim S1x128 ![1] bcast_S128_S1x128_1 : (⟨S128, .f32⟩ : BufTy).Contents (Elt F) → (⟨S1x128, .f32⟩ : BufTy).Contents (Elt F)),
    unary main_v191 main_v192 (broadcastInDim S256x128 ![0, 1] bcast_S1x128_S256x128_0_1 : (⟨S1x128, .f32⟩ : BufTy).Contents (Elt F) → (⟨S256x128, .f32⟩ : BufTy).Contents (Elt F)),
    binary main_v190 main_v192 main_v193 (addf : (⟨S256x128, .f32⟩ : BufTy).Contents (Elt F) → (⟨S256x128, .f32⟩ : BufTy).Contents (Elt F) → (⟨S256x128, .f32⟩ : BufTy).Contents (Elt F)),
    TRef.nullary main_call11.cst (constant S_ .f32 0x00000000#32),
    TRef.unary main_call11.cst main_call11.v0 (broadcastInDim S256x128 ![] bcast_S_S256x128),
    TRef.binary (.of main_v193 : TRef sig ⟨S256x128, .f32⟩) main_call11.v0 main_call11.v1 maximumf,
    binary main_v194 main_arg15 main_v195 ((fun l r => Host.dotGeneral dot_S256x128_S128x1_S256x1_1_0_0_1_n_n none l r) : (⟨S256x128, .f32⟩ : BufTy).Contents (Elt F) → (⟨S128x1, .f32⟩ : BufTy).Contents (Elt F) → (⟨S256x1, .f32⟩ : BufTy).Contents (Elt F)),
    unary main_arg16 main_v196 (broadcastInDim S1x1 ![1] bcast_S1_S1x1_1 : (⟨S1, .f32⟩ : BufTy).Contents (Elt F) → (⟨S1x1, .f32⟩ : BufTy).Contents (Elt F)),
    unary main_v196 main_v197 (broadcastInDim S256x1 ![0, 1] bcast_S1x1_S256x1_0_1 : (⟨S1x1, .f32⟩ : BufTy).Contents (Elt F) → (⟨S256x1, .f32⟩ : BufTy).Contents (Elt F)),
    binary main_v195 main_v197 main_v198 (addf : (⟨S256x1, .f32⟩ : BufTy).Contents (Elt F) → (⟨S256x1, .f32⟩ : BufTy).Contents (Elt F) → (⟨S256x1, .f32⟩ : BufTy).Contents (Elt F)) ]

/-- The whole line: `@main`'s operations in order, every call's body in place of the call. -/
abbrev ops : List (HloOp τ sig (Elt F)) := ops0 ++ ops1 ++ ops2 ++ ops3 ++ ops4

end Cert.ReferenceIdeal.Hand

end
-- ==== Proof.RefRun.lean ====
import proofs.«146653_j18459769438675_1_alg».proof.Proof.RefOps

/-!
# The reference's run, read back

`@main` is the line `ops` run in order; every weakly fair execution of it terminates with each
buffer at the line's fold over the launch contents. The fold is then read stage by stage: after a
stage its result buffer holds the stage's term of the buffers the stage reads, and every buffer
the stage does not write holds what it held. Composed, the last result is `result` of the
seventeen arguments, and the arguments are unchanged.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The program is the line -/

-- both sides are one chain of `hlo` steps: the windows, the called functions and the fold over the
-- list all unfold to it; three hundred steps deep, hence the recursion bound
set_option maxRecDepth 100000 in
set_option maxHeartbeats 4000000 in
/-- `@main` is the straight line `ops`: each window's statements in order, each call its callee's body
    over the call's own buffers. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-! ## Every buffer an operation touches is a TensorCore buffer -/

theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., binary_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    unary_bufs_sub .., binary_bufs_sub .., unary_bufs_sub .., reshape_bufs_sub .., unary_bufs_sub .., reshape_bufs_sub ..,
    nullary_bufs_sub .., binary_bufs_sub .., unary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., unary_bufs_sub .., binary_bufs_sub ..,
    nullary_bufs_sub .., binary_bufs_sub .., nullary_bufs_sub .., unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub ..⟩

theorem ops1_sub : (ops1 : List (HloOp τ sig (Elt F))).Forall fun op => op.bufs ⊆ tcRefs τ sig :=
  ⟨unary_bufs_sub .., reshape_bufs_sub .., unary_bufs_sub .., reshape_bufs_sub .., unary_bufs_sub .., reshape_bufs_sub ..,
    unary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., unary_bufs_sub .., ternary_bufs_sub .., binary_bufs_sub .., binary_bufs_sub .., unary_bufs_sub ..,
    unary_bufs_sub .., binary_bufs_sub .., nullary_bufs_sub .., unary_bufs_sub .., binary_bufs_sub .., binary_bufs_sub ..,
    unary_bufs_sub .., unary_bufs_sub .., binary_bufs_sub .., nullary_bufs_sub .., unary_bufs_sub .., binary_bufs_sub ..,
    unary_bufs_sub .., reshape_bufs_sub .., unary_bufs_sub .., reshape_bufs_sub .., nullary_bufs_sub .., binary_bufs_sub ..,
    unary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., unary_bufs_sub .., binary_bufs_sub .., nullary_bufs_sub .., binary_bufs_sub ..,
    nullary_bufs_sub .., unary_bufs_sub .., unary_bufs_sub .., ternary_bufs_sub .., unary_bufs_sub .., binary_bufs_sub ..,
    nullary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..⟩

theorem ops2_sub : (ops2 : List (HloOp τ sig (Elt F))).Forall fun op => op.bufs ⊆ tcRefs τ sig :=
  ⟨unary_bufs_sub .., reshape_bufs_sub .., unary_bufs_sub .., reshape_bufs_sub .., unary_bufs_sub .., reshape_bufs_sub ..,
    unary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., unary_bufs_sub .., ternary_bufs_sub .., binary_bufs_sub .., binary_bufs_sub .., unary_bufs_sub ..,
    unary_bufs_sub .., binary_bufs_sub .., nullary_bufs_sub .., unary_bufs_sub .., binary_bufs_sub .., binary_bufs_sub ..,
    unary_bufs_sub .., unary_bufs_sub .., binary_bufs_sub .., nullary_bufs_sub .., unary_bufs_sub .., binary_bufs_sub ..,
    unary_bufs_sub .., reshape_bufs_sub .., unary_bufs_sub .., reshape_bufs_sub .., nullary_bufs_sub .., binary_bufs_sub ..,
    unary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., unary_bufs_sub .., binary_bufs_sub .., nullary_bufs_sub .., binary_bufs_sub ..,
    nullary_bufs_sub .., unary_bufs_sub .., unary_bufs_sub .., ternary_bufs_sub .., unary_bufs_sub .., binary_bufs_sub ..,
    nullary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..⟩

theorem ops3_sub : (ops3 : List (HloOp τ sig (Elt F))).Forall fun op => op.bufs ⊆ tcRefs τ sig :=
  ⟨unary_bufs_sub .., reshape_bufs_sub .., unary_bufs_sub .., reshape_bufs_sub .., unary_bufs_sub .., reshape_bufs_sub ..,
    unary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., unary_bufs_sub .., ternary_bufs_sub .., binary_bufs_sub .., binary_bufs_sub .., unary_bufs_sub ..,
    unary_bufs_sub .., binary_bufs_sub .., nullary_bufs_sub .., unary_bufs_sub .., binary_bufs_sub .., binary_bufs_sub ..,
    unary_bufs_sub .., unary_bufs_sub .., binary_bufs_sub .., nullary_bufs_sub .., unary_bufs_sub .., binary_bufs_sub ..⟩

theorem ops4_sub : (ops4 : List (HloOp τ sig (Elt F))).Forall fun op => op.bufs ⊆ tcRefs τ sig :=
  ⟨nullary_bufs_sub .., unary_bufs_sub .., unary_bufs_sub .., ternary_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., unary_bufs_sub .., binary_bufs_sub .., binary_bufs_sub .., unary_bufs_sub ..,
    unary_bufs_sub .., binary_bufs_sub .., nullary_bufs_sub .., unary_bufs_sub .., binary_bufs_sub .., binary_bufs_sub ..,
    unary_bufs_sub .., unary_bufs_sub .., binary_bufs_sub ..⟩

theorem ops_sub : (ops : List (HloOp τ sig (Elt F))).Forall fun op => op.bufs ⊆ tcRefs τ sig := by
  rw [List.forall_iff_forall_mem]
  intro op h
  simp only [ops, List.mem_append] at h
  rcases h with (((h | h) | h) | h) | h
  · exact List.forall_iff_forall_mem.mp ops0_sub op h
  · exact List.forall_iff_forall_mem.mp ops1_sub op h
  · exact List.forall_iff_forall_mem.mp ops2_sub op h
  · exact List.forall_iff_forall_mem.mp ops3_sub op h
  · exact List.forall_iff_forall_mem.mp ops4_sub op h

/-- On the one device, for any float values, from any memory with zero counters: every weakly fair
    execution of `@main` terminates, and every final state has each TensorCore buffer at the line's
    fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The fold, stage by stage -/

/-- The fold over two lines run in order is the second's over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

section Stages

set_option maxRecDepth 100000 in
set_option maxHeartbeats 4000000 in
/-- After stage 0 the source index vector is row 0 of the edge table. -/
theorem src0 (V : Valuation τ sig (Elt F)) :
    after ops0 V (main_v1 : DevRef τ sig) = srcIdx (V (main_arg1 : DevRef τ sig)) := by
  after_results_simp
  rfl

set_option maxRecDepth 100000 in
set_option maxHeartbeats 4000000 in
/-- After stage 0 the target index vector is row 1 of the edge table. -/
theorem dst0 (V : Valuation τ sig (Elt F)) :
    after ops0 V (main_v3 : DevRef τ sig) = dstIdx (V (main_arg1 : DevRef τ sig)) := by
  after_results_simp
  rfl

set_option maxRecDepth 100000 in
set_option maxHeartbeats 4000000 in
/-- After stage 0 its result is layer 0 of the aggregated input features. -/
theorem stage0 (V : Valuation τ sig (Elt F)) :
    after ops0 V (main_v46 : DevRef τ sig)
      = layerLN128 (agg128 (V (main_arg0 : DevRef τ sig)) (srcIdx (V (main_arg1 : DevRef τ sig))) (dstIdx (V (main_arg1 : DevRef τ sig))))
          (V (main_arg3 : DevRef τ sig)) (V (main_arg4 : DevRef τ sig)) (V (main_arg5 : DevRef τ sig)) (V (main_arg6 : DevRef τ sig)) (V (main_arg11 : DevRef τ sig)) (V (main_arg12 : DevRef τ sig)) := by
  after_results_simp
  rfl

set_option maxRecDepth 100000 in
set_option maxHeartbeats 4000000 in
/-- After stage 1 its result is layer 1 of the aggregation of stage 0's. -/
theorem stage1 (V : Valuation τ sig (Elt F)) :
    after ops1 V (main_v97 : DevRef τ sig)
      = layerLN256_1 (agg256 (V (main_v46 : DevRef τ sig)) (V (main_v1 : DevRef τ sig)) (V (main_v3 : DevRef τ sig)))
          (V (main_arg7 : DevRef τ sig)) (V (main_arg8 : DevRef τ sig)) (V (main_arg9 : DevRef τ sig)) (V (main_arg10 : DevRef τ sig)) (V (main_arg11 : DevRef τ sig)) (V (main_arg12 : DevRef τ sig)) := by
  after_results_simp
  rfl

set_option maxRecDepth 100000 in
set_option maxHeartbeats 4000000 in
/-- After stage 2 its result is layer 2 of the aggregation of stage 1's. -/
theorem stage2 (V : Valuation τ sig (Elt F)) :
    after ops2 V (main_v148 : DevRef τ sig)
      = layerLN256_2 (agg256 (V (main_v97 : DevRef τ sig)) (V (main_v1 : DevRef τ sig)) (V (main_v3 : DevRef τ sig)))
          (V (main_arg7 : DevRef τ sig)) (V (main_arg8 : DevRef τ sig)) (V (main_arg9 : DevRef τ sig)) (V (main_arg10 : DevRef τ sig)) (V (main_arg11 : DevRef τ sig)) (V (main_arg12 : DevRef τ sig)) := by
  after_results_simp
  rfl

set_option maxRecDepth 100000 in
set_option maxHeartbeats 4000000 in
/-- After stage 3 its result is layer 3 of the aggregation of stage 2's. -/
theorem stage3 (V : Valuation τ sig (Elt F)) :
    after ops3 V (main_v177 : DevRef τ sig)
      = layerPlain256 (agg256 (V (main_v148 : DevRef τ sig)) (V (main_v1 : DevRef τ sig)) (V (main_v3 : DevRef τ sig)))
          (V (main_arg7 : DevRef τ sig)) (V (main_arg8 : DevRef τ sig)) (V (main_arg9 : DevRef τ sig)) (V (main_arg10 : DevRef τ sig)) := by
  after_results_simp
  rfl

set_option maxRecDepth 100000 in
set_option maxHeartbeats 4000000 in
/-- After stage 4 its result is the head of the pooled rows of stage 3's. -/
theorem stage4 (V : Valuation τ sig (Elt F)) :
    after ops4 V (main_v198 : DevRef τ sig)
      = head (pool (V (main_v177 : DevRef τ sig)) (V (main_arg2 : DevRef τ sig))) (V (main_arg13 : DevRef τ sig)) (V (main_arg14 : DevRef τ sig)) (V (main_arg15 : DevRef τ sig)) (V (main_arg16 : DevRef τ sig)) := by
  after_results_simp
  rfl

end Stages

/-! ## What each stage writes, and that it writes nothing else -/

/-- A result buffer that is in a list is in the list's set of buffers. -/
theorem writes_sub_of_mem {W : List (Ref sig .tc)} {y : Ref sig .tc} (h : y ∈ W) :
    ({(Proc.devRef .tc y : DevRef τ sig)} : Finset (DevRef τ sig)) ⊆ (W.map (Proc.devRef (τ := τ) .tc)).toFinset :=
  Finset.singleton_subset_iff.mpr (List.mem_toFinset.mpr (List.mem_map_of_mem h))

/-- The buffers stage 0 writes: one per operation, in order. -/
def W0 : List (Ref sig .tc) :=
  [main_v0, main_v1, main_v2, main_v3, main_c, main_v4, main_v5, main_c_0,
   main_v6, main_v7, main_v8, main_v9, main_v10, main_cst, main_v11, main_v12,
   main_v13, main_v14, main_v15, main_v16, main_v17, main_v18, main_call0_cst, main_call0_v0,
   main_v19, main_v20, main_v21, main_v22, main_v23, main_call1_cst, main_call1_v0, main_v24,
   main_v25, main_v26, main_v27, main_v28, main_cst_1, main_v29, main_v30, main_cst_2,
   main_v31, main_v32, main_c_3, main_call2_cst, main_call2_v0, main_call2_v1, main_call2_cst_0, main_call2_v2,
   main_call2_v3, main_call2_v4, main_call2_v5, main_call2_v6, main_call2_v7, main_call2_cst_1, main_call2_v8, main_call2_cst_2,
   main_call2_v9, main_call2_v10, main_call2_v11, main_call2_v12, main_call2_cst_3, main_call2_v13, main_call2_cst_4, main_call2_call0_v0,
   main_call2_call0_v1, main_v33, main_v34, main_v35, main_cst_4, main_v36, main_v37, main_v38,
   main_v39, main_v40, main_v41, main_v42, main_v43, main_v44, main_v45, main_v46]

theorem ops0_writes : (ops0 : List (HloOp τ sig (Elt F))).Forall fun op =>
    op.writes ⊆ (W0.map (Proc.devRef (τ := τ) .tc)).toFinset :=
  ⟨writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide)⟩

/-- A buffer stage 0 does not write keeps its contents across it. -/
theorem frame0 (V : Valuation τ sig (Elt F)) {r : Ref sig .tc} (hr : r ∉ W0) :
    after ops0 V (r : DevRef τ sig) = V (r : DevRef τ sig) :=
  after_of_writes_sub ops0 V ops0_writes hr

/-- The buffers stage 1 writes: one per operation, in order. -/
def W1 : List (Ref sig .tc) :=
  [main_v47, main_v48, main_v49, main_v50, main_v51, main_v52, main_v53, main_v54,
   main_c_5, main_v55, main_v56, main_c_6, main_v57, main_v58, main_v59, main_v60,
   main_v61, main_cst_7, main_v62, main_v63, main_v64, main_v65, main_v66, main_v67,
   main_v68, main_v69, main_call3_cst, main_call3_v0, main_v70, main_v71, main_v72, main_v73,
   main_v74, main_call4_cst, main_call4_v0, main_v75, main_v76, main_v77, main_v78, main_v79,
   main_cst_8, main_v80, main_v81, main_cst_9, main_v82, main_v83, main_c_10, main_call5_cst,
   main_call5_v0, main_call5_v1, main_call5_cst_0, main_call5_v2, main_call5_v3, main_call5_v4, main_call5_v5, main_call5_v6,
   main_call5_v7, main_call5_cst_1, main_call5_v8, main_call5_cst_2, main_call5_v9, main_call5_v10, main_call5_v11, main_call5_v12,
   main_call5_cst_3, main_call5_v13, main_call5_cst_4, main_call5_call0_v0, main_call5_call0_v1, main_v84, main_v85, main_v86,
   main_cst_11, main_v87, main_v88, main_v89, main_v90, main_v91, main_v92, main_v93,
   main_v94, main_v95, main_v96, main_v97]

theorem ops1_writes : (ops1 : List (HloOp τ sig (Elt F))).Forall fun op =>
    op.writes ⊆ (W1.map (Proc.devRef (τ := τ) .tc)).toFinset :=
  ⟨writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide)⟩

/-- A buffer stage 1 does not write keeps its contents across it. -/
theorem frame1 (V : Valuation τ sig (Elt F)) {r : Ref sig .tc} (hr : r ∉ W1) :
    after ops1 V (r : DevRef τ sig) = V (r : DevRef τ sig) :=
  after_of_writes_sub ops1 V ops1_writes hr

/-- The buffers stage 2 writes: one per operation, in order. -/
def W2 : List (Ref sig .tc) :=
  [main_v98, main_v99, main_v100, main_v101, main_v102, main_v103, main_v104, main_v105,
   main_c_12, main_v106, main_v107, main_c_13, main_v108, main_v109, main_v110, main_v111,
   main_v112, main_cst_14, main_v113, main_v114, main_v115, main_v116, main_v117, main_v118,
   main_v119, main_v120, main_call6_cst, main_call6_v0, main_v121, main_v122, main_v123, main_v124,
   main_v125, main_call7_cst, main_call7_v0, main_v126, main_v127, main_v128, main_v129, main_v130,
   main_cst_15, main_v131, main_v132, main_cst_16, main_v133, main_v134, main_c_17, main_call8_cst,
   main_call8_v0, main_call8_v1, main_call8_cst_0, main_call8_v2, main_call8_v3, main_call8_v4, main_call8_v5, main_call8_v6,
   main_call8_v7, main_call8_cst_1, main_call8_v8, main_call8_cst_2, main_call8_v9, main_call8_v10, main_call8_v11, main_call8_v12,
   main_call8_cst_3, main_call8_v13, main_call8_cst_4, main_call8_call0_v0, main_call8_call0_v1, main_v135, main_v136, main_v137,
   main_cst_18, main_v138, main_v139, main_v140, main_v141, main_v142, main_v143, main_v144,
   main_v145, main_v146, main_v147, main_v148]

theorem ops2_writes : (ops2 : List (HloOp τ sig (Elt F))).Forall fun op =>
    op.writes ⊆ (W2.map (Proc.devRef (τ := τ) .tc)).toFinset :=
  ⟨writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide)⟩

/-- A buffer stage 2 does not write keeps its contents across it. -/
theorem frame2 (V : Valuation τ sig (Elt F)) {r : Ref sig .tc} (hr : r ∉ W2) :
    after ops2 V (r : DevRef τ sig) = V (r : DevRef τ sig) :=
  after_of_writes_sub ops2 V ops2_writes hr

/-- The buffers stage 3 writes: one per operation, in order. -/
def W3 : List (Ref sig .tc) :=
  [main_v149, main_v150, main_v151, main_v152, main_v153, main_v154, main_v155, main_v156,
   main_c_19, main_v157, main_v158, main_c_20, main_v159, main_v160, main_v161, main_v162,
   main_v163, main_cst_21, main_v164, main_v165, main_v166, main_v167, main_v168, main_v169,
   main_v170, main_v171, main_call9_cst, main_call9_v0, main_v172, main_v173, main_v174, main_v175,
   main_v176, main_call10_cst, main_call10_v0, main_v177]

theorem ops3_writes : (ops3 : List (HloOp τ sig (Elt F))).Forall fun op =>
    op.writes ⊆ (W3.map (Proc.devRef (τ := τ) .tc)).toFinset :=
  ⟨writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide)⟩

/-- A buffer stage 3 does not write keeps its contents across it. -/
theorem frame3 (V : Valuation τ sig (Elt F)) {r : Ref sig .tc} (hr : r ∉ W3) :
    after ops3 V (r : DevRef τ sig) = V (r : DevRef τ sig) :=
  after_of_writes_sub ops3 V ops3_writes hr

/-- The buffers stage 4 writes: one per operation, in order. -/
def W4 : List (Ref sig .tc) :=
  [main_cst_22, main_v178, main_v179, main_v180, main_cst_23, main_v181, main_cst_24, main_v182,
   main_v183, main_v184, main_cst_25, main_v185, main_v186, main_v187, main_v188, main_v189,
   main_v190, main_v191, main_v192, main_v193, main_call11_cst, main_call11_v0, main_v194, main_v195,
   main_v196, main_v197, main_v198]

theorem ops4_writes : (ops4 : List (HloOp τ sig (Elt F))).Forall fun op =>
    op.writes ⊆ (W4.map (Proc.devRef (τ := τ) .tc)).toFinset :=
  ⟨writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide)⟩

/-- A buffer stage 4 does not write keeps its contents across it. -/
theorem frame4 (V : Valuation τ sig (Elt F)) {r : Ref sig .tc} (hr : r ∉ W4) :
    after ops4 V (r : DevRef τ sig) = V (r : DevRef τ sig) :=
  after_of_writes_sub ops4 V ops4_writes hr

/-! ## The whole fold -/

/-- The fold over the whole line is the five stages' folds in order. -/
theorem after_ops (V : Valuation τ sig (Elt F)) :
    after ops V = after ops4 (after ops3 (after ops2 (after ops1 (after ops0 V)))) := by
  simp only [ops, after_append]

/-- A buffer no stage writes keeps its contents across the whole line. -/
theorem frame (V : Valuation τ sig (Elt F)) {r : Ref sig .tc}
    (h0 : r ∉ W0) (h1 : r ∉ W1) (h2 : r ∉ W2) (h3 : r ∉ W3) (h4 : r ∉ W4) :
    after ops V (r : DevRef τ sig) = V (r : DevRef τ sig) := by
  rw [after_ops, frame4 _ h4, frame3 _ h3, frame2 _ h2, frame1 _ h1, frame0 _ h0]

/-- After the whole line the last result is `result` of the seventeen arguments: each stage's
    result is its term of what the stage reads (`stage0` … `stage4`), and what a stage reads from
    before the previous stage — an argument, an index vector — has come through the stages between
    unchanged (`frame0` … `frame3`). -/
theorem result_eq (V : Valuation τ sig (Elt F)) :
    after ops V (main_v198 : DevRef τ sig)
      = result (V (main_arg0 : DevRef τ sig))
          (V (main_arg1 : DevRef τ sig))
          (V (main_arg2 : DevRef τ sig))
          (V (main_arg3 : DevRef τ sig))
          (V (main_arg4 : DevRef τ sig))
          (V (main_arg5 : DevRef τ sig))
          (V (main_arg6 : DevRef τ sig))
          (V (main_arg7 : DevRef τ sig))
          (V (main_arg8 : DevRef τ sig))
          (V (main_arg9 : DevRef τ sig))
          (V (main_arg10 : DevRef τ sig))
          (V (main_arg11 : DevRef τ sig))
          (V (main_arg12 : DevRef τ sig))
          (V (main_arg13 : DevRef τ sig))
          (V (main_arg14 : DevRef τ sig))
          (V (main_arg15 : DevRef τ sig))
          (V (main_arg16 : DevRef τ sig)) := by
  rw [after_ops, stage4, stage3, stage2, stage1, stage0]
  rw [frame3 _ (r := main_arg2) (by decide), frame3 _ (r := main_arg13) (by decide), frame3 _ (r := main_arg14) (by decide),
    frame3 _ (r := main_arg15) (by decide), frame3 _ (r := main_arg16) (by decide), frame2 _ (r := main_arg2) (by decide),
    frame2 _ (r := main_arg13) (by decide), frame2 _ (r := main_arg14) (by decide), frame2 _ (r := main_arg15) (by decide),
    frame2 _ (r := main_arg16) (by decide), frame2 _ (r := main_v1) (by decide), frame2 _ (r := main_v3) (by decide),
    frame2 _ (r := main_arg7) (by decide), frame2 _ (r := main_arg8) (by decide), frame2 _ (r := main_arg9) (by decide),
    frame2 _ (r := main_arg10) (by decide), frame1 _ (r := main_arg2) (by decide), frame1 _ (r := main_arg13) (by decide),
    frame1 _ (r := main_arg14) (by decide), frame1 _ (r := main_arg15) (by decide), frame1 _ (r := main_arg16) (by decide),
    frame1 _ (r := main_v1) (by decide), frame1 _ (r := main_v3) (by decide), frame1 _ (r := main_arg7) (by decide),
    frame1 _ (r := main_arg8) (by decide), frame1 _ (r := main_arg9) (by decide), frame1 _ (r := main_arg10) (by decide),
    frame1 _ (r := main_arg11) (by decide), frame1 _ (r := main_arg12) (by decide), frame0 _ (r := main_arg2) (by decide),
    frame0 _ (r := main_arg13) (by decide), frame0 _ (r := main_arg14) (by decide), frame0 _ (r := main_arg15) (by decide),
    frame0 _ (r := main_arg16) (by decide), src0, dst0,
    frame0 _ (r := main_arg7) (by decide), frame0 _ (r := main_arg8) (by decide), frame0 _ (r := main_arg9) (by decide),
    frame0 _ (r := main_arg10) (by decide), frame0 _ (r := main_arg11) (by decide), frame0 _ (r := main_arg12) (by decide)]
  rfl

/-! ## The arguments are unchanged -/

theorem arg_eq_0 (V : Valuation τ sig (Elt F)) :
    after ops V (main_arg0 : DevRef τ sig) = V (main_arg0 : DevRef τ sig) :=
  frame V (by decide) (by decide) (by decide) (by decide) (by decide)

theorem arg_eq_1 (V : Valuation τ sig (Elt F)) :
    after ops V (main_arg1 : DevRef τ sig) = V (main_arg1 : DevRef τ sig) :=
  frame V (by decide) (by decide) (by decide) (by decide) (by decide)

theorem arg_eq_2 (V : Valuation τ sig (Elt F)) :
    after ops V (main_arg2 : DevRef τ sig) = V (main_arg2 : DevRef τ sig) :=
  frame V (by decide) (by decide) (by decide) (by decide) (by decide)

theorem arg_eq_3 (V : Valuation τ sig (Elt F)) :
    after ops V (main_arg3 : DevRef τ sig) = V (main_arg3 : DevRef τ sig) :=
  frame V (by decide) (by decide) (by decide) (by decide) (by decide)

theorem arg_eq_4 (V : Valuation τ sig (Elt F)) :
    after ops V (main_arg4 : DevRef τ sig) = V (main_arg4 : DevRef τ sig) :=
  frame V (by decide) (by decide) (by decide) (by decide) (by decide)

theorem arg_eq_5 (V : Valuation τ sig (Elt F)) :
    after ops V (main_arg5 : DevRef τ sig) = V (main_arg5 : DevRef τ sig) :=
  frame V (by decide) (by decide) (by decide) (by decide) (by decide)

theorem arg_eq_6 (V : Valuation τ sig (Elt F)) :
    after ops V (main_arg6 : DevRef τ sig) = V (main_arg6 : DevRef τ sig) :=
  frame V (by decide) (by decide) (by decide) (by decide) (by decide)

theorem arg_eq_7 (V : Valuation τ sig (Elt F)) :
    after ops V (main_arg7 : DevRef τ sig) = V (main_arg7 : DevRef τ sig) :=
  frame V (by decide) (by decide) (by decide) (by decide) (by decide)

theorem arg_eq_8 (V : Valuation τ sig (Elt F)) :
    after ops V (main_arg8 : DevRef τ sig) = V (main_arg8 : DevRef τ sig) :=
  frame V (by decide) (by decide) (by decide) (by decide) (by decide)

theorem arg_eq_9 (V : Valuation τ sig (Elt F)) :
    after ops V (main_arg9 : DevRef τ sig) = V (main_arg9 : DevRef τ sig) :=
  frame V (by decide) (by decide) (by decide) (by decide) (by decide)

theorem arg_eq_10 (V : Valuation τ sig (Elt F)) :
    after ops V (main_arg10 : DevRef τ sig) = V (main_arg10 : DevRef τ sig) :=
  frame V (by decide) (by decide) (by decide) (by decide) (by decide)

theorem arg_eq_11 (V : Valuation τ sig (Elt F)) :
    after ops V (main_arg11 : DevRef τ sig) = V (main_arg11 : DevRef τ sig) :=
  frame V (by decide) (by decide) (by decide) (by decide) (by decide)

theorem arg_eq_12 (V : Valuation τ sig (Elt F)) :
    after ops V (main_arg12 : DevRef τ sig) = V (main_arg12 : DevRef τ sig) :=
  frame V (by decide) (by decide) (by decide) (by decide) (by decide)

theorem arg_eq_13 (V : Valuation τ sig (Elt F)) :
    after ops V (main_arg13 : DevRef τ sig) = V (main_arg13 : DevRef τ sig) :=
  frame V (by decide) (by decide) (by decide) (by decide) (by decide)

theorem arg_eq_14 (V : Valuation τ sig (Elt F)) :
    after ops V (main_arg14 : DevRef τ sig) = V (main_arg14 : DevRef τ sig) :=
  frame V (by decide) (by decide) (by decide) (by decide) (by decide)

theorem arg_eq_15 (V : Valuation τ sig (Elt F)) :
    after ops V (main_arg15 : DevRef τ sig) = V (main_arg15 : DevRef τ sig) :=
  frame V (by decide) (by decide) (by decide) (by decide) (by decide)

theorem arg_eq_16 (V : Valuation τ sig (Elt F)) :
    after ops V (main_arg16 : DevRef τ sig) = V (main_arg16 : DevRef τ sig) :=
  frame V (by decide) (by decide) (by decide) (by decide) (by decide)

end Cert.ReferenceIdeal.Hand

end
-- ==== Proof.Glue.lean ====
/-
  The host values of the kernel program are the host values of the reference.

  Both programs take the index vectors out of the edge table, aggregate over the edges, cut the layers' parameters out of
  the stacked arrays and pool over the graphs with the same operations on the same shapes; the two printed programs only
  name their shape and dimension records apart. Each pair below is one function.
-/
import proofs.«146653_j18459769438675_1_alg».proof.Proof.KHost
import proofs.«146653_j18459769438675_1_alg».proof.Proof.RefOps

noncomputable section

namespace Cert.Bridge

open Idealize.ShloMosaic

variable {F : FTy → Type} [FloatOps F]

theorem srcIdx_eq (ei : Cert.KernelIdeal.Hand.Arr F Cert.KernelIdeal.S2x800000 .i32) : Cert.KernelIdeal.Hand.srcIdx ei = Cert.ReferenceIdeal.Hand.srcIdx ei := rfl
theorem dstIdx_eq (ei : Cert.KernelIdeal.Hand.Arr F Cert.KernelIdeal.S2x800000 .i32) : Cert.KernelIdeal.Hand.dstIdx ei = Cert.ReferenceIdeal.Hand.dstIdx ei := rfl
theorem wrapIdx_eq (s : Cert.KernelIdeal.Hand.Arr F Cert.KernelIdeal.S800000 .i32) : Cert.KernelIdeal.Hand.wrapIdx s = Cert.ReferenceIdeal.Hand.normIdx s := rfl
theorem agg128_eq (x : Cert.KernelIdeal.Hand.Arr F Cert.KernelIdeal.S50000x128 .f32) (s d : Cert.KernelIdeal.Hand.Arr F Cert.KernelIdeal.S800000 .i32) :
    Cert.KernelIdeal.Hand.agg128 x s d = Cert.ReferenceIdeal.Hand.agg128 x s d := rfl
theorem agg256_eq (x : Cert.KernelIdeal.Hand.Arr F Cert.KernelIdeal.S50000x256 .f32) (s d : Cert.KernelIdeal.Hand.Arr F Cert.KernelIdeal.S800000 .i32) :
    Cert.KernelIdeal.Hand.agg256 x s d = Cert.ReferenceIdeal.Hand.agg256 x s d := rfl
theorem vrow0_eq (g : Cert.KernelIdeal.Hand.Arr F Cert.KernelIdeal.S3x256 .f32) : Cert.KernelIdeal.Hand.vrow0 g = Cert.ReferenceIdeal.Hand.vecRow0 g := rfl
theorem vrow1_eq (g : Cert.KernelIdeal.Hand.Arr F Cert.KernelIdeal.S3x256 .f32) : Cert.KernelIdeal.Hand.vrow1 g = Cert.ReferenceIdeal.Hand.vecRow1 g := rfl
theorem vrow2_eq (g : Cert.KernelIdeal.Hand.Arr F Cert.KernelIdeal.S3x256 .f32) : Cert.KernelIdeal.Hand.vrow2 g = Cert.ReferenceIdeal.Hand.vecRow2 g := rfl
theorem mrow0_eq (w : Cert.KernelIdeal.Hand.Arr F Cert.KernelIdeal.S3x256x256 .f32) : Cert.KernelIdeal.Hand.mrow0 w = Cert.ReferenceIdeal.Hand.matRow0 w := rfl
theorem mrow1_eq (w : Cert.KernelIdeal.Hand.Arr F Cert.KernelIdeal.S3x256x256 .f32) : Cert.KernelIdeal.Hand.mrow1 w = Cert.ReferenceIdeal.Hand.matRow1 w := rfl
theorem mrow2_eq (w : Cert.KernelIdeal.Hand.Arr F Cert.KernelIdeal.S3x256x256 .f32) : Cert.KernelIdeal.Hand.mrow2 w = Cert.ReferenceIdeal.Hand.matRow2 w := rfl
theorem pool_eq (x : Cert.KernelIdeal.Hand.Arr F Cert.KernelIdeal.S50000x256 .f32) (b : Cert.KernelIdeal.Hand.Arr F Cert.KernelIdeal.S50000 .i32) : Cert.KernelIdeal.Hand.pool x b = Cert.ReferenceIdeal.Hand.pool x b := rfl

end Cert.Bridge

end
-- ==== Proof.LibKeepdims.lean ====
/-
  A reduction along the last axis of an `[a, b]` array that keeps its dimension (`keepdims=True`): the `[a]` result is
  re-laid as a column `[a, 1]` and the column is spread back over the `b` lanes of every row. Read at an index, the
  column at `(i, u)` is the vector at `i`, the spread column at `(p, c)` is the column at `(p, 0)`, and the source
  index that a one-axis reduction along axis 1 visits for row `p` and coordinate `k` is `(p, k)`. Stated for any
  extents `a`, `b` and any element type.
-/
import Idealize.ShloMosaic.Lib.Pipeline.Value
import Idealize.ShloMosaic.Lib.ValueIdx
import Idealize.ShloMosaic.PureOps.Reduce

namespace Cert.Lib.Keepdims

open Idealize.ShloMosaic Idealize.ShloMosaic.ValueIdx

variable {α : Type}

/-- An `[a]` vector cast to the column `[a, 1]` reads, at `(i, u)`, the vector at `i`, whatever the unit coordinate `u`:
    both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector re-laid as a column and spread over the lanes reads, at `(p, c)`, the vector at `p`. -/
theorem column_spread_apply {a b : ℕ} (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

/-- A one-axis reduction of `[a, b]` along axis 1 visits, for row `p` and coordinate `k` of the reduced axis, the
    source index `(p, k)`. -/
theorem lift_axis1 {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

end Cert.Lib.Keepdims
-- ==== Proof.LibMlpAt.lean ====
/-
  The two-layer perceptron with rectifiers, read at one entry.

  For matrices x : [N, K], wa : [K, D], wb : [D, D] and one-row biases ba, bb : [1, D] the value at (r, q) is
      max (∑ j, max (∑ i, x[r,i] · wa[i,j] + ba[0,j]) 0 · wb[j,q] + bb[0,q]) 0
  on the extended reals. Two spellings of that function occur: the host's (two `dot_general`s, the biases broadcast
  along the rows, the rectifier a maximum with a broadcast zero) and a tile's (two matrix products into a zero
  accumulator with the operands narrowed to bf16 first, the biases broadcast as vectors). At the ideal values a change of
  format is the identity and both products are plain sums over the contracted coordinate, so each spelling reads the
  formula above at every entry; nothing here needs the entries to be finite.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Mlp

open Idealize.ShloMosaic Idealize.ShloMosaic.ValueIdx

/-! ## A plain matrix product's dimension numbers, and its sum -/

/-- The dimension numbers of a plain product [m, k] × [k, n] → [m, n]: contract the left operand's axis 1 with the
    right operand's axis 0. -/
abbrev D2 {m k n : Nat} (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

variable {m k n : Nat}

/-- The left operand's index at output (a, b) and contracted coordinate c is (a, c). -/
theorem lhsIdx_D2 (w : DotDims.WF ⟨2, ![m, k]⟩ ⟨2, ![k, n]⟩ ⟨2, ![m, n]⟩ [1] [0] [0] [1] [] []) (a : Fin m) (b : Fin n) (c : Fin k) :
    (D2 w).lhsIdx (ix2 a b) ((contrEquiv1 (D2 w) k rfl rfl).symm c) = ix2 a c := by
  have c2 := contrEquiv1_symm_val (D2 w) k rfl rfl c
  funext ax; apply Fin.ext
  match ax with
  | ⟨0, _⟩ => simp [DotDims.lhsIdx]; rfl
  | ⟨1, _⟩ => simp [DotDims.lhsIdx]; exact c2

/-- The right operand's index at output (a, b) and contracted coordinate c is (c, b). -/
theorem rhsIdx_D2 (w : DotDims.WF ⟨2, ![m, k]⟩ ⟨2, ![k, n]⟩ ⟨2, ![m, n]⟩ [1] [0] [0] [1] [] []) (a : Fin m) (b : Fin n) (c : Fin k) :
    (D2 w).rhsIdx (ix2 a b) ((contrEquiv1 (D2 w) k rfl rfl).symm c) = ix2 c b := by
  have c2 := contrEquiv1_symm_val (D2 w) k rfl rfl c
  funext ax; apply Fin.ext
  match ax with
  | ⟨0, _⟩ => simp [DotDims.rhsIdx]; exact c2
  | ⟨1, _⟩ => simp [DotDims.rhsIdx]; rfl

/-- The host's product at (a, b): the sum over the contracted coordinate of the entries' products. -/
theorem dotGeneral_at {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (D2 w) prec A B (ix2 a b) = ∑ c : Fin k, A (ix2 a c) * B (ix2 c b) := by
  show FloatOps.dotGeneral _ prec _ A B (ix2 a b) = _
  rw [Ideal.dotGeneral_apply, ← Equiv.sum_comp (contrEquiv1 (D2 w) k rfl rfl).symm]
  refine Finset.sum_congr rfl fun c _ => ?_
  rw [lhsIdx_D2, rhsIdx_D2]

/-- A tile's product into a zero accumulator at (a, b): the same sum. -/
theorem matmul_zero_at {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (D2 w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (D2 w) k rfl rfl).symm]
  refine Finset.sum_congr rfl fun c _ => ?_
  rw [lhsIdx_D2, rhsIdx_D2]

/-! ## Broadcasts of a one-row bias and of a scalar, at an entry -/

/-- A [1, D] row broadcast along the rows of [N, D] reads, at (r, q), the row at q. -/
theorem bcastRow_at {N D : Nat} {α : Type} (h : (⟨2, ![1, D]⟩ : Shape).BroadcastsInDim ⟨2, ![N, D]⟩ (![0, 1] : Fin 2 → Fin 2))
    (v : (⟨2, ![1, D]⟩ : Shape).Idx → α) (r : Fin N) (q : Fin D) :
    broadcastInDim ⟨2, ![N, D]⟩ (![0, 1] : Fin 2 → Fin 2) h v (ix2 r q) = v (ix2 (0 : Fin 1) q) := by
  refine broadcastInDim_apply _ h v (ix2 r q) (ix2 (0 : Fin 1) q) fun ax => ?_
  match ax with
  | ⟨0, _⟩ => rfl
  | ⟨1, _⟩ =>
    show q.val = if D = 1 then 0 else q.val
    split
    · have := q.isLt; omega
    · rfl

/-- A scalar broadcast to [N, D] reads the scalar everywhere. -/
theorem bcastScalar_at {N D : Nat} {α : Type} (h : (⟨0, ![]⟩ : Shape).BroadcastsInDim ⟨2, ![N, D]⟩ (![] : Fin 0 → Fin 2))
    (v : (⟨0, ![]⟩ : Shape).Idx → α) (i : (⟨2, ![N, D]⟩ : Shape).Idx) :
    broadcastInDim ⟨2, ![N, D]⟩ (![] : Fin 0 → Fin 2) h v i = v ix0 :=
  broadcastInDim_apply _ h v i ix0 fun ax => ax.elim0

/-- A [D] vector viewed as its one row [1, D] is the vector broadcast along a new leading unit axis: both read the
    vector's entry i at (0, i). -/
theorem rowCast_eq_bcast {D : Nat} {α : Type} (x : (⟨1, ![D]⟩ : Shape).Idx → α) (h : (⟨1, ![D]⟩ : Shape).ShapeCasts ⟨2, ![1, D]⟩)
    (h' : (⟨1, ![D]⟩ : Shape).BroadcastsInDim ⟨2, ![1, D]⟩ (![1] : Fin 1 → Fin 2)) :
    shapeCast ⟨2, ![1, D]⟩ x h = broadcastInDim ⟨2, ![1, D]⟩ (![1] : Fin 1 → Fin 2) h' x := by
  funext j
  obtain ⟨u, i, rfl⟩ : ∃ (u : Fin 1) (i : Fin D), j = ix2 u i := ⟨j 0, j 1, eq_ix2 j⟩
  rw [shapeCast_a_1a_apply]
  refine (broadcastInDim_apply _ h' x (ix2 u i) (ix1 i) fun ax => ?_).symm
  match ax with
  | ⟨0, _⟩ =>
    show i.val = if D = 1 then 0 else i.val
    split
    · have := i.isLt; omega
    · rfl

/-! ## The perceptron at an entry -/

/-- The value at (r, q): the second layer's rectified affine map of the first layer's. -/
def mlpVal {N K D : Nat} (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (r : Fin N) (q : Fin D) : Ideal .f32 :=
  max ((∑ j : Fin D, max ((∑ i : Fin K, x (ix2 r i) * wa (ix2 i j)) + ba (ix2 (0 : Fin 1) j)) (Ideal.ofBits .f32 0x00000000#32) * wb (ix2 j q))
    + bb (ix2 (0 : Fin 1) q)) (Ideal.ofBits .f32 0x00000000#32)

/-- The value at row r depends only on row r of x: two inputs with equal rows give equal values. -/
theorem mlpVal_congr_row {N N' K D : Nat} (x : FVec Ideal ⟨2, ![N, K]⟩ .f32) (x' : FVec Ideal ⟨2, ![N', K]⟩ .f32)
    (wa : FVec Ideal ⟨2, ![K, D]⟩ .f32) (ba : FVec Ideal ⟨2, ![1, D]⟩ .f32) (wb : FVec Ideal ⟨2, ![D, D]⟩ .f32) (bb : FVec Ideal ⟨2, ![1, D]⟩ .f32)
    (r : Fin N) (r' : Fin N') (hrow : ∀ i : Fin K, x (ix2 r i) = x' (ix2 r' i)) (q : Fin D) :
    mlpVal x wa ba wb bb r q = mlpVal x' wa ba wb bb r' q := by
  unfold mlpVal
  simp only [hrow]

/-- The host's spelling: two `dot_general`s, the biases broadcast along the rows, each rectifier a maximum with a
    broadcast zero. -/
def mlpHost {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) : FVec Ideal ⟨2, ![N, D]⟩ .f32 :=
  maximumf (addf (Host.dotGeneral (D2 wB) none
      (maximumf (addf (Host.dotGeneral (D2 wA) none x wa) (broadcastInDim ⟨2, ![N, D]⟩ (![0, 1] : Fin 2 → Fin 2) hb ba))
        (broadcastInDim ⟨2, ![N, D]⟩ (![] : Fin 0 → Fin 2) hz (constant (F := Ideal) ⟨0, ![]⟩ .f32 0x00000000#32))) wb)
      (broadcastInDim ⟨2, ![N, D]⟩ (![0, 1] : Fin 2 → Fin 2) hb bb))
    (broadcastInDim ⟨2, ![N, D]⟩ (![] : Fin 0 → Fin 2) hz (constant (F := Ideal) ⟨0, ![]⟩ .f32 0x00000000#32))

theorem mlpHost_at {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (r : Fin N) (q : Fin D) :
    mlpHost wA wB hb hz x wa ba wb bb (ix2 r q) = mlpVal x wa ba wb bb r q := by
  unfold mlpHost mlpVal
  rw [maximumf_apply, addf_apply, dotGeneral_at, bcastRow_at, bcastScalar_at, constant_apply]
  refine congrArg (fun s => max (s + bb (ix2 (0 : Fin 1) q)) (Ideal.ofBits .f32 0x00000000#32)) ?_
  refine Finset.sum_congr rfl fun j _ => ?_
  rw [maximumf_apply, addf_apply, dotGeneral_at, bcastRow_at, bcastScalar_at, constant_apply]

/-- The host's spelling with the biases given as vectors [D], each made a row by a broadcast along a new unit axis. -/
def mlpHostV {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (hr : (⟨1, ![D]⟩ : Shape).BroadcastsInDim ⟨2, ![1, D]⟩ (![1] : Fin 1 → Fin 2))
    (x : FVec Ideal ⟨2, ![N, K]⟩ .f32) (wa : FVec Ideal ⟨2, ![K, D]⟩ .f32) (ba : FVec Ideal ⟨1, ![D]⟩ .f32)
    (wb : FVec Ideal ⟨2, ![D, D]⟩ .f32) (bb : FVec Ideal ⟨1, ![D]⟩ .f32) : FVec Ideal ⟨2, ![N, D]⟩ .f32 :=
  mlpHost wA wB hb hz x wa (broadcastInDim ⟨2, ![1, D]⟩ (![1] : Fin 1 → Fin 2) hr ba) wb
    (broadcastInDim ⟨2, ![1, D]⟩ (![1] : Fin 1 → Fin 2) hr bb)

/-- With the biases reshaped to one row instead: the same array. -/
theorem mlpHost_rowCast {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (hr : (⟨1, ![D]⟩ : Shape).BroadcastsInDim ⟨2, ![1, D]⟩ (![1] : Fin 1 → Fin 2))
    (hc : (⟨1, ![D]⟩ : Shape).ShapeCasts ⟨2, ![1, D]⟩)
    (x : FVec Ideal ⟨2, ![N, K]⟩ .f32) (wa : FVec Ideal ⟨2, ![K, D]⟩ .f32) (ba : FVec Ideal ⟨1, ![D]⟩ .f32)
    (wb : FVec Ideal ⟨2, ![D, D]⟩ .f32) (bb : FVec Ideal ⟨1, ![D]⟩ .f32) :
    mlpHost wA wB hb hz x wa (shapeCast ⟨2, ![1, D]⟩ ba hc) wb (shapeCast ⟨2, ![1, D]⟩ bb hc)
      = mlpHostV wA wB hb hz hr x wa ba wb bb := by
  unfold mlpHostV
  rw [rowCast_eq_bcast ba hc hr, rowCast_eq_bcast bb hc hr]

/-- A tile's spelling: the operands narrowed to bf16, two products into a zero accumulator, the biases broadcast as
    vectors, each rectifier a maximum with a splat zero. -/
def mlpTile {T K D : Nat} (wA : DotDims.WF ⟨2, ![T, K]⟩ ⟨2, ![K, D]⟩ ⟨2, ![T, D]⟩ [1] [0] [0] [1] [] [])
    (wB : DotDims.WF ⟨2, ![T, D]⟩ ⟨2, ![D, D]⟩ ⟨2, ![T, D]⟩ [1] [0] [0] [1] [] [])
    (hb : (⟨2, ![1, D]⟩ : Shape).Broadcasts ⟨2, ![T, D]⟩) (hlt : FTy.bf16.bits < FTy.f32.bits)
    (x : FVec Ideal ⟨2, ![T, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) : FVec Ideal ⟨2, ![T, D]⟩ .f32 :=
  maximumf (addf (matmul (D2 wB) none
      (truncf .bf16 (maximumf (addf (matmul (D2 wA) none (truncf .bf16 x hlt) (truncf .bf16 wa hlt) (constant ⟨2, ![T, D]⟩ .f32 0x00000000#32))
          (broadcastTo ⟨2, ![T, D]⟩ ba hb)) (broadcast ⟨2, ![T, D]⟩ (Scalar.ofBits (F := Ideal) .f32 0x00000000#32))) hlt)
      (truncf .bf16 wb hlt) (constant ⟨2, ![T, D]⟩ .f32 0x00000000#32))
      (broadcastTo ⟨2, ![T, D]⟩ bb hb))
    (broadcast ⟨2, ![T, D]⟩ (Scalar.ofBits (F := Ideal) .f32 0x00000000#32))

theorem mlpTile_at {T K D : Nat} (wA : DotDims.WF ⟨2, ![T, K]⟩ ⟨2, ![K, D]⟩ ⟨2, ![T, D]⟩ [1] [0] [0] [1] [] [])
    (wB : DotDims.WF ⟨2, ![T, D]⟩ ⟨2, ![D, D]⟩ ⟨2, ![T, D]⟩ [1] [0] [0] [1] [] [])
    (hb : (⟨2, ![1, D]⟩ : Shape).Broadcasts ⟨2, ![T, D]⟩) (hlt : FTy.bf16.bits < FTy.f32.bits)
    (x : FVec Ideal ⟨2, ![T, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (p : Fin T) (q : Fin D) :
    mlpTile wA wB hb hlt x wa ba wb bb (ix2 p q) = mlpVal x wa ba wb bb p q := by
  unfold mlpTile mlpVal
  rw [maximumf_apply, addf_apply, matmul_zero_at, broadcastTo_1b_ab_apply, broadcast_apply]
  refine congrArg (fun s => max (s + bb (ix2 (0 : Fin 1) q)) (Ideal.ofBits .f32 0x00000000#32)) ?_
  refine Finset.sum_congr rfl fun j _ => ?_
  rw [truncf_apply, truncf_apply, maximumf_apply, addf_apply, matmul_zero_at, broadcastTo_1b_ab_apply, broadcast_apply]
  refine congrArg (fun s => max (s + ba (ix2 (0 : Fin 1) j)) (Ideal.ofBits .f32 0x00000000#32) * wb (ix2 j q)) ?_
  refine Finset.sum_congr rfl fun i _ => ?_
  rw [truncf_apply, truncf_apply]

end Cert.Mlp

end
-- ==== Proof.LibLnAt.lean ====
/-
  Layer normalisation along the last axis, read at one entry.

  For a row o : Fin D → EReal, a scale row g and a shift row be, the normalised row at q is
      (o q − μ) · rsqrt (σ² + ε) · g q + be q,    μ = (∑ k, o k) / d,    σ² = (∑ k, (o k − μ)²) / d,
  with the divisor d and the offset ε given by their f32 words. Two spellings of that function occur. A tile's: the
  row sums taken by a reduction along axis 1 that keeps its dimension (the [T] result re-laid as a column [T, 1]
  and spread back over the lanes), the scale and shift given as one-row blocks [1, D]. The host's: the row sums by
  a reduce from a zero initial value, the mean taken once for the centring and once more inside the variance, the
  variance's divisor the word minus an integer count of zero and guarded by a comparison with zero, the scale and
  shift given as vectors [D] made rows by a broadcast. At the ideal values every operation is exact, so each
  spelling reads the formula above at every entry; the only facts used are that zero added to a sum, and zero
  subtracted from the divisor, change nothing, and (for the host's guard) that the divisor is positive. Nothing
  here needs the entries to be finite.
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import proofs.«146653_j18459769438675_1_alg».proof.Proof.LibKeepdims
import proofs.«146653_j18459769438675_1_alg».proof.Proof.LibMlpAt

noncomputable section

open scoped BigOperators

namespace Cert.Ln

open Idealize.ShloMosaic Idealize.ShloMosaic.ValueIdx Cert.Lib.Keepdims

/-! ## The value -/

/-- The mean of a row: its sum over the divisor. -/
def mean {D : Nat} (dw : BitVec 32) (o : Fin D → Ideal .f32) : Ideal .f32 :=
  Ideal.div (∑ k : Fin D, o k) (Ideal.ofBits .f32 dw)

/-- The (biased) variance of a row: the mean of the squared distances from the mean. -/
def var {D : Nat} (dw : BitVec 32) (o : Fin D → Ideal .f32) : Ideal .f32 :=
  Ideal.div (∑ k : Fin D, (o k - mean dw o) * (o k - mean dw o)) (Ideal.ofBits .f32 dw)

/-- The normalised row at q, scaled by g and shifted by be. -/
def lnVal {D : Nat} (dw ew : BitVec 32) (o g be : Fin D → Ideal .f32) (q : Fin D) : Ideal .f32 :=
  (o q - mean dw o) * Ideal.rsqrt (var dw o + Ideal.ofBits .f32 ew) * g q + be q

/-- The value depends only on the three rows. -/
theorem lnVal_congr {D : Nat} (dw ew : BitVec 32) {o o' g g' be be' : Fin D → Ideal .f32}
    (ho : ∀ k, o k = o' k) (hg : ∀ k, g k = g' k) (hbe : ∀ k, be k = be' k) (q : Fin D) :
    lnVal dw ew o g be q = lnVal dw ew o' g' be' q := by
  rw [funext ho, funext hg, funext hbe]

/-- The word of 256.0 is the real 256, which is positive. -/
theorem ofBits_256 : Ideal.ofBits .f32 0x43800000#32 = ((256 : ℝ) : EReal) := by
  simp [Ideal.ofBits, Ideal.ieee, -EReal.coe_mul]; norm_num

theorem ofBits_256_pos : (0 : EReal) < Ideal.ofBits .f32 0x43800000#32 := by
  rw [ofBits_256]; exact EReal.coe_pos.mpr (by norm_num)

/-! ## A tile's spelling -/

section Tile

variable {T D : Nat}

/-- A reduction of [T, D] along axis 1 at row p: the sum of the row. -/
theorem rowSum_at (hr : (⟨2, ![T, D]⟩ : Shape).Reduces [1] ⟨1, ![T]⟩) (hφ : FKind.Formats .f32)
    (hacc : (0x00000000#32 : BitVec 32) = FKind.add.neutral .f32 hφ) (v : FVec Ideal ⟨2, ![T, D]⟩ .f32) (p : Fin T) :
    multiReduction .add [1] ⟨1, ![T]⟩ v 0x00000000#32 hr hφ hacc (ix1 p) = ∑ k : Fin D, v (ix2 p k) := by
  refine (Ideal.multiReduction_add_single v _ hr hφ hacc (ix1 p)).trans ?_
  exact Finset.sum_congr rfl fun k _ => congrArg v (lift_axis1 hr p k)

/-- The reciprocal square root of a block, at an entry. -/
theorem rsqrt_at {s : Shape} {φ : FTy} (v : FVec Ideal s φ) (i : s.Idx) : rsqrt v i = Ideal.rsqrt (v i) := rfl

/-- The row means as a column [T, 1]: the row sums, re-laid as a column, over the splat divisor. -/
def tileMean (dw : BitVec 32) (hr : (⟨2, ![T, D]⟩ : Shape).Reduces [1] ⟨1, ![T]⟩)
    (hc : (⟨1, ![T]⟩ : Shape).ShapeCasts ⟨2, ![T, 1]⟩) (hφ : FKind.Formats .f32)
    (hacc : (0x00000000#32 : BitVec 32) = FKind.add.neutral .f32 hφ) (o : FVec Ideal ⟨2, ![T, D]⟩ .f32) :
    FVec Ideal ⟨2, ![T, 1]⟩ .f32 :=
  divf (shapeCast ⟨2, ![T, 1]⟩ (multiReduction .add [1] ⟨1, ![T]⟩ o 0x00000000#32 hr hφ hacc) hc)
    (broadcast ⟨2, ![T, 1]⟩ (Scalar.ofBits (F := Ideal) .f32 dw))

theorem tileMean_at (dw : BitVec 32) (hr : (⟨2, ![T, D]⟩ : Shape).Reduces [1] ⟨1, ![T]⟩)
    (hc : (⟨1, ![T]⟩ : Shape).ShapeCasts ⟨2, ![T, 1]⟩) (hφ : FKind.Formats .f32)
    (hacc : (0x00000000#32 : BitVec 32) = FKind.add.neutral .f32 hφ) (o : FVec Ideal ⟨2, ![T, D]⟩ .f32)
    (p : Fin T) (u : Fin 1) :
    tileMean dw hr hc hφ hacc o (ix2 p u) = Ideal.div (∑ k : Fin D, o (ix2 p k)) (Ideal.ofBits .f32 dw) := by
  unfold tileMean
  rw [divf_apply, shapeCast_a_a1_apply, rowSum_at, broadcast_apply]
  rfl

/-- The centred block: each entry minus its row's mean, the column of means spread over the lanes. -/
def tileCenter (dw : BitVec 32) (hr : (⟨2, ![T, D]⟩ : Shape).Reduces [1] ⟨1, ![T]⟩)
    (hc : (⟨1, ![T]⟩ : Shape).ShapeCasts ⟨2, ![T, 1]⟩) (hs : (⟨2, ![T, 1]⟩ : Shape).Broadcasts ⟨2, ![T, D]⟩)
    (hφ : FKind.Formats .f32) (hacc : (0x00000000#32 : BitVec 32) = FKind.add.neutral .f32 hφ)
    (o : FVec Ideal ⟨2, ![T, D]⟩ .f32) : FVec Ideal ⟨2, ![T, D]⟩ .f32 :=
  subf o (broadcastTo ⟨2, ![T, D]⟩ (tileMean dw hr hc hφ hacc o) hs)

theorem tileCenter_at (dw : BitVec 32) (hr : (⟨2, ![T, D]⟩ : Shape).Reduces [1] ⟨1, ![T]⟩)
    (hc : (⟨1, ![T]⟩ : Shape).ShapeCasts ⟨2, ![T, 1]⟩) (hs : (⟨2, ![T, 1]⟩ : Shape).Broadcasts ⟨2, ![T, D]⟩)
    (hφ : FKind.Formats .f32) (hacc : (0x00000000#32 : BitVec 32) = FKind.add.neutral .f32 hφ)
    (o : FVec Ideal ⟨2, ![T, D]⟩ .f32) (p : Fin T) (q : Fin D) :
    tileCenter dw hr hc hs hφ hacc o (ix2 p q) = o (ix2 p q) - mean dw (fun k => o (ix2 p k)) := by
  unfold tileCenter mean
  rw [subf_apply, broadcastTo_a1_ab_apply, tileMean_at]

/-- A tile's spelling: centre; the mean of the squares of the centred block plus the splat offset, its reciprocal
    square root spread over the lanes; the product scaled and shifted by the one-row blocks. -/
def lnTile (dw ew : BitVec 32) (hr : (⟨2, ![T, D]⟩ : Shape).Reduces [1] ⟨1, ![T]⟩)
    (hc : (⟨1, ![T]⟩ : Shape).ShapeCasts ⟨2, ![T, 1]⟩) (hs : (⟨2, ![T, 1]⟩ : Shape).Broadcasts ⟨2, ![T, D]⟩)
    (hb : (⟨2, ![1, D]⟩ : Shape).Broadcasts ⟨2, ![T, D]⟩)
    (hφ : FKind.Formats .f32) (hacc : (0x00000000#32 : BitVec 32) = FKind.add.neutral .f32 hφ)
    (o : FVec Ideal ⟨2, ![T, D]⟩ .f32) (g be : FVec Ideal ⟨2, ![1, D]⟩ .f32) : FVec Ideal ⟨2, ![T, D]⟩ .f32 :=
  addf (mulf (mulf (tileCenter dw hr hc hs hφ hacc o)
        (broadcastTo ⟨2, ![T, D]⟩
          (rsqrt (addf (tileMean dw hr hc hφ hacc (mulf (tileCenter dw hr hc hs hφ hacc o) (tileCenter dw hr hc hs hφ hacc o)))
            (broadcast ⟨2, ![T, 1]⟩ (Scalar.ofBits (F := Ideal) .f32 ew)))) hs))
      (broadcastTo ⟨2, ![T, D]⟩ g hb))
    (broadcastTo ⟨2, ![T, D]⟩ be hb)

theorem lnTile_at (dw ew : BitVec 32) (hr : (⟨2, ![T, D]⟩ : Shape).Reduces [1] ⟨1, ![T]⟩)
    (hc : (⟨1, ![T]⟩ : Shape).ShapeCasts ⟨2, ![T, 1]⟩) (hs : (⟨2, ![T, 1]⟩ : Shape).Broadcasts ⟨2, ![T, D]⟩)
    (hb : (⟨2, ![1, D]⟩ : Shape).Broadcasts ⟨2, ![T, D]⟩)
    (hφ : FKind.Formats .f32) (hacc : (0x00000000#32 : BitVec 32) = FKind.add.neutral .f32 hφ)
    (o : FVec Ideal ⟨2, ![T, D]⟩ .f32) (g be : FVec Ideal ⟨2, ![1, D]⟩ .f32) (p : Fin T) (q : Fin D) :
    lnTile dw ew hr hc hs hb hφ hacc o g be (ix2 p q)
      = lnVal dw ew (fun k => o (ix2 p k)) (fun k => g (ix2 (0 : Fin 1) k)) (fun k => be (ix2 (0 : Fin 1) k)) q := by
  unfold lnTile lnVal var
  rw [addf_apply, mulf_apply, mulf_apply, tileCenter_at, broadcastTo_a1_ab_apply, broadcastTo_1b_ab_apply,
    broadcastTo_1b_ab_apply, rsqrt_at, addf_apply, tileMean_at, broadcast_apply]
  refine congrArg (fun s => (o (ix2 p q) - mean dw (fun k => o (ix2 p k)))
    * Ideal.rsqrt (Ideal.div s (Ideal.ofBits .f32 dw) + Ideal.ofBits .f32 ew) * g (ix2 (0 : Fin 1) q) + be (ix2 (0 : Fin 1) q)) ?_
  refine Finset.sum_congr rfl fun k _ => ?_
  rw [mulf_apply, tileCenter_at]

end Tile

/-! ## The host's spelling -/

section Host

variable {N D : Nat}

/-- A vector [N] made a column [N, 1] reads, at (r, u), the vector at r. -/
theorem bcastCol_at {α : Type} (h : (⟨1, ![N]⟩ : Shape).BroadcastsInDim ⟨2, ![N, 1]⟩ (![0] : Fin 1 → Fin 2))
    (v : (⟨1, ![N]⟩ : Shape).Idx → α) (r : Fin N) (u : Fin 1) :
    broadcastInDim ⟨2, ![N, 1]⟩ (![0] : Fin 1 → Fin 2) h v (ix2 r u) = v (ix1 r) := by
  refine broadcastInDim_apply _ h v (ix2 r u) (ix1 r) fun ax => ?_
  match ax with
  | ⟨0, _⟩ =>
    show r.val = if N = 1 then 0 else r.val
    split
    · have := r.isLt; omega
    · rfl

/-- A column [N, 1] spread over the lanes of [N, D] reads, at (r, q), the column's entry of row r. -/
theorem bcastSpread_at {α : Type} (h : (⟨2, ![N, 1]⟩ : Shape).BroadcastsInDim ⟨2, ![N, D]⟩ (![0, 1] : Fin 2 → Fin 2))
    (v : (⟨2, ![N, 1]⟩ : Shape).Idx → α) (r : Fin N) (q : Fin D) :
    broadcastInDim ⟨2, ![N, D]⟩ (![0, 1] : Fin 2 → Fin 2) h v (ix2 r q) = v (ix2 r (0 : Fin 1)) := by
  refine broadcastInDim_apply _ h v (ix2 r q) (ix2 r (0 : Fin 1)) fun ax => ?_
  match ax with
  | ⟨0, _⟩ =>
    show r.val = if N = 1 then 0 else r.val
    split
    · have := r.isLt; omega
    · rfl
  | ⟨1, _⟩ => rfl

/-- A vector [D] made a row [1, D] reads, at (u, i), the vector at i. -/
theorem bcastVecRow_at {α : Type} (h : (⟨1, ![D]⟩ : Shape).BroadcastsInDim ⟨2, ![1, D]⟩ (![1] : Fin 1 → Fin 2))
    (v : (⟨1, ![D]⟩ : Shape).Idx → α) (u : Fin 1) (i : Fin D) :
    broadcastInDim ⟨2, ![1, D]⟩ (![1] : Fin 1 → Fin 2) h v (ix2 u i) = v (ix1 i) := by
  refine broadcastInDim_apply _ h v (ix2 u i) (ix1 i) fun ax => ?_
  match ax with
  | ⟨0, _⟩ =>
    show i.val = if D = 1 then 0 else i.val
    split
    · have := i.isLt; omega
    · rfl

/-- The host's reduce of [N, D] along axis 1 from a zero initial value, at row r: the sum of the row. -/
theorem hostRowSum_at (hR : (⟨2, ![N, D]⟩ : Shape).ReducesTo [1] ⟨1, ![N]⟩) (hr : (⟨2, ![N, D]⟩ : Shape).Reduces [1] ⟨1, ![N]⟩)
    (h0 : 0 < (⟨0, ![]⟩ : Shape).numel) (v : FVec Ideal ⟨2, ![N, D]⟩ .f32) (r : Fin N) :
    Host.reduceAdd v (constant (F := Ideal) ⟨0, ![]⟩ .f32 0x00000000#32) hR h0 (ix1 r) = ∑ k : Fin D, v (ix2 r k) := by
  rw [hostReduceAdd_apply]
  refine (Ideal.hostReduceAdd_single hR hr v _ (ix1 r)).trans ?_
  rw [constant_apply, Ideal.ofBits_zero_f32, zero_add]
  exact Finset.sum_congr rfl fun k _ => congrArg v (lift_axis1 hr r k)

/-- The host's row means as a column [N, 1]: the row sums, made a column, over the divisor broadcast from a scalar. -/
def hostMean (dw : BitVec 32) (hR : (⟨2, ![N, D]⟩ : Shape).ReducesTo [1] ⟨1, ![N]⟩) (h0 : 0 < (⟨0, ![]⟩ : Shape).numel)
    (hcol : (⟨1, ![N]⟩ : Shape).BroadcastsInDim ⟨2, ![N, 1]⟩ (![0] : Fin 1 → Fin 2))
    (hz1 : (⟨0, ![]⟩ : Shape).BroadcastsInDim ⟨2, ![N, 1]⟩ (![] : Fin 0 → Fin 2))
    (o : FVec Ideal ⟨2, ![N, D]⟩ .f32) : FVec Ideal ⟨2, ![N, 1]⟩ .f32 :=
  Host.divf (broadcastInDim ⟨2, ![N, 1]⟩ (![0] : Fin 1 → Fin 2) hcol
      (Host.reduceAdd o (constant (F := Ideal) ⟨0, ![]⟩ .f32 0x00000000#32) hR h0))
    (broadcastInDim ⟨2, ![N, 1]⟩ (![] : Fin 0 → Fin 2) hz1 (constant (F := Ideal) ⟨0, ![]⟩ .f32 dw))

theorem hostMean_at (dw : BitVec 32) (hR : (⟨2, ![N, D]⟩ : Shape).ReducesTo [1] ⟨1, ![N]⟩)
    (hr : (⟨2, ![N, D]⟩ : Shape).Reduces [1] ⟨1, ![N]⟩) (h0 : 0 < (⟨0, ![]⟩ : Shape).numel)
    (hcol : (⟨1, ![N]⟩ : Shape).BroadcastsInDim ⟨2, ![N, 1]⟩ (![0] : Fin 1 → Fin 2))
    (hz1 : (⟨0, ![]⟩ : Shape).BroadcastsInDim ⟨2, ![N, 1]⟩ (![] : Fin 0 → Fin 2))
    (o : FVec Ideal ⟨2, ![N, D]⟩ .f32) (r : Fin N) (u : Fin 1) :
    hostMean dw hR h0 hcol hz1 o (ix2 r u) = mean dw (fun k => o (ix2 r k)) := by
  unfold hostMean mean
  rw [hostDivf_apply, bcastCol_at, hostRowSum_at hR hr, Cert.Mlp.bcastScalar_at, constant_apply]

/-- The host's row variances as a column [N, 1]: the mean taken again, the squares of the centred array summed along
    the rows, over the divisor less the integer count c; kept where that divisor is positive, a fill word elsewhere. -/
def hostVar (dw : BitVec 32) (hR : (⟨2, ![N, D]⟩ : Shape).ReducesTo [1] ⟨1, ![N]⟩) (h0 : 0 < (⟨0, ![]⟩ : Shape).numel)
    (hcol : (⟨1, ![N]⟩ : Shape).BroadcastsInDim ⟨2, ![N, 1]⟩ (![0] : Fin 1 → Fin 2))
    (hz1 : (⟨0, ![]⟩ : Shape).BroadcastsInDim ⟨2, ![N, 1]⟩ (![] : Fin 0 → Fin 2))
    (hs : (⟨2, ![N, 1]⟩ : Shape).BroadcastsInDim ⟨2, ![N, D]⟩ (![0, 1] : Fin 2 → Fin 2))
    (o : FVec Ideal ⟨2, ![N, D]⟩ .f32) (c : IVec ⟨0, ![]⟩ 32) : FVec Ideal ⟨2, ![N, 1]⟩ .f32 :=
  select
    (broadcastInDim ⟨2, ![N, 1]⟩ (![] : Fin 0 → Fin 2) hz1
      (cmpf .ogt (subf (constant (F := Ideal) ⟨0, ![]⟩ .f32 dw) (sitofp .f32 c)) (constant (F := Ideal) ⟨0, ![]⟩ .f32 0x00000000#32)))
    (Host.divf
      (broadcastInDim ⟨2, ![N, 1]⟩ (![0] : Fin 1 → Fin 2) hcol
        (Host.reduceAdd
          (mulf (subf o (broadcastInDim ⟨2, ![N, D]⟩ (![0, 1] : Fin 2 → Fin 2) hs (hostMean dw hR h0 hcol hz1 o)))
            (subf o (broadcastInDim ⟨2, ![N, D]⟩ (![0, 1] : Fin 2 → Fin 2) hs (hostMean dw hR h0 hcol hz1 o))))
          (constant (F := Ideal) ⟨0, ![]⟩ .f32 0x00000000#32) hR h0))
      (broadcastInDim ⟨2, ![N, 1]⟩ (![] : Fin 0 → Fin 2) hz1
        (subf (constant (F := Ideal) ⟨0, ![]⟩ .f32 dw) (sitofp .f32 c))))
    (broadcastInDim ⟨2, ![N, 1]⟩ (![] : Fin 0 → Fin 2) hz1 (id (constant (F := Ideal) ⟨0, ![]⟩ .f32 0x7FC00000#32)))

/-- With a count of zero and a positive divisor the guard holds and the host's variance at row r is the row's. -/
theorem hostVar_at (dw : BitVec 32) (hd : (0 : EReal) < Ideal.ofBits .f32 dw)
    (hR : (⟨2, ![N, D]⟩ : Shape).ReducesTo [1] ⟨1, ![N]⟩)
    (hr : (⟨2, ![N, D]⟩ : Shape).Reduces [1] ⟨1, ![N]⟩) (h0 : 0 < (⟨0, ![]⟩ : Shape).numel)
    (hcol : (⟨1, ![N]⟩ : Shape).BroadcastsInDim ⟨2, ![N, 1]⟩ (![0] : Fin 1 → Fin 2))
    (hz1 : (⟨0, ![]⟩ : Shape).BroadcastsInDim ⟨2, ![N, 1]⟩ (![] : Fin 0 → Fin 2))
    (hs : (⟨2, ![N, 1]⟩ : Shape).BroadcastsInDim ⟨2, ![N, D]⟩ (![0, 1] : Fin 2 → Fin 2))
    (o : FVec Ideal ⟨2, ![N, D]⟩ .f32) (r : Fin N) (u : Fin 1) :
    hostVar dw hR h0 hcol hz1 hs o (constantI ⟨0, ![]⟩ 32 0#32) (ix2 r u) = var dw (fun k => o (ix2 r k)) := by
  have hn : (subf (constant (F := Ideal) ⟨0, ![]⟩ .f32 dw) (sitofp .f32 (constantI ⟨0, ![]⟩ 32 0#32)) : FVec Ideal ⟨0, ![]⟩ .f32) ix0
      = Ideal.ofBits .f32 dw := by
    rw [subf_apply, constant_apply, sitofp_apply, constantI_apply]
    show Ideal.ofBits .f32 dw - (((0#32 : BitVec 32).toInt : ℝ) : EReal) = _
    rw [BitVec.toInt_zero, Int.cast_zero, EReal.coe_zero, sub_zero]
  unfold hostVar var
  rw [select_apply, Cert.Mlp.bcastScalar_at, cmpf_apply, hn, constant_apply, Ideal.ofBits_zero_f32]
  have hg : FloatOps.cmpf (F := Ideal) (φ := .f32) .ogt (Ideal.ofBits .f32 dw) 0 = 1 := by
    show Ideal.cmp .ogt (Ideal.ofBits .f32 dw) 0 = 1
    unfold Ideal.cmp
    simp [hd]
  rw [hg]
  show (Host.divf _ _ : FVec Ideal ⟨2, ![N, 1]⟩ .f32) (ix2 r u) = _
  rw [hostDivf_apply, bcastCol_at, hostRowSum_at hR hr, Cert.Mlp.bcastScalar_at, hn]
  refine congrArg (fun s => Ideal.div s (Ideal.ofBits .f32 dw)) ?_
  refine Finset.sum_congr rfl fun k _ => ?_
  rw [mulf_apply, subf_apply, bcastSpread_at, hostMean_at dw hR hr]

/-- The host's spelling: centre by the means; the variances (count zero) plus the offset broadcast from a scalar, their
    reciprocal square roots spread over the lanes; the product scaled and shifted by the vectors made rows and spread
    along the rows. -/
def lnHost (dw ew : BitVec 32) (hR : (⟨2, ![N, D]⟩ : Shape).ReducesTo [1] ⟨1, ![N]⟩) (h0 : 0 < (⟨0, ![]⟩ : Shape).numel)
    (hcol : (⟨1, ![N]⟩ : Shape).BroadcastsInDim ⟨2, ![N, 1]⟩ (![0] : Fin 1 → Fin 2))
    (hz1 : (⟨0, ![]⟩ : Shape).BroadcastsInDim ⟨2, ![N, 1]⟩ (![] : Fin 0 → Fin 2))
    (hs : (⟨2, ![N, 1]⟩ : Shape).BroadcastsInDim ⟨2, ![N, D]⟩ (![0, 1] : Fin 2 → Fin 2))
    (hb : (⟨2, ![1, D]⟩ : Shape).BroadcastsInDim ⟨2, ![N, D]⟩ (![0, 1] : Fin 2 → Fin 2))
    (hv : (⟨1, ![D]⟩ : Shape).BroadcastsInDim ⟨2, ![1, D]⟩ (![1] : Fin 1 → Fin 2))
    (o : FVec Ideal ⟨2, ![N, D]⟩ .f32) (g be : FVec Ideal ⟨1, ![D]⟩ .f32) : FVec Ideal ⟨2, ![N, D]⟩ .f32 :=
  addf (mulf (mulf (subf o (broadcastInDim ⟨2, ![N, D]⟩ (![0, 1] : Fin 2 → Fin 2) hs (hostMean dw hR h0 hcol hz1 o)))
        (broadcastInDim ⟨2, ![N, D]⟩ (![0, 1] : Fin 2 → Fin 2) hs
          (Host.rsqrt (addf (hostVar dw hR h0 hcol hz1 hs o (constantI ⟨0, ![]⟩ 32 0#32))
            (broadcastInDim ⟨2, ![N, 1]⟩ (![] : Fin 0 → Fin 2) hz1 (constant (F := Ideal) ⟨0, ![]⟩ .f32 ew))))))
      (broadcastInDim ⟨2, ![N, D]⟩ (![0, 1] : Fin 2 → Fin 2) hb (broadcastInDim ⟨2, ![1, D]⟩ (![1] : Fin 1 → Fin 2) hv g)))
    (broadcastInDim ⟨2, ![N, D]⟩ (![0, 1] : Fin 2 → Fin 2) hb (broadcastInDim ⟨2, ![1, D]⟩ (![1] : Fin 1 → Fin 2) hv be))

theorem lnHost_at (dw ew : BitVec 32) (hd : (0 : EReal) < Ideal.ofBits .f32 dw)
    (hR : (⟨2, ![N, D]⟩ : Shape).ReducesTo [1] ⟨1, ![N]⟩)
    (hr : (⟨2, ![N, D]⟩ : Shape).Reduces [1] ⟨1, ![N]⟩) (h0 : 0 < (⟨0, ![]⟩ : Shape).numel)
    (hcol : (⟨1, ![N]⟩ : Shape).BroadcastsInDim ⟨2, ![N, 1]⟩ (![0] : Fin 1 → Fin 2))
    (hz1 : (⟨0, ![]⟩ : Shape).BroadcastsInDim ⟨2, ![N, 1]⟩ (![] : Fin 0 → Fin 2))
    (hs : (⟨2, ![N, 1]⟩ : Shape).BroadcastsInDim ⟨2, ![N, D]⟩ (![0, 1] : Fin 2 → Fin 2))
    (hb : (⟨2, ![1, D]⟩ : Shape).BroadcastsInDim ⟨2, ![N, D]⟩ (![0, 1] : Fin 2 → Fin 2))
    (hv : (⟨1, ![D]⟩ : Shape).BroadcastsInDim ⟨2, ![1, D]⟩ (![1] : Fin 1 → Fin 2))
    (o : FVec Ideal ⟨2, ![N, D]⟩ .f32) (g be : FVec Ideal ⟨1, ![D]⟩ .f32) (r : Fin N) (q : Fin D) :
    lnHost dw ew hR h0 hcol hz1 hs hb hv o g be (ix2 r q)
      = lnVal dw ew (fun k => o (ix2 r k)) (fun k => g (ix1 k)) (fun k => be (ix1 k)) q := by
  unfold lnHost lnVal
  rw [addf_apply, mulf_apply, mulf_apply, subf_apply, bcastSpread_at, hostMean_at dw hR hr, bcastSpread_at,
    Cert.Mlp.bcastRow_at, Cert.Mlp.bcastRow_at, bcastVecRow_at, bcastVecRow_at]
  show _ * FloatOps.hostUnary (F := Ideal) (φ := .f32) .rsqrt (_ + _) * _ + _ = _
  rw [Ideal.hostUnary_rsqrt_def, hostVar_at dw hd hR hr, Cert.Mlp.bcastScalar_at, constant_apply]

end Host

end Cert.Ln

end
-- ==== Proof.KPayLN.lean ====
/-
  The three layer-norm regions' output blocks, read at an entry.

  Each region's body loads its seven whole blocks, runs the two-layer perceptron with rectifiers on the first five and
  normalises each row of the result along its 256 lanes (divisor 256, offset the word 0x3727C5AC), scaled and shifted by
  the last two one-row blocks, and stores the whole block. Every rectangle is the whole block, so the stored block is
  the payload of the loaded blocks themselves; the payload is, operation for operation, the tile spelling of the layer
  normalisation applied to the tile spelling of the perceptron, so its entry (p, q) is the normalised row p of the
  perceptron's values at q.
-/
import proofs.«146653_j18459769438675_1_alg».proof.Proof.Gen.KernelIdeal.Frame
import proofs.«146653_j18459769438675_1_alg».proof.Proof.LibLnAt

noncomputable section

namespace Cert.KernelIdeal.Hand

open Idealize.ShloMosaic Idealize.ShloMosaic.ValueIdx Cert.KernelIdeal Cert.KernelIdeal.Gen

/-- The origin of a rank-2 block. -/
theorem hz : (![0, 0] : Fin 2 → Nat) = fun _ => 0 := funext fun a => by fin_cases a <;> rfl

/-! ## Region 0: a [2000, 128] input -/

/-- Region 0's payload is the tile layer normalisation of the tile perceptron. -/
theorem pay0_eq (x0 : Vec Ideal S2000x128 .f32) (x1 : Vec Ideal S128x256 .f32) (x2 : Vec Ideal S1x256 .f32)
    (x3 : Vec Ideal S256x256 .f32) (x4 x5 x6 : Vec Ideal S1x256 .f32) :
    k0_pay1 (F := Ideal) (k0_pay2 x0 x1 x2 x3 x4) x5 x6
      = Cert.Ln.lnTile 0x43800000#32 0x3727C5AC#32 reduces_S2000x256_S2000 shapeCasts_S2000_S2000x1
          broadcasts_S2000x1_S2000x256 broadcasts_S1x256_S2000x256 (.inl rfl) rfl
          (Cert.Mlp.mlpTile dot_S2000x128_S128x256_S2000x256_1_0_0_1_n_n_wf dot_S2000x256_S256x256_S2000x256_1_0_0_1_n_n_wf
            broadcasts_S1x256_S2000x256 bitsLt_bf16_f32 x0 x1 x2 x3 x4) x5 x6 := by
  unfold k0_pay1 k0_pay2
  simp only [shapeCast_self]
  rfl

/-- Region 0's output block at (p, q): row p of the perceptron's values, normalised, at q. -/
theorem out0_7_at (x0 : Vec Ideal S2000x128 .f32) (x1 : Vec Ideal S128x256 .f32) (x2 : Vec Ideal S1x256 .f32)
    (x3 : Vec Ideal S256x256 .f32) (x4 x5 x6 : Vec Ideal S1x256 .f32) (p : Fin 2000) (q : Fin 256) :
    out0_7 (F := Ideal) x0 x1 x2 x3 x4 x5 x6 (ix2 p q)
      = Cert.Ln.lnVal 0x43800000#32 0x3727C5AC#32 (fun k => Cert.Mlp.mlpVal x0 x1 x2 x3 x4 p k)
          (fun k => x5 (ix2 (0 : Fin 1) k)) (fun k => x6 (ix2 (0 : Fin 1) k)) q := by
  unfold out0_7
  rw [View.canon_unit_zero hz]
  simp only [View.ld_unit_zero (S := S2000x128) hz, View.ld_unit_zero (S := S128x256) hz,
    View.ld_unit_zero (S := S1x256) hz, View.ld_unit_zero (S := S256x256) hz]
  rw [pay0_eq]
  refine (Cert.Ln.lnTile_at (T := 2000) (D := 256) 0x43800000#32 0x3727C5AC#32 reduces_S2000x256_S2000 shapeCasts_S2000_S2000x1
    broadcasts_S2000x1_S2000x256 broadcasts_S1x256_S2000x256 (.inl rfl) rfl _ x5 x6 p q).trans ?_
  exact Cert.Ln.lnVal_congr _ _ (fun k => Cert.Mlp.mlpTile_at _ _ _ _ x0 x1 x2 x3 x4 p k) (fun _ => rfl) (fun _ => rfl) q

/-! ## Region 1: a [2000, 256] input -/

/-- Region 1's payload is the tile layer normalisation of the tile perceptron. -/
theorem pay1_eq (x0 : Vec Ideal S2000x256 .f32) (x1 : Vec Ideal S256x256 .f32) (x2 : Vec Ideal S1x256 .f32)
    (x3 : Vec Ideal S256x256 .f32) (x4 x5 x6 : Vec Ideal S1x256 .f32) :
    k1_pay1 (F := Ideal) (k1_pay2 x0 x1 x2 x3 x4) x5 x6
      = Cert.Ln.lnTile 0x43800000#32 0x3727C5AC#32 reduces_S2000x256_S2000 shapeCasts_S2000_S2000x1
          broadcasts_S2000x1_S2000x256 broadcasts_S1x256_S2000x256 (.inl rfl) rfl
          (Cert.Mlp.mlpTile dot_S2000x256_S256x256_S2000x256_1_0_0_1_n_n_wf dot_S2000x256_S256x256_S2000x256_1_0_0_1_n_n_wf
            broadcasts_S1x256_S2000x256 bitsLt_bf16_f32 x0 x1 x2 x3 x4) x5 x6 := by
  unfold k1_pay1 k1_pay2
  simp only [shapeCast_self]
  rfl

/-- Region 1's output block at (p, q): row p of the perceptron's values, normalised, at q. -/
theorem out1_7_at (x0 : Vec Ideal S2000x256 .f32) (x1 : Vec Ideal S256x256 .f32) (x2 : Vec Ideal S1x256 .f32)
    (x3 : Vec Ideal S256x256 .f32) (x4 x5 x6 : Vec Ideal S1x256 .f32) (p : Fin 2000) (q : Fin 256) :
    out1_7 (F := Ideal) x0 x1 x2 x3 x4 x5 x6 (ix2 p q)
      = Cert.Ln.lnVal 0x43800000#32 0x3727C5AC#32 (fun k => Cert.Mlp.mlpVal x0 x1 x2 x3 x4 p k)
          (fun k => x5 (ix2 (0 : Fin 1) k)) (fun k => x6 (ix2 (0 : Fin 1) k)) q := by
  unfold out1_7
  rw [View.canon_unit_zero hz]
  simp only [View.ld_unit_zero (S := S2000x256) hz, View.ld_unit_zero (S := S256x256) hz,
    View.ld_unit_zero (S := S1x256) hz]
  rw [pay1_eq]
  refine (Cert.Ln.lnTile_at (T := 2000) (D := 256) 0x43800000#32 0x3727C5AC#32 reduces_S2000x256_S2000 shapeCasts_S2000_S2000x1
    broadcasts_S2000x1_S2000x256 broadcasts_S1x256_S2000x256 (.inl rfl) rfl _ x5 x6 p q).trans ?_
  exact Cert.Ln.lnVal_congr _ _ (fun k => Cert.Mlp.mlpTile_at _ _ _ _ x0 x1 x2 x3 x4 p k) (fun _ => rfl) (fun _ => rfl) q

/-! ## Region 2: a [2000, 256] input -/

/-- Region 2's payload is the tile layer normalisation of the tile perceptron. -/
theorem pay2_eq (x0 : Vec Ideal S2000x256 .f32) (x1 : Vec Ideal S256x256 .f32) (x2 : Vec Ideal S1x256 .f32)
    (x3 : Vec Ideal S256x256 .f32) (x4 x5 x6 : Vec Ideal S1x256 .f32) :
    k2_pay1 (F := Ideal) (k2_pay2 x0 x1 x2 x3 x4) x5 x6
      = Cert.Ln.lnTile 0x43800000#32 0x3727C5AC#32 reduces_S2000x256_S2000 shapeCasts_S2000_S2000x1
          broadcasts_S2000x1_S2000x256 broadcasts_S1x256_S2000x256 (.inl rfl) rfl
          (Cert.Mlp.mlpTile dot_S2000x256_S256x256_S2000x256_1_0_0_1_n_n_wf dot_S2000x256_S256x256_S2000x256_1_0_0_1_n_n_wf
            broadcasts_S1x256_S2000x256 bitsLt_bf16_f32 x0 x1 x2 x3 x4) x5 x6 := by
  unfold k2_pay1 k2_pay2
  simp only [shapeCast_self]
  rfl

/-- Region 2's output block at (p, q): row p of the perceptron's values, normalised, at q. -/
theorem out2_7_at (x0 : Vec Ideal S2000x256 .f32) (x1 : Vec Ideal S256x256 .f32) (x2 : Vec Ideal S1x256 .f32)
    (x3 : Vec Ideal S256x256 .f32) (x4 x5 x6 : Vec Ideal S1x256 .f32) (p : Fin 2000) (q : Fin 256) :
    out2_7 (F := Ideal) x0 x1 x2 x3 x4 x5 x6 (ix2 p q)
      = Cert.Ln.lnVal 0x43800000#32 0x3727C5AC#32 (fun k => Cert.Mlp.mlpVal x0 x1 x2 x3 x4 p k)
          (fun k => x5 (ix2 (0 : Fin 1) k)) (fun k => x6 (ix2 (0 : Fin 1) k)) q := by
  unfold out2_7
  rw [View.canon_unit_zero hz]
  simp only [View.ld_unit_zero (S := S2000x256) hz, View.ld_unit_zero (S := S256x256) hz,
    View.ld_unit_zero (S := S1x256) hz]
  rw [pay2_eq]
  refine (Cert.Ln.lnTile_at (T := 2000) (D := 256) 0x43800000#32 0x3727C5AC#32 reduces_S2000x256_S2000 shapeCasts_S2000_S2000x1
    broadcasts_S2000x1_S2000x256 broadcasts_S1x256_S2000x256 (.inl rfl) rfl _ x5 x6 p q).trans ?_
  exact Cert.Ln.lnVal_congr _ _ (fun k => Cert.Mlp.mlpTile_at _ _ _ _ x0 x1 x2 x3 x4 p k) (fun _ => rfl) (fun _ => rfl) q

end Cert.KernelIdeal.Hand

end
-- ==== Proof.LibHeadAt.lean ====
/-
  A regression head — one rectified layer, then an affine map — read at one entry.

  For matrices x : [N, K], wa : [K, H], wb : [H, O] and bias rows ba (H entries), bb (O entries) the value at (r, q) is
      ∑ j, max (∑ i, x[r,i] · wa[i,j] + ba[j]) 0 · wb[j,q] + bb[q]
  on the extended reals: there is no rectifier after the second layer. Two spellings of that function occur: a tile's
  (two matrix products into a zero accumulator with the operands narrowed to bf16 first, the biases one-row arrays
  [1, H], [1, O] broadcast as vectors, the rectifier a maximum with a splat zero) and the host's (two `dot_general`s, the
  biases vectors [H], [O] each made a row along a new unit axis and then broadcast along the rows, the rectifier a
  maximum with a broadcast zero). At the ideal values a change of format is the identity and both products are plain
  sums over the contracted coordinate, so each spelling reads the formula above at every entry; nothing here needs the
  entries to be finite.
-/
import Idealize.ShloMosaic.Lib.ValueIdx
import Idealize.ShloMosaic.Lib.ValueLayout
import Idealize.ShloMosaic.Lib.Pipeline.Value
import Idealize.ShloMosaic.PureOps.Ideal.Laws
import proofs.«146653_j18459769438675_1_alg».proof.Proof.LibMlpAt

noncomputable section

open scoped BigOperators

namespace Cert.Head

open Idealize.ShloMosaic Idealize.ShloMosaic.ValueIdx Cert.Mlp

/-! ## A vector made a row, at an entry -/

/-- A [D] vector broadcast along a new leading unit axis reads, at (u, i), the vector at i. -/
theorem bcastVec_at {D : Nat} {α : Type} (h : (⟨1, ![D]⟩ : Shape).BroadcastsInDim ⟨2, ![1, D]⟩ (![1] : Fin 1 → Fin 2))
    (x : (⟨1, ![D]⟩ : Shape).Idx → α) (u : Fin 1) (i : Fin D) :
    broadcastInDim ⟨2, ![1, D]⟩ (![1] : Fin 1 → Fin 2) h x (ix2 u i) = x (ix1 i) := by
  refine broadcastInDim_apply _ h x (ix2 u i) (ix1 i) fun ax => ?_
  match ax with
  | ⟨0, _⟩ =>
    show i.val = if D = 1 then 0 else i.val
    split
    · have := i.isLt; omega
    · rfl

/-! ## The head at an entry -/

/-- The value at (r, q): the second layer's affine map of the first layer's rectified affine map. The biases are
    given as functions of the column, so that a one-row array and a vector both fit. -/
def headVal {N K H O : Nat} (x : FVec Ideal ⟨2, ![N, K]⟩ .f32) (wa : FVec Ideal ⟨2, ![K, H]⟩ .f32) (ba : Fin H → Ideal .f32)
    (wb : FVec Ideal ⟨2, ![H, O]⟩ .f32) (bb : Fin O → Ideal .f32) (r : Fin N) (q : Fin O) : Ideal .f32 :=
  (∑ j : Fin H, max ((∑ i : Fin K, x (ix2 r i) * wa (ix2 i j)) + ba j) (Ideal.ofBits .f32 0x00000000#32) * wb (ix2 j q)) + bb q

/-- The value at row r depends only on row r of x: two inputs with equal rows give equal values. -/
theorem headVal_congr_row {N N' K H O : Nat} (x : FVec Ideal ⟨2, ![N, K]⟩ .f32) (x' : FVec Ideal ⟨2, ![N', K]⟩ .f32)
    (wa : FVec Ideal ⟨2, ![K, H]⟩ .f32) (ba : Fin H → Ideal .f32) (wb : FVec Ideal ⟨2, ![H, O]⟩ .f32) (bb : Fin O → Ideal .f32)
    (r : Fin N) (r' : Fin N') (hrow : ∀ i : Fin K, x (ix2 r i) = x' (ix2 r' i)) (q : Fin O) :
    headVal x wa ba wb bb r q = headVal x' wa ba wb bb r' q := by
  unfold headVal
  simp only [hrow]

/-- A tile's spelling: the operands narrowed to bf16, two products into a zero accumulator, the biases one-row arrays
    broadcast as vectors, the one rectifier a maximum with a splat zero. -/
def headTile {T K H O : Nat} (wA : DotDims.WF ⟨2, ![T, K]⟩ ⟨2, ![K, H]⟩ ⟨2, ![T, H]⟩ [1] [0] [0] [1] [] [])
    (wB : DotDims.WF ⟨2, ![T, H]⟩ ⟨2, ![H, O]⟩ ⟨2, ![T, O]⟩ [1] [0] [0] [1] [] [])
    (hba : (⟨2, ![1, H]⟩ : Shape).Broadcasts ⟨2, ![T, H]⟩) (hbb : (⟨2, ![1, O]⟩ : Shape).Broadcasts ⟨2, ![T, O]⟩)
    (hlt : FTy.bf16.bits < FTy.f32.bits)
    (x : FVec Ideal ⟨2, ![T, K]⟩ .f32) (wa : FVec Ideal ⟨2, ![K, H]⟩ .f32) (ba : FVec Ideal ⟨2, ![1, H]⟩ .f32)
    (wb : FVec Ideal ⟨2, ![H, O]⟩ .f32) (bb : FVec Ideal ⟨2, ![1, O]⟩ .f32) : FVec Ideal ⟨2, ![T, O]⟩ .f32 :=
  addf (matmul (D2 wB) none
      (truncf .bf16 (maximumf (addf (matmul (D2 wA) none (truncf .bf16 x hlt) (truncf .bf16 wa hlt) (constant ⟨2, ![T, H]⟩ .f32 0x00000000#32))
          (broadcastTo ⟨2, ![T, H]⟩ ba hba)) (broadcast ⟨2, ![T, H]⟩ (Scalar.ofBits (F := Ideal) .f32 0x00000000#32))) hlt)
      (truncf .bf16 wb hlt) (constant ⟨2, ![T, O]⟩ .f32 0x00000000#32))
    (broadcastTo ⟨2, ![T, O]⟩ bb hbb)

theorem headTile_at {T K H O : Nat} (wA : DotDims.WF ⟨2, ![T, K]⟩ ⟨2, ![K, H]⟩ ⟨2, ![T, H]⟩ [1] [0] [0] [1] [] [])
    (wB : DotDims.WF ⟨2, ![T, H]⟩ ⟨2, ![H, O]⟩ ⟨2, ![T, O]⟩ [1] [0] [0] [1] [] [])
    (hba : (⟨2, ![1, H]⟩ : Shape).Broadcasts ⟨2, ![T, H]⟩) (hbb : (⟨2, ![1, O]⟩ : Shape).Broadcasts ⟨2, ![T, O]⟩)
    (hlt : FTy.bf16.bits < FTy.f32.bits)
    (x : FVec Ideal ⟨2, ![T, K]⟩ .f32) (wa : FVec Ideal ⟨2, ![K, H]⟩ .f32) (ba : FVec Ideal ⟨2, ![1, H]⟩ .f32)
    (wb : FVec Ideal ⟨2, ![H, O]⟩ .f32) (bb : FVec Ideal ⟨2, ![1, O]⟩ .f32) (r : Fin T) (q : Fin O) :
    headTile wA wB hba hbb hlt x wa ba wb bb (ix2 r q)
      = headVal x wa (fun j => ba (ix2 (0 : Fin 1) j)) wb (fun c => bb (ix2 (0 : Fin 1) c)) r q := by
  unfold headTile headVal
  rw [addf_apply, matmul_zero_at, broadcastTo_1b_ab_apply]
  refine congrArg (fun s => s + bb (ix2 (0 : Fin 1) q)) ?_
  refine Finset.sum_congr rfl fun j _ => ?_
  rw [truncf_apply, truncf_apply, maximumf_apply, addf_apply, matmul_zero_at, broadcastTo_1b_ab_apply, broadcast_apply]
  refine congrArg (fun s => max (s + ba (ix2 (0 : Fin 1) j)) (Ideal.ofBits .f32 0x00000000#32) * wb (ix2 j q)) ?_
  refine Finset.sum_congr rfl fun i _ => ?_
  rw [truncf_apply, truncf_apply]

/-- The host's spelling: two `dot_general`s, the biases vectors each made a row along a new unit axis and then broadcast
    along the rows, the one rectifier a maximum with a broadcast zero. -/
def headHost {N K H O : Nat} (wA : DotDims.WF ⟨2, ![N, K]⟩ ⟨2, ![K, H]⟩ ⟨2, ![N, H]⟩ [1] [0] [0] [1] [] [])
    (wB : DotDims.WF ⟨2, ![N, H]⟩ ⟨2, ![H, O]⟩ ⟨2, ![N, O]⟩ [1] [0] [0] [1] [] [])
    (hra : (⟨1, ![H]⟩ : Shape).BroadcastsInDim ⟨2, ![1, H]⟩ (![1] : Fin 1 → Fin 2))
    (hba : (⟨2, ![1, H]⟩ : Shape).BroadcastsInDim ⟨2, ![N, H]⟩ (![0, 1] : Fin 2 → Fin 2))
    (hz : (⟨0, ![]⟩ : Shape).BroadcastsInDim ⟨2, ![N, H]⟩ (![] : Fin 0 → Fin 2))
    (hrb : (⟨1, ![O]⟩ : Shape).BroadcastsInDim ⟨2, ![1, O]⟩ (![1] : Fin 1 → Fin 2))
    (hbb : (⟨2, ![1, O]⟩ : Shape).BroadcastsInDim ⟨2, ![N, O]⟩ (![0, 1] : Fin 2 → Fin 2))
    (x : FVec Ideal ⟨2, ![N, K]⟩ .f32) (wa : FVec Ideal ⟨2, ![K, H]⟩ .f32) (ba : FVec Ideal ⟨1, ![H]⟩ .f32)
    (wb : FVec Ideal ⟨2, ![H, O]⟩ .f32) (bb : FVec Ideal ⟨1, ![O]⟩ .f32) : FVec Ideal ⟨2, ![N, O]⟩ .f32 :=
  addf (Host.dotGeneral (D2 wB) none
      (maximumf (addf (Host.dotGeneral (D2 wA) none x wa)
          (broadcastInDim ⟨2, ![N, H]⟩ (![0, 1] : Fin 2 → Fin 2) hba (broadcastInDim ⟨2, ![1, H]⟩ (![1] : Fin 1 → Fin 2) hra ba)))
        (broadcastInDim ⟨2, ![N, H]⟩ (![] : Fin 0 → Fin 2) hz (constant (F := Ideal) ⟨0, ![]⟩ .f32 0x00000000#32))) wb)
    (broadcastInDim ⟨2, ![N, O]⟩ (![0, 1] : Fin 2 → Fin 2) hbb (broadcastInDim ⟨2, ![1, O]⟩ (![1] : Fin 1 → Fin 2) hrb bb))

theorem headHost_at {N K H O : Nat} (wA : DotDims.WF ⟨2, ![N, K]⟩ ⟨2, ![K, H]⟩ ⟨2, ![N, H]⟩ [1] [0] [0] [1] [] [])
    (wB : DotDims.WF ⟨2, ![N, H]⟩ ⟨2, ![H, O]⟩ ⟨2, ![N, O]⟩ [1] [0] [0] [1] [] [])
    (hra : (⟨1, ![H]⟩ : Shape).BroadcastsInDim ⟨2, ![1, H]⟩ (![1] : Fin 1 → Fin 2))
    (hba : (⟨2, ![1, H]⟩ : Shape).BroadcastsInDim ⟨2, ![N, H]⟩ (![0, 1] : Fin 2 → Fin 2))
    (hz : (⟨0, ![]⟩ : Shape).BroadcastsInDim ⟨2, ![N, H]⟩ (![] : Fin 0 → Fin 2))
    (hrb : (⟨1, ![O]⟩ : Shape).BroadcastsInDim ⟨2, ![1, O]⟩ (![1] : Fin 1 → Fin 2))
    (hbb : (⟨2, ![1, O]⟩ : Shape).BroadcastsInDim ⟨2, ![N, O]⟩ (![0, 1] : Fin 2 → Fin 2))
    (x : FVec Ideal ⟨2, ![N, K]⟩ .f32) (wa : FVec Ideal ⟨2, ![K, H]⟩ .f32) (ba : FVec Ideal ⟨1, ![H]⟩ .f32)
    (wb : FVec Ideal ⟨2, ![H, O]⟩ .f32) (bb : FVec Ideal ⟨1, ![O]⟩ .f32) (r : Fin N) (q : Fin O) :
    headHost wA wB hra hba hz hrb hbb x wa ba wb bb (ix2 r q)
      = headVal x wa (fun j => ba (ix1 j)) wb (fun c => bb (ix1 c)) r q := by
  unfold headHost headVal
  rw [addf_apply, dotGeneral_at, bcastRow_at, bcastVec_at]
  refine congrArg (fun s => s + bb (ix1 q)) ?_
  refine Finset.sum_congr rfl fun j _ => ?_
  rw [maximumf_apply, addf_apply, dotGeneral_at, bcastRow_at, bcastVec_at, bcastScalar_at, constant_apply]

end Cert.Head

end
-- ==== Proof.BridgeRef.lean ====
/-
  The reference's stage terms, read at one entry at the ideal values.

  The reference's two-layer perceptron (two dense layers, each rectified), its layer normalisation and its regression
  head are the host's spellings of LibMlpAt, LibLnAt and LibHeadAt at the reference's extents: the printed dimension
  numbers are those of a plain product and every side condition is a proposition, so each identification is a
  definitional unfolding. Each stage then reads the closed formula of its library file at every entry.
-/
import proofs.«146653_j18459769438675_1_alg».proof.Proof.RefOps
import proofs.«146653_j18459769438675_1_alg».proof.Proof.LibMlpAt
import proofs.«146653_j18459769438675_1_alg».proof.Proof.LibHeadAt
import proofs.«146653_j18459769438675_1_alg».proof.Proof.LibLnAt

noncomputable section

namespace Cert.Bridge

open Cert.ReferenceIdeal Cert.ReferenceIdeal.Gen Idealize.ShloMosaic Idealize.ShloMosaic.ValueIdx

/-! ## The perceptron -/

/-- The perceptron from width 128 is the host's spelling with the biases made rows. -/
theorem refMlp128_eq (a : FVec Ideal S50000x128 .f32) (w1 : FVec Ideal S128x256 .f32) (b1 : FVec Ideal S256 .f32)
    (w2 : FVec Ideal S256x256 .f32) (b2 : FVec Ideal S256 .f32) :
    Hand.relu (F := Ideal) (Hand.dense256 (Hand.relu (Hand.dense128 a w1 b1)) w2 b2)
      = Cert.Mlp.mlpHostV dot_S50000x128_S128x256_S50000x256_1_0_0_1_n_n_wf dot_S50000x256_S256x256_S50000x256_1_0_0_1_n_n_wf
          bcast_S1x256_S50000x256_0_1 bcast_S_S50000x256 bcast_S256_S1x256_1 a w1 b1 w2 b2 := by
  unfold Hand.relu Hand.dense256 Hand.dense128 Hand.biasRows Cert.Mlp.mlpHostV Cert.Mlp.mlpHost
  rfl

/-- The reference's perceptron from width 128 at (r, q). -/
theorem refMlp128_at (a : FVec Ideal S50000x128 .f32) (w1 : FVec Ideal S128x256 .f32) (b1 : FVec Ideal S256 .f32)
    (w2 : FVec Ideal S256x256 .f32) (b2 : FVec Ideal S256 .f32) (r : Fin 50000) (q : Fin 256) :
    Hand.relu (F := Ideal) (Hand.dense256 (Hand.relu (Hand.dense128 a w1 b1)) w2 b2) (ix2 r q)
      = Cert.Mlp.mlpVal a w1 (broadcastInDim S1x256 ![1] bcast_S256_S1x256_1 b1) w2
          (broadcastInDim S1x256 ![1] bcast_S256_S1x256_1 b2) r q := by
  rw [refMlp128_eq]
  unfold Cert.Mlp.mlpHostV
  exact Cert.Mlp.mlpHost_at _ _ _ _ a w1 _ w2 _ r q

/-- The perceptron at width 256 is the host's spelling with the biases made rows. -/
theorem refMlp256_eq (a : FVec Ideal S50000x256 .f32) (w1 : FVec Ideal S256x256 .f32) (b1 : FVec Ideal S256 .f32)
    (w2 : FVec Ideal S256x256 .f32) (b2 : FVec Ideal S256 .f32) :
    Hand.relu (F := Ideal) (Hand.dense256 (Hand.relu (Hand.dense256 a w1 b1)) w2 b2)
      = Cert.Mlp.mlpHostV dot_S50000x256_S256x256_S50000x256_1_0_0_1_n_n_wf dot_S50000x256_S256x256_S50000x256_1_0_0_1_n_n_wf
          bcast_S1x256_S50000x256_0_1 bcast_S_S50000x256 bcast_S256_S1x256_1 a w1 b1 w2 b2 := by
  unfold Hand.relu Hand.dense256 Hand.biasRows Cert.Mlp.mlpHostV Cert.Mlp.mlpHost
  rfl

/-- The reference's perceptron at width 256 at (r, q). -/
theorem refMlp256_at (a : FVec Ideal S50000x256 .f32) (w1 : FVec Ideal S256x256 .f32) (b1 : FVec Ideal S256 .f32)
    (w2 : FVec Ideal S256x256 .f32) (b2 : FVec Ideal S256 .f32) (r : Fin 50000) (q : Fin 256) :
    Hand.relu (F := Ideal) (Hand.dense256 (Hand.relu (Hand.dense256 a w1 b1)) w2 b2) (ix2 r q)
      = Cert.Mlp.mlpVal a w1 (broadcastInDim S1x256 ![1] bcast_S256_S1x256_1 b1) w2
          (broadcastInDim S1x256 ![1] bcast_S256_S1x256_1 b2) r q := by
  rw [refMlp256_eq]
  unfold Cert.Mlp.mlpHostV
  exact Cert.Mlp.mlpHost_at _ _ _ _ a w1 _ w2 _ r q

/-! ## The head -/

/-- The reference's head is the host's spelling of the head. -/
theorem refHead_eq (p : FVec Ideal S256x256 .f32) (wp1 : FVec Ideal S256x128 .f32) (bp1 : FVec Ideal S128 .f32)
    (wp2 : FVec Ideal S128x1 .f32) (bp2 : FVec Ideal S1 .f32) :
    Hand.head (F := Ideal) p wp1 bp1 wp2 bp2
      = Cert.Head.headHost dot_S256x256_S256x128_S256x128_1_0_0_1_n_n_wf dot_S256x128_S128x1_S256x1_1_0_0_1_n_n_wf
          bcast_S128_S1x128_1 bcast_S1x128_S256x128_0_1 bcast_S_S256x128 bcast_S1_S1x1_1 bcast_S1x1_S256x1_0_1
          p wp1 bp1 wp2 bp2 := by
  unfold Hand.head Cert.Head.headHost
  rfl

/-- The reference's head at (r, q). -/
theorem refHead_at (p : FVec Ideal S256x256 .f32) (wp1 : FVec Ideal S256x128 .f32) (bp1 : FVec Ideal S128 .f32)
    (wp2 : FVec Ideal S128x1 .f32) (bp2 : FVec Ideal S1 .f32) (r : Fin 256) (q : Fin 1) :
    Hand.head (F := Ideal) p wp1 bp1 wp2 bp2 (ix2 r q)
      = Cert.Head.headVal p wp1 (fun j => bp1 (ix1 j)) wp2 (fun c => bp2 (ix1 c)) r q := by
  rw [refHead_eq]
  exact Cert.Head.headHost_at _ _ _ _ _ _ _ p wp1 bp1 wp2 bp2 r q

/-! ## The layer normalisation -/

/-- A reduction of [50000, 256] along axis 1 leaves [50000]. -/
theorem reduces_S50000x256_S50000 : S50000x256.Reduces [1] S50000 := by decide

/-- The reference's layer normalisation is the host's spelling with divisor 256 and offset 1e-5. -/
theorem refLN_eq (x : FVec Ideal S50000x256 .f32) (g be : FVec Ideal S256 .f32) :
    Hand.layerNorm (F := Ideal) x g be
      = Cert.Ln.lnHost 0x43800000#32 0x3727C5AC#32 reducesTo_S50000x256_S50000_d1 h_S_ bcast_S50000_S50000x1_0 bcast_S_S50000x1
          bcast_S50000x1_S50000x256_0_1 bcast_S1x256_S50000x256_0_1 bcast_S256_S1x256_1 x g be := by
  unfold Hand.layerNorm Hand.centered Hand.rowVar Hand.dofs Hand.centered Hand.rowMean Hand.biasRows
    Cert.Ln.lnHost Cert.Ln.hostVar Cert.Ln.hostMean
  rfl

/-- The reference's layer normalisation at (r, q). -/
theorem refLN_at (x : FVec Ideal S50000x256 .f32) (g be : FVec Ideal S256 .f32) (r : Fin 50000) (q : Fin 256) :
    Hand.layerNorm (F := Ideal) x g be (ix2 r q)
      = Cert.Ln.lnVal 0x43800000#32 0x3727C5AC#32 (fun k => x (ix2 r k)) (fun k => g (ix1 k)) (fun k => be (ix1 k)) q := by
  rw [refLN_eq]
  exact Cert.Ln.lnHost_at _ _ Cert.Ln.ofBits_256_pos _ reduces_S50000x256_S50000 _ _ _ _ _ _ x g be r q

end Cert.Bridge

end
-- ==== Proof.BridgeLN.lean ====
/-
  Each layer-norm launch's output array is the reference's layer term.

  A launch works on blocks of 2000 rows. The block that holds row r = 2000·t + p of the layer's input has, as its row p,
  the input's row r; the perceptron's value at a row depends on that row of the input only, the layer normalisation's
  value at a row on that row of the perceptron's output only, and the one-row blocks of biases, scales and shifts read the
  vectors they were re-laid from. So entry (p, q) of the block a launch stores is entry (r, q) of the reference's layer
  term of the whole input.
-/
import proofs.«146653_j18459769438675_1_alg».proof.Proof.KPayLN
import proofs.«146653_j18459769438675_1_alg».proof.Proof.KHost
import proofs.«146653_j18459769438675_1_alg».proof.Proof.Glue
import proofs.«146653_j18459769438675_1_alg».proof.Proof.BridgeRef
import proofs.«146653_j18459769438675_1_alg».proof.Proof.KBlocks0
import proofs.«146653_j18459769438675_1_alg».proof.Proof.KBlocks1
import proofs.«146653_j18459769438675_1_alg».proof.Proof.KBlocks2

noncomputable section

namespace Cert.Bridge

open Idealize.ShloMosaic Idealize.ShloMosaic.ValueIdx
open Cert.KernelIdeal (S50000x128 S50000x256 S2000x128 S2000x256 S128x256 S256x256 S256 S1x256 S3x256 S3x256x256)
open Cert.KernelIdeal.Gen (out0_7 out1_7 out2_7)
open Cert.KernelIdeal.Hand (asRow vrow0 vrow1 vrow2 mrow0 mrow1 mrow2 out0_7_at out1_7_at out2_7_at G0 G0_apply G1 G1_apply G2 G2_apply)
open Cert.ReferenceIdeal.Hand (layerNorm relu dense128 dense256 layerLN128 layerLN256_1 layerLN256_2)

/-- A vector re-laid as one row is the vector broadcast along a new leading unit axis. -/
theorem asRow_eq_bcast (v : FVec Ideal S256 .f32) :
    asRow (F := Ideal) v = broadcastInDim S1x256 ![1] Cert.ReferenceIdeal.Gen.bcast_S256_S1x256_1 v :=
  Cert.Mlp.rowCast_eq_bcast v _ _

/-- A vector re-laid as one row reads, at (0, k), the vector at k. -/
theorem asRow_at (v : FVec Ideal S256 .f32) (k : Fin 256) : asRow (F := Ideal) v (ix2 (0 : Fin 1) k) = v (ix1 k) :=
  shapeCast_a_1a_apply v _ (0 : Fin 1) k

/-- Launch 0: a block B whose row p is row r of X stores, at (p, q), the reference's layer term of X at (r, q). -/
theorem core0 (X : FVec Ideal S50000x128 .f32) (B : FVec Ideal S2000x128 .f32) (w1 : FVec Ideal S128x256 .f32)
    (b1 : FVec Ideal S256 .f32) (w2 : FVec Ideal S256x256 .f32) (b2 g be : FVec Ideal S256 .f32)
    (r : Fin 50000) (p : Fin 2000) (hB : ∀ i : Fin 128, B (ix2 p i) = X (ix2 r i)) (q : Fin 256) :
    out0_7 (F := Ideal) B w1 (asRow b1) w2 (asRow b2) (asRow g) (asRow be) (ix2 p q)
      = layerNorm (F := Ideal) (relu (dense256 (relu (dense128 X w1 b1)) w2 b2)) g be (ix2 r q) := by
  refine (out0_7_at B w1 (asRow b1) w2 (asRow b2) (asRow g) (asRow be) p q).trans ?_
  refine Eq.trans ?_ (refLN_at _ g be r q).symm
  refine Cert.Ln.lnVal_congr _ _ (fun k => ?_) (fun k => asRow_at g k) (fun k => asRow_at be k) q
  refine Eq.trans ?_ (refMlp128_at X w1 b1 w2 b2 r k).symm
  rewrite [← asRow_eq_bcast b1, ← asRow_eq_bcast b2]
  exact Cert.Mlp.mlpVal_congr_row B X w1 _ w2 _ p r hB k

/-- Launch 1, the same at width 256. -/
theorem core1 (X : FVec Ideal S50000x256 .f32) (B : FVec Ideal S2000x256 .f32) (w1 : FVec Ideal S256x256 .f32)
    (b1 : FVec Ideal S256 .f32) (w2 : FVec Ideal S256x256 .f32) (b2 g be : FVec Ideal S256 .f32)
    (r : Fin 50000) (p : Fin 2000) (hB : ∀ i : Fin 256, B (ix2 p i) = X (ix2 r i)) (q : Fin 256) :
    out1_7 (F := Ideal) B w1 (asRow b1) w2 (asRow b2) (asRow g) (asRow be) (ix2 p q)
      = layerNorm (F := Ideal) (relu (dense256 (relu (dense256 X w1 b1)) w2 b2)) g be (ix2 r q) := by
  refine (out1_7_at B w1 (asRow b1) w2 (asRow b2) (asRow g) (asRow be) p q).trans ?_
  refine Eq.trans ?_ (refLN_at _ g be r q).symm
  refine Cert.Ln.lnVal_congr _ _ (fun k => ?_) (fun k => asRow_at g k) (fun k => asRow_at be k) q
  refine Eq.trans ?_ (refMlp256_at X w1 b1 w2 b2 r k).symm
  rewrite [← asRow_eq_bcast b1, ← asRow_eq_bcast b2]
  exact Cert.Mlp.mlpVal_congr_row B X w1 _ w2 _ p r hB k

/-- Launch 2, the same again. -/
theorem core2 (X : FVec Ideal S50000x256 .f32) (B : FVec Ideal S2000x256 .f32) (w1 : FVec Ideal S256x256 .f32)
    (b1 : FVec Ideal S256 .f32) (w2 : FVec Ideal S256x256 .f32) (b2 g be : FVec Ideal S256 .f32)
    (r : Fin 50000) (p : Fin 2000) (hB : ∀ i : Fin 256, B (ix2 p i) = X (ix2 r i)) (q : Fin 256) :
    out2_7 (F := Ideal) B w1 (asRow b1) w2 (asRow b2) (asRow g) (asRow be) (ix2 p q)
      = layerNorm (F := Ideal) (relu (dense256 (relu (dense256 X w1 b1)) w2 b2)) g be (ix2 r q) := by
  refine (out2_7_at B w1 (asRow b1) w2 (asRow b2) (asRow g) (asRow be) p q).trans ?_
  refine Eq.trans ?_ (refLN_at _ g be r q).symm
  refine Cert.Ln.lnVal_congr _ _ (fun k => ?_) (fun k => asRow_at g k) (fun k => asRow_at be k) q
  refine Eq.trans ?_ (refMlp256_at X w1 b1 w2 b2 r k).symm
  rewrite [← asRow_eq_bcast b1, ← asRow_eq_bcast b2]
  exact Cert.Mlp.mlpVal_congr_row B X w1 _ w2 _ p r hB k

/-! ## The launches' output arrays -/

/-- Launch 0's output array is the reference's first layer term. -/
theorem layer0_eq (X : FVec Ideal S50000x128 .f32) (w1 : FVec Ideal S128x256 .f32) (b1 : FVec Ideal S256 .f32)
    (w2 : FVec Ideal S256x256 .f32) (b2 : FVec Ideal S256 .f32) (g3 be3 : FVec Ideal S3x256 .f32) :
    G0 (F := Ideal) X w1 (asRow (F := Ideal) b1) w2 (asRow (F := Ideal) b2) (asRow (F := Ideal) (vrow0 (F := Ideal) g3))
        (asRow (F := Ideal) (vrow0 (F := Ideal) be3))
      = layerLN128 (F := Ideal) X w1 b1 w2 b2 g3 be3 := by
  funext j
  obtain ⟨r, q, rfl⟩ : ∃ (r : Fin 50000) (q : Fin 256), j = ix2 r q := ⟨j 0, j 1, eq_ix2 j⟩
  refine (G0_apply X w1 _ w2 _ _ _ r q).trans ?_
  unfold layerLN128
  rewrite [← vrow0_eq (F := Ideal) g3, ← vrow0_eq (F := Ideal) be3]
  refine core0 X _ w1 b1 w2 b2 (vrow0 (F := Ideal) g3) (vrow0 (F := Ideal) be3) r _ (fun i => ?_) q
  show X _ = X _
  refine congrArg X (funext fun a => Fin.ext ?_)
  match a with
  | ⟨0, _⟩ => exact Nat.div_add_mod r.val 2000
  | ⟨1, _⟩ => rfl

/-- Launch 1's output array is the reference's second layer term. -/
theorem layer1_eq (X : FVec Ideal S50000x256 .f32) (w1r : FVec Ideal S3x256x256 .f32) (b1r : FVec Ideal S3x256 .f32)
    (w2r : FVec Ideal S3x256x256 .f32) (b2r : FVec Ideal S3x256 .f32) (g3 be3 : FVec Ideal S3x256 .f32) :
    G1 (F := Ideal) X (mrow0 (F := Ideal) w1r) (asRow (F := Ideal) (vrow0 (F := Ideal) b1r)) (mrow0 (F := Ideal) w2r)
        (asRow (F := Ideal) (vrow0 (F := Ideal) b2r)) (asRow (F := Ideal) (vrow1 (F := Ideal) g3))
        (asRow (F := Ideal) (vrow1 (F := Ideal) be3))
      = layerLN256_1 (F := Ideal) X w1r b1r w2r b2r g3 be3 := by
  funext j
  obtain ⟨r, q, rfl⟩ : ∃ (r : Fin 50000) (q : Fin 256), j = ix2 r q := ⟨j 0, j 1, eq_ix2 j⟩
  refine (G1_apply X _ _ _ _ _ _ r q).trans ?_
  unfold layerLN256_1
  rewrite [← mrow0_eq (F := Ideal) w1r, ← mrow0_eq (F := Ideal) w2r, ← vrow0_eq (F := Ideal) b1r,
    ← vrow0_eq (F := Ideal) b2r, ← vrow1_eq (F := Ideal) g3, ← vrow1_eq (F := Ideal) be3]
  refine core1 X _ (mrow0 (F := Ideal) w1r) (vrow0 (F := Ideal) b1r) (mrow0 (F := Ideal) w2r) (vrow0 (F := Ideal) b2r)
    (vrow1 (F := Ideal) g3) (vrow1 (F := Ideal) be3) r _ (fun i => ?_) q
  show X _ = X _
  refine congrArg X (funext fun a => Fin.ext ?_)
  match a with
  | ⟨0, _⟩ => exact Nat.div_add_mod r.val 2000
  | ⟨1, _⟩ => rfl

/-- Launch 2's output array is the reference's third layer term. -/
theorem layer2_eq (X : FVec Ideal S50000x256 .f32) (w1r : FVec Ideal S3x256x256 .f32) (b1r : FVec Ideal S3x256 .f32)
    (w2r : FVec Ideal S3x256x256 .f32) (b2r : FVec Ideal S3x256 .f32) (g3 be3 : FVec Ideal S3x256 .f32) :
    G2 (F := Ideal) X (mrow1 (F := Ideal) w1r) (asRow (F := Ideal) (vrow1 (F := Ideal) b1r)) (mrow1 (F := Ideal) w2r)
        (asRow (F := Ideal) (vrow1 (F := Ideal) b2r)) (asRow (F := Ideal) (vrow2 (F := Ideal) g3))
        (asRow (F := Ideal) (vrow2 (F := Ideal) be3))
      = layerLN256_2 (F := Ideal) X w1r b1r w2r b2r g3 be3 := by
  funext j
  obtain ⟨r, q, rfl⟩ : ∃ (r : Fin 50000) (q : Fin 256), j = ix2 r q := ⟨j 0, j 1, eq_ix2 j⟩
  refine (G2_apply X _ _ _ _ _ _ r q).trans ?_
  unfold layerLN256_2
  rewrite [← mrow1_eq (F := Ideal) w1r, ← mrow1_eq (F := Ideal) w2r, ← vrow1_eq (F := Ideal) b1r,
    ← vrow1_eq (F := Ideal) b2r, ← vrow2_eq (F := Ideal) g3, ← vrow2_eq (F := Ideal) be3]
  refine core2 X _ (mrow1 (F := Ideal) w1r) (vrow1 (F := Ideal) b1r) (mrow1 (F := Ideal) w2r) (vrow1 (F := Ideal) b2r)
    (vrow2 (F := Ideal) g3) (vrow2 (F := Ideal) be3) r _ (fun i => ?_) q
  show X _ = X _
  refine congrArg X (funext fun a => Fin.ext ?_)
  match a with
  | ⟨0, _⟩ => exact Nat.div_add_mod r.val 2000
  | ⟨1, _⟩ => rfl

end Cert.Bridge

end
-- ==== Proof.KPayPlain.lean ====
/-
  The two whole-block regions without a layer norm, read at one entry at the ideal values.

  Each region's body loads every window's whole block, applies one payload and stores the result over the whole
  output block, so what the body leaves in the output buffer is the payload of the blocks themselves. The first
  payload is the two-layer perceptron with rectifiers of LibMlpAt; the second is the regression head of LibHeadAt
  (one rectified layer, then an affine map with no rectifier).
-/
import proofs.«146653_j18459769438675_1_alg».proof.Proof.Gen.KernelIdeal.Frame
import proofs.«146653_j18459769438675_1_alg».proof.Proof.LibMlpAt
import proofs.«146653_j18459769438675_1_alg».proof.Proof.LibHeadAt

noncomputable section

namespace Cert.KernelIdeal.Hand

open Idealize.ShloMosaic Idealize.ShloMosaic.ValueIdx

/-- The whole-block rectangle's offsets, spelt as a literal pair, are all zero. -/
theorem hz2 : (![0, 0] : Fin 2 → Nat) = fun _ => 0 := funext fun a => by fin_cases a <;> rfl

/-- The perceptron region's payload is the tile spelling of the perceptron: the reshapes to the same shape are
    identities and the printed dimension numbers are those of a plain product. -/
theorem k3_pay1_eq (x0 : Vec Ideal S2000x256 .f32) (x1 : Vec Ideal S256x256 .f32) (x2 : Vec Ideal S1x256 .f32)
    (x3 : Vec Ideal S256x256 .f32) (x4 : Vec Ideal S1x256 .f32) :
    Gen.k3_pay1 (F := Ideal) x0 x1 x2 x3 x4
      = Cert.Mlp.mlpTile Gen.dot_S2000x256_S256x256_S2000x256_1_0_0_1_n_n_wf Gen.dot_S2000x256_S256x256_S2000x256_1_0_0_1_n_n_wf
          Gen.broadcasts_S1x256_S2000x256 Gen.bitsLt_bf16_f32 x0 x1 x2 x3 x4 := by
  unfold Gen.k3_pay1 Cert.Mlp.mlpTile
  simp only [shapeCast_self]
  rfl

/-- What the perceptron region's body leaves in its output buffer, at (p, q). -/
theorem out3_5_at (x0 : Vec Ideal S2000x256 .f32) (x1 : Vec Ideal S256x256 .f32) (x2 : Vec Ideal S1x256 .f32)
    (x3 : Vec Ideal S256x256 .f32) (x4 : Vec Ideal S1x256 .f32) (p : Fin 2000) (q : Fin 256) :
    Gen.out3_5 (F := Ideal) x0 x1 x2 x3 x4 (ix2 p q) = Cert.Mlp.mlpVal x0 x1 x2 x3 x4 p q := by
  unfold Gen.out3_5
  rw [View.canon_unit_zero hz2]
  simp only [View.ld_unit_zero (S := S2000x256) hz2, View.ld_unit_zero (S := S256x256) hz2,
    View.ld_unit_zero (S := S1x256) hz2]
  rw [k3_pay1_eq]
  exact Cert.Mlp.mlpTile_at _ _ _ _ x0 x1 x2 x3 x4 p q

/-- The head region's payload is the tile spelling of the head: the reshapes to the same shape are identities and
    the printed dimension numbers are those of plain products. -/
theorem k4_pay1_eq (x0 : Vec Ideal S256x256 .f32) (x1 : Vec Ideal S256x128 .f32) (x2 : Vec Ideal S1x128 .f32)
    (x3 : Vec Ideal S128x1 .f32) (x4 : Vec Ideal S1x1 .f32) :
    Gen.k4_pay1 (F := Ideal) x0 x1 x2 x3 x4
      = Cert.Head.headTile Gen.dot_S256x256_S256x128_S256x128_1_0_0_1_n_n_wf Gen.dot_S256x128_S128x1_S256x1_1_0_0_1_n_n_wf
          Gen.broadcasts_S1x128_S256x128 Gen.broadcasts_S1x1_S256x1 Gen.bitsLt_bf16_f32 x0 x1 x2 x3 x4 := by
  unfold Gen.k4_pay1 Cert.Head.headTile
  simp only [shapeCast_self]
  rfl

/-- What the head region's body leaves in its output buffer, at (r, q). -/
theorem out4_5_at (x0 : Vec Ideal S256x256 .f32) (x1 : Vec Ideal S256x128 .f32) (x2 : Vec Ideal S1x128 .f32)
    (x3 : Vec Ideal S128x1 .f32) (x4 : Vec Ideal S1x1 .f32) (r : Fin 256) (q : Fin 1) :
    Gen.out4_5 (F := Ideal) x0 x1 x2 x3 x4 (ix2 r q)
      = Cert.Head.headVal x0 x1 (fun j => x2 (ix2 (0 : Fin 1) j)) x3 (fun c => x4 (ix2 (0 : Fin 1) c)) r q := by
  unfold Gen.out4_5
  rw [View.canon_unit_zero hz2]
  simp only [View.ld_unit_zero (S := S256x256) hz2, View.ld_unit_zero (S := S256x128) hz2,
    View.ld_unit_zero (S := S1x128) hz2, View.ld_unit_zero (S := S128x1) hz2, View.ld_unit_zero (S := S1x1) hz2]
  rw [k4_pay1_eq]
  exact Cert.Head.headTile_at _ _ _ _ _ x0 x1 x2 x3 x4 r q

end Cert.KernelIdeal.Hand

end
-- ==== Proof.BridgePlain.lean ====
/-
  The two regions without a layer norm compute the reference's stages.

  The perceptron region's body, on a block of 2000 rows, leaves at row p the perceptron of the block's row p; when that
  row is row r of the whole array this is the reference's layer without a layer norm at row r, because the perceptron at
  a row reads only that row. The head region's body, on the whole pooled array, leaves the reference's head. On the
  kernel's side a bias vector is re-laid as one row; on the reference's side it is broadcast along a new unit axis: both
  read the vector's entry i at (0, i).
-/
import proofs.«146653_j18459769438675_1_alg».proof.Proof.BridgeRef
import proofs.«146653_j18459769438675_1_alg».proof.Proof.KPayPlain
import proofs.«146653_j18459769438675_1_alg».proof.Proof.KHost
import proofs.«146653_j18459769438675_1_alg».proof.Proof.Glue
import proofs.«146653_j18459769438675_1_alg».proof.Proof.KBlocks3
import proofs.«146653_j18459769438675_1_alg».proof.Proof.KBlocks4

noncomputable section

namespace Cert.Bridge

open Cert.ReferenceIdeal Cert.ReferenceIdeal.Gen Idealize.ShloMosaic Idealize.ShloMosaic.ValueIdx

/-- A bias vector re-laid as one row is the vector broadcast along a new unit axis. -/
theorem asRow_eq (b : FVec Ideal S256 .f32) :
    Cert.KernelIdeal.Hand.asRow (F := Ideal) b = broadcastInDim S1x256 ![1] bcast_S256_S1x256_1 b :=
  Cert.Mlp.rowCast_eq_bcast b _ _

/-- The perceptron region's body on a block whose row p is row r of X, with the third matrices and bias rows of the
    stacks: at (p, q) it leaves the reference's layer without a layer norm at (r, q). -/
theorem layer3_core (X : FVec Ideal S50000x256 .f32) (w1r : FVec Ideal S3x256x256 .f32) (b1r : FVec Ideal S3x256 .f32)
    (w2r : FVec Ideal S3x256x256 .f32) (b2r : FVec Ideal S3x256 .f32)
    (blk : FVec Ideal Cert.KernelIdeal.S2000x256 .f32) (r : Fin 50000) (p : Fin 2000) (hrow : ∀ i : Fin 256, blk (ix2 p i) = X (ix2 r i))
    (q : Fin 256) :
    Cert.KernelIdeal.Gen.out3_5 (F := Ideal) blk (Cert.KernelIdeal.Hand.mrow2 w1r)
        (Cert.KernelIdeal.Hand.asRow (Cert.KernelIdeal.Hand.vrow2 b1r)) (Cert.KernelIdeal.Hand.mrow2 w2r)
        (Cert.KernelIdeal.Hand.asRow (Cert.KernelIdeal.Hand.vrow2 b2r)) (ix2 p q)
      = Hand.layerPlain256 (F := Ideal) X w1r b1r w2r b2r (ix2 r q) := by
  refine (Cert.KernelIdeal.Hand.out3_5_at blk _ _ _ _ p q).trans ?_
  rw [asRow_eq, asRow_eq, mrow2_eq, mrow2_eq, vrow2_eq, vrow2_eq]
  refine (Cert.Mlp.mlpVal_congr_row blk X _ _ _ _ p r hrow q).trans ?_
  exact (refMlp256_at X _ _ _ _ r q).symm

/-- The perceptron region over all 25 blocks of 2000 rows is the reference's layer without a layer norm: row r of the
    result is row r mod 2000 of block r div 2000, and that block's row is row r of X. -/
theorem layer3_eq (X : FVec Ideal S50000x256 .f32) (w1r : FVec Ideal S3x256x256 .f32) (b1r : FVec Ideal S3x256 .f32)
    (w2r : FVec Ideal S3x256x256 .f32) (b2r : FVec Ideal S3x256 .f32) :
    Cert.KernelIdeal.Hand.G3 (F := Ideal) X (Cert.KernelIdeal.Hand.mrow2 (F := Ideal) w1r)
        (Cert.KernelIdeal.Hand.asRow (F := Ideal) (Cert.KernelIdeal.Hand.vrow2 b1r)) (Cert.KernelIdeal.Hand.mrow2 (F := Ideal) w2r)
        (Cert.KernelIdeal.Hand.asRow (F := Ideal) (Cert.KernelIdeal.Hand.vrow2 b2r))
      = Hand.layerPlain256 (F := Ideal) X w1r b1r w2r b2r := by
  funext j
  obtain ⟨r, q, rfl⟩ : ∃ (r : Fin 50000) (q : Fin 256), j = ix2 r q := ⟨j 0, j 1, eq_ix2 j⟩
  rw [Cert.KernelIdeal.Hand.G3_apply]
  refine layer3_core X w1r b1r w2r b2r _ r _ (fun i => ?_) q
  refine congrArg X ?_
  refine congrArg₂ (ix2 (n0 := 50000) (n1 := 256)) (Fin.ext ?_) (Fin.ext ?_)
  · exact Nat.div_add_mod r.val 2000
  · rfl

/-- The head region's body on the whole pooled array, the bias vectors re-laid as rows: the reference's head, at
    (r, q). -/
theorem head_core (P : FVec Ideal S256x256 .f32) (wp1 : FVec Ideal S256x128 .f32) (bp1 : FVec Ideal S128 .f32)
    (wp2 : FVec Ideal S128x1 .f32) (bp2 : FVec Ideal S1 .f32) (r : Fin 256) (q : Fin 1) :
    Cert.KernelIdeal.Gen.out4_5 (F := Ideal) P wp1 (shapeCast S1x128 bp1 Cert.KernelIdeal.Gen.shapeCasts_S128_S1x128) wp2
        (shapeCast S1x1 bp2 Cert.KernelIdeal.Gen.shapeCasts_S1_S1x1) (ix2 r q)
      = Hand.head (F := Ideal) P wp1 bp1 wp2 bp2 (ix2 r q) := by
  refine (Cert.KernelIdeal.Hand.out4_5_at P wp1 _ wp2 _ r q).trans ?_
  simp only [shapeCast_a_1a_apply]
  exact (refHead_at P wp1 bp1 wp2 bp2 r q).symm

/-- The head region over its one grid point, the bias vectors re-laid as rows, is the reference's head. -/
theorem head_eq (P : FVec Ideal S256x256 .f32) (wp1 : FVec Ideal S256x128 .f32) (bp1 : FVec Ideal S128 .f32)
    (wp2 : FVec Ideal S128x1 .f32) (bp2 : FVec Ideal S1 .f32) :
    Cert.KernelIdeal.Hand.G4 (F := Ideal) P wp1 (shapeCast S1x128 bp1 Cert.KernelIdeal.Gen.shapeCasts_S128_S1x128) wp2
        (shapeCast S1x1 bp2 Cert.KernelIdeal.Gen.shapeCasts_S1_S1x1)
      = Hand.head (F := Ideal) P wp1 bp1 wp2 bp2 := by
  funext j
  obtain ⟨r, q, rfl⟩ : ∃ (r : Fin 256) (q : Fin 1), j = ix2 r q := ⟨j 0, j 1, eq_ix2 j⟩
  rw [Cert.KernelIdeal.Hand.G4_eq]
  exact head_core P wp1 bp1 wp2 bp2 r q

end Cert.Bridge

end
-- ==== Proof.Bridge.lean ====
/-
  The kernel program's term of the seventeen arguments is the reference's.

  Layer by layer, from the inside out: the first launch's output array is the reference's first layer of the aggregated
  input; the aggregation of that array is the same function in both programs; the second launch's output is the
  reference's second layer of it; and so on through the fourth layer, the pooling and the head.
-/
import proofs.«146653_j18459769438675_1_alg».proof.Proof.KChain
import proofs.«146653_j18459769438675_1_alg».proof.Proof.Glue
import proofs.«146653_j18459769438675_1_alg».proof.Proof.BridgeLN
import proofs.«146653_j18459769438675_1_alg».proof.Proof.BridgePlain

noncomputable section

namespace Cert.Bridge

open Idealize.ShloMosaic

theorem kresult_eq_result (a0 : Cert.KernelIdeal.Hand.Arr Ideal Cert.KernelIdeal.S50000x128 .f32) (a1 : Cert.KernelIdeal.Hand.Arr Ideal Cert.KernelIdeal.S2x800000 .i32) (a2 : Cert.KernelIdeal.Hand.Arr Ideal Cert.KernelIdeal.S50000 .i32)
    (a3 : Cert.KernelIdeal.Hand.Arr Ideal Cert.KernelIdeal.S128x256 .f32) (a4 : Cert.KernelIdeal.Hand.Arr Ideal Cert.KernelIdeal.S256 .f32) (a5 : Cert.KernelIdeal.Hand.Arr Ideal Cert.KernelIdeal.S256x256 .f32) (a6 : Cert.KernelIdeal.Hand.Arr Ideal Cert.KernelIdeal.S256 .f32)
    (a7 : Cert.KernelIdeal.Hand.Arr Ideal Cert.KernelIdeal.S3x256x256 .f32) (a8 : Cert.KernelIdeal.Hand.Arr Ideal Cert.KernelIdeal.S3x256 .f32) (a9 : Cert.KernelIdeal.Hand.Arr Ideal Cert.KernelIdeal.S3x256x256 .f32) (a10 a11 a12 : Cert.KernelIdeal.Hand.Arr Ideal Cert.KernelIdeal.S3x256 .f32)
    (a13 : Cert.KernelIdeal.Hand.Arr Ideal Cert.KernelIdeal.S256x128 .f32) (a14 : Cert.KernelIdeal.Hand.Arr Ideal Cert.KernelIdeal.S128 .f32) (a15 : Cert.KernelIdeal.Hand.Arr Ideal Cert.KernelIdeal.S128x1 .f32) (a16 : Cert.KernelIdeal.Hand.Arr Ideal Cert.KernelIdeal.S1 .f32) :
    Cert.KernelIdeal.Hand.kresult (F := Ideal) a0 a1 a2 a3 a4 a5 a6 a7 a8 a9 a10 a11 a12 a13 a14 a15 a16
      = Cert.ReferenceIdeal.Hand.result a0 a1 a2 a3 a4 a5 a6 a7 a8 a9 a10 a11 a12 a13 a14 a15 a16 := by
  unfold Cert.KernelIdeal.Hand.kresult Cert.KernelIdeal.Hand.out4 Cert.KernelIdeal.Hand.out3 Cert.KernelIdeal.Hand.out2 Cert.KernelIdeal.Hand.out1 Cert.ReferenceIdeal.Hand.result
  rewrite [layer0_eq, layer1_eq, layer2_eq, layer3_eq, head_eq, pool_eq, agg256_eq, agg256_eq, agg256_eq, agg128_eq, srcIdx_eq, dstIdx_eq]
  rfl

end Cert.Bridge

end
-- ==== Proof.lean ====
/-
  Two programs for one graph network, equal at the ideal values.

  The network: four message-passing layers — each adds to every node's feature row the rows of the sources of its incoming
  edges, applies a two-layer perceptron with rectifiers, and (all but the last) normalises each row to zero mean and unit
  variance before a learned scale and shift —, then the mean of the node rows of every graph, then a two-layer regression
  head. One program runs the perceptrons, the normalisation and the head as launched kernels over blocks of 2000 node rows
  (the matrix products on operands narrowed to bf16); the other is plain array code. At the ideal values a change of float
  format is the identity and a matrix product is the plain sum over the contracted coordinate, so a block of rows of a
  layer's output is the same rows of the array code's output: every row of a layer depends on the same row of its input
  only. The aggregation and the pooling are the same host operations in both programs and are carried as one function.
  The reference's variance divides by 256 − 0 under the guard 256 − 0 > 0; x − 0 = x on the extended reals. No other
  algebra is used, and the precondition (finite inputs) is never opened.

  The frames: the two kernel programs' are the generated frame certificates; the reference has no launch and its frame is
  its run with the result dropped. The ideal pass rewrote nothing, so the kernel's idealisation is the program itself.
-/
import proofs.«146653_j18459769438675_1_alg».proof.Defs
import proofs.«146653_j18459769438675_1_alg».proof.Proof.Gen.Kernel
import proofs.«146653_j18459769438675_1_alg».proof.Proof.Gen.Kernel.Frame
import proofs.«146653_j18459769438675_1_alg».proof.Proof.Gen.KernelIdeal
import proofs.«146653_j18459769438675_1_alg».proof.Proof.Gen.KernelIdeal.Frame
import proofs.«146653_j18459769438675_1_alg».proof.Proof.Gen.ReferenceIdeal
import proofs.«146653_j18459769438675_1_alg».proof.Proof.Gen.Pre_finite_inputs
import proofs.«146653_j18459769438675_1_alg».proof.Proof.KRun
import proofs.«146653_j18459769438675_1_alg».proof.Proof.KChain
import proofs.«146653_j18459769438675_1_alg».proof.Proof.RefRun
import proofs.«146653_j18459769438675_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ

/-- The reference's run leaves every argument buffer as launched: no operation writes one. -/
theorem frame_ri : Cert.frame_ReferenceIdeal := fun m ρ _ =>
  (θ_run Cert.ReferenceIdeal.defs _ _).mono (fun _ h c =>
    ⟨(h c _).trans (Cert.ReferenceIdeal.Hand.arg_eq_0 _),
     (h c _).trans (Cert.ReferenceIdeal.Hand.arg_eq_1 _),
     (h c _).trans (Cert.ReferenceIdeal.Hand.arg_eq_2 _),
     (h c _).trans (Cert.ReferenceIdeal.Hand.arg_eq_3 _),
     (h c _).trans (Cert.ReferenceIdeal.Hand.arg_eq_4 _),
     (h c _).trans (Cert.ReferenceIdeal.Hand.arg_eq_5 _),
     (h c _).trans (Cert.ReferenceIdeal.Hand.arg_eq_6 _),
     (h c _).trans (Cert.ReferenceIdeal.Hand.arg_eq_7 _),
     (h c _).trans (Cert.ReferenceIdeal.Hand.arg_eq_8 _),
     (h c _).trans (Cert.ReferenceIdeal.Hand.arg_eq_9 _),
     (h c _).trans (Cert.ReferenceIdeal.Hand.arg_eq_10 _),
     (h c _).trans (Cert.ReferenceIdeal.Hand.arg_eq_11 _),
     (h c _).trans (Cert.ReferenceIdeal.Hand.arg_eq_12 _),
     (h c _).trans (Cert.ReferenceIdeal.Hand.arg_eq_13 _),
     (h c _).trans (Cert.ReferenceIdeal.Hand.arg_eq_14 _),
     (h c _).trans (Cert.ReferenceIdeal.Hand.arg_eq_15 _),
     (h c _).trans (Cert.ReferenceIdeal.Hand.arg_eq_16 _)⟩)
    (Cert.ReferenceIdeal.Hand.run_main (F := Ideal) m ρ)

theorem preserves : Cert.preserves_Kernel_KernelIdeal := trivial

/-- Both runs end, the kernel program's result buffer at its term of the arguments (the launches' functions of the
    aggregated layers), the reference's at its own term; from memories that agree on the arguments the two terms are one. -/
theorem algebraic : Cert.algebraic_KernelIdeal_ReferenceIdeal := by
  intro m ρ m' ρ' _ hagree
  refine ⟨fun c => Cert.KernelIdeal.Hand.kresult (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · exact (θ_run Cert.KernelIdeal.defs _ _).mono
      (fun r h c => ⟨(h c).1.trans (Cert.KernelIdeal.Hand.W10_v116 m ρ c), (h c).2⟩)
      (Cert.KernelIdeal.Hand.run_main (F := Ideal) m ρ)
  · refine (θ_run Cert.ReferenceIdeal.defs _ _).mono (fun r h c =>
      ⟨?_, (h c _).trans (Cert.ReferenceIdeal.Hand.arg_eq_0 _),
       (h c _).trans (Cert.ReferenceIdeal.Hand.arg_eq_1 _),
       (h c _).trans (Cert.ReferenceIdeal.Hand.arg_eq_2 _),
       (h c _).trans (Cert.ReferenceIdeal.Hand.arg_eq_3 _),
       (h c _).trans (Cert.ReferenceIdeal.Hand.arg_eq_4 _),
       (h c _).trans (Cert.ReferenceIdeal.Hand.arg_eq_5 _),
       (h c _).trans (Cert.ReferenceIdeal.Hand.arg_eq_6 _),
       (h c _).trans (Cert.ReferenceIdeal.Hand.arg_eq_7 _),
       (h c _).trans (Cert.ReferenceIdeal.Hand.arg_eq_8 _),
       (h c _).trans (Cert.ReferenceIdeal.Hand.arg_eq_9 _),
       (h c _).trans (Cert.ReferenceIdeal.Hand.arg_eq_10 _),
       (h c _).trans (Cert.ReferenceIdeal.Hand.arg_eq_11 _),
       (h c _).trans (Cert.ReferenceIdeal.Hand.arg_eq_12 _),
       (h c _).trans (Cert.ReferenceIdeal.Hand.arg_eq_13 _),
       (h c _).trans (Cert.ReferenceIdeal.Hand.arg_eq_14 _),
       (h c _).trans (Cert.ReferenceIdeal.Hand.arg_eq_15 _),
       (h c _).trans (Cert.ReferenceIdeal.Hand.arg_eq_16 _)⟩)
      (Cert.ReferenceIdeal.Hand.run_main (F := Ideal) m' ρ')
    obtain ⟨e0, e1, e2, e3, e4, e5, e6, e7, e8, e9, e10, e11, e12, e13, e14, e15, e16⟩ := hagree c
    refine (h c _).trans ((Cert.ReferenceIdeal.Hand.result_eq _).trans ?_)
    show Cert.ReferenceIdeal.Hand.result (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) = _
    rw [e0, e1, e2, e3, e4, e5, e6, e7, e8, e9, e10, e11, e12, e13, e14, e15, e16]
    exact (Cert.Bridge.kresult_eq_result ..).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
